-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3x128x128x128 : Shape := ⟨5, ![2, 3, 128, 128, 128]⟩
abbrev S2x1x128x128x128 : Shape := ⟨5, ![2, 1, 128, 128, 128]⟩
abbrev S_ : Shape := ⟨0, ![]⟩

class Facts : Prop where
  bcast_S_S2x3x128x128x128 : S_.BroadcastsInDim S2x3x128x128x128 (![] : Fin 0 → Fin S2x3x128x128x128.rank)
  reducesTo_S2x3x128x128x128_S_d0_1_2_3_4 : S2x3x128x128x128.ReducesTo [0, 1, 2, 3, 4] S_
  h_S_ : 0 < S_.numel
  bcast_S_S2x1x128x128x128 : S_.BroadcastsInDim S2x1x128x128x128 (![] : Fin 0 → Fin S2x1x128x128x128.rank)
  reducesTo_S2x1x128x128x128_S_d0_1_2_3_4 : S2x1x128x128x128.ReducesTo [0, 1, 2, 3, 4] S_

variable [Facts]

def fn {F : FTy → Type} [FloatOps F] (main_arg0 : FVec F S2x3x128x128x128 .f32) (main_arg1 : FVec F S2x3x128x128x128 .f32) (main_arg2 : FVec F S2x1x128x128x128 .f32) : IVec S_ 1 :=
  let main_v0 : FVec F S2x3x128x128x128 .f32 := Host.absf main_arg0
  let main_cst : FVec F S_ .f32 := constant S_ .f32 0x7F800000#32
  let main_v1 : FVec F S2x3x128x128x128 .f32 := broadcastInDim S2x3x128x128x128 ![] bcast_S_S2x3x128x128x128 main_cst
  let main_v2 : IVec S2x3x128x128x128 1 := cmpf .olt main_v0 main_v1
  let main_c : IVec S_ 1 := constantI S_ 1 1#1
  let main_v3 : IVec S_ 1 := (fun x v => Host.reduce IntOp.andi x v reducesTo_S2x3x128x128x128_S_d0_1_2_3_4 h_S_) main_v2 main_c
  let main_v4 : FVec F S2x3x128x128x128 .f32 := Host.absf main_arg1
  let main_cst_0 : FVec F S_ .f32 := constant S_ .f32 0x7F800000#32
  let main_v5 : FVec F S2x3x128x128x128 .f32 := broadcastInDim S2x3x128x128x128 ![] bcast_S_S2x3x128x128x128 main_cst_0
  let main_v6 : IVec S2x3x128x128x128 1 := cmpf .olt main_v4 main_v5
  let main_c_1 : IVec S_ 1 := constantI S_ 1 1#1
  let main_v7 : IVec S_ 1 := (fun x v => Host.reduce IntOp.andi x v reducesTo_S2x3x128x128x128_S_d0_1_2_3_4 h_S_) main_v6 main_c_1
  let main_v8 : IVec S_ 1 := andi main_v3 main_v7
  let main_v9 : FVec F S2x1x128x128x128 .f32 := Host.absf main_arg2
  let main_cst_2 : FVec F S_ .f32 := constant S_ .f32 0x7F800000#32
  let main_v10 : FVec F S2x1x128x128x128 .f32 := broadcastInDim S2x1x128x128x128 ![] bcast_S_S2x1x128x128x128 main_cst_2
  let main_v11 : IVec S2x1x128x128x128 1 := cmpf .olt main_v9 main_v10
  let main_c_3 : IVec S_ 1 := constantI S_ 1 1#1
  let main_v12 : IVec S_ 1 := (fun x v => Host.reduce IntOp.andi x v reducesTo_S2x1x128x128x128_S_d0_1_2_3_4 h_S_) main_v11 main_c_3
  let main_v13 : IVec S_ 1 := andi main_v8 main_v12
  main_v13
-- ==== Kernel.lean ====
abbrev S2x3x128x128x128 : Shape := ⟨5, ![2, 3, 128, 128, 128]⟩
abbrev S2x1x128x128x128 : Shape := ⟨5, ![2, 1, 128, 128, 128]⟩
abbrev S1x128 : Shape := ⟨2, ![1, 128]⟩
abbrev S1x1x128x128x128 : Shape := ⟨5, ![1, 1, 128, 128, 128]⟩
abbrev S1x1 : Shape := ⟨2, ![1, 1]⟩
abbrev S1x1x9x128x128 : Shape := ⟨5, ![1, 1, 9, 128, 128]⟩
abbrev S9x128x128 : Shape := ⟨3, ![9, 128, 128]⟩
abbrev S8x128x128 : Shape := ⟨3, ![8, 128, 128]⟩
abbrev S8x128 : Shape := ⟨2, ![8, 128]⟩
abbrev S8 : Shape := ⟨1, ![8]⟩
abbrev S8x1 : Shape := ⟨2, ![8, 1]⟩
abbrev S1 : Shape := ⟨1, ![1]⟩
abbrev S8x127x128 : Shape := ⟨3, ![8, 127, 128]⟩
abbrev S8x127 : Shape := ⟨2, ![8, 127]⟩
abbrev S8x128x127 : Shape := ⟨3, ![8, 128, 127]⟩
abbrev S1x1x8x128x128 : Shape := ⟨5, ![1, 1, 8, 128, 128]⟩
abbrev S7x128x128 : Shape := ⟨3, ![7, 128, 128]⟩
abbrev S7x128 : Shape := ⟨2, ![7, 128]⟩
abbrev S7 : Shape := ⟨1, ![7]⟩
abbrev S7x1 : Shape := ⟨2, ![7, 1]⟩
abbrev S1x14 : Shape := ⟨2, ![1, 14]⟩
abbrev S1x114 : Shape := ⟨2, ![1, 114]⟩
abbrev S14 : Shape := ⟨1, ![14]⟩
abbrev S_ : Shape := ⟨0, ![]⟩

abbrev nBuf : Space → Nat
  | .hbm => 79
  | .vmem => 4
  | .smem => 0
  | _ => 0

abbrev bufTy : (tb : Table) → Fin (tcTables nBuf tb) → BufTy
  | .hbm, ⟨0, _⟩ => ⟨S2x3x128x128x128, .f32⟩
  | .hbm, ⟨1, _⟩ => ⟨S2x3x128x128x128, .f32⟩
  | .hbm, ⟨2, _⟩ => ⟨S2x1x128x128x128, .f32⟩
  | .hbm, ⟨3, _⟩ => ⟨S1x128, .f32⟩
  | .hbm, ⟨4, _⟩ => ⟨S1x14, .f32⟩
  | .hbm, ⟨5, _⟩ => ⟨S14, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S_, .f32⟩
  | .hbm, ⟨10, _⟩ => ⟨S1, .f32⟩
  | .hbm, ⟨11, _⟩ => ⟨S_, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S1, .f32⟩
  | .hbm, ⟨25, _⟩ => ⟨S_, .f32⟩
  | .hbm, ⟨26, _⟩ => ⟨S1, .f32⟩
  | .hbm, ⟨27, _⟩ => ⟨S_, .f32⟩
  | .hbm, ⟨28, _⟩ => ⟨S1, .f32⟩
  | .hbm, ⟨29, _⟩ => ⟨S_, .f32⟩
  | .hbm, ⟨30, _⟩ => ⟨S1, .f32⟩
  | .hbm, ⟨31, _⟩ => ⟨S_, .f32⟩
  | .hbm, ⟨32, _⟩ => ⟨S1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .local _ .vmem, ⟨0, _⟩ => ⟨S1x1x128x128x128, .f32⟩
  | .local _ .vmem, ⟨1, _⟩ => ⟨S1x1x128x128x128, .f32⟩
  | .local _ .vmem, ⟨2, _⟩ => ⟨S1x1x128x128x128, .f32⟩
  | .local _ .vmem, ⟨3, _⟩ => ⟨S1x128, .f32⟩
  | _, _ => ⟨S2x3x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_cst : Ref sig .tc := ⟨.hbm, 34, rfl⟩
abbrev main_v31 : Ref sig .tc := ⟨.hbm, 35, rfl⟩
abbrev main_v32 : Ref sig .tc := ⟨.hbm, 36, rfl⟩
abbrev main_cst_0 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_7 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_8 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨2, ![2, 3], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1x128x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1x128x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1x128x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  inb_S1x128_S1x128_0_0 : ∀ a, (![0, 0] : Fin 2 → Nat) a + S1x128.size a ≤ S1x128.size a
  h_S1x128 : 0 < S1x128.numel
  inb_S1x1x128x128x128_S1x1x9x128x128_0_0_0_0_0 : ∀ a, (![0, 0, 0, 0, 0] : Fin 5 → Nat) a + S1x1x9x128x128.size a ≤ S1x1x128x128x128.size a
  h_S1x1x9x128x128 : 0 < S1x1x9x128x128.numel
  shapeCasts_S1x1x9x128x128_S9x128x128 : S1x1x9x128x128.ShapeCasts S9x128x128
  slices_S9x128x128_o0_0_0_S8x128x128 : S9x128x128.Slices ![0, 0, 0] S8x128x128
  reduces_S8x128x128_S8x128 : S8x128x128.Reduces [2] S8x128
  reduces_S8x128_S8 : S8x128.Reduces [1] S8
  shapeCasts_S8_S8x1 : S8.ShapeCasts S8x1
  reduces_S8x1_S1 : S8x1.Reduces [0] S1
  shapeCasts_S1_S1x1 : S1.ShapeCasts S1x1
  slices_S8x128x128_o0_1_0_S8x127x128 : S8x128x128.Slices ![0, 1, 0] S8x127x128
  slices_S8x128x128_o0_0_0_S8x127x128 : S8x128x128.Slices ![0, 0, 0] S8x127x128
  reduces_S8x127x128_S8x127 : S8x127x128.Reduces [2] S8x127
  reduces_S8x127_S8 : S8x127.Reduces [1] S8
  slices_S8x128x128_o0_0_1_S8x128x127 : S8x128x128.Slices ![0, 0, 1] S8x128x127
  slices_S8x128x128_o0_0_0_S8x128x127 : S8x128x128.Slices ![0, 0, 0] S8x128x127
  reduces_S8x128x127_S8x128 : S8x128x127.Reduces [2] S8x128
  slices_S9x128x128_o1_0_0_S8x128x128 : S9x128x128.Slices ![1, 0, 0] S8x128x128
  inb_S1x1x128x128x128_S1x1x9x128x128_0_0_8_0_0 : ∀ a, (![0, 0, 8, 0, 0] : Fin 5 → Nat) a + S1x1x9x128x128.size a ≤ S1x1x128x128x128.size a
  inb_S1x1x128x128x128_S1x1x9x128x128_0_0_16_0_0 : ∀ a, (![0, 0, 16, 0, 0] : Fin 5 → Nat) a + S1x1x9x128x128.size a ≤ S1x1x128x128x128.size a
  inb_S1x1x128x128x128_S1x1x9x128x128_0_0_24_0_0 : ∀ a, (![0, 0, 24, 0, 0] : Fin 5 → Nat) a + S1x1x9x128x128.size a ≤ S1x1x128x128x128.size a
  inb_S1x1x128x128x128_S1x1x9x128x128_0_0_32_0_0 : ∀ a, (![0, 0, 32, 0, 0] : Fin 5 → Nat) a + S1x1x9x128x128.size a ≤ S1x1x128x128x128.size a
  inb_S1x1x128x128x128_S1x1x9x128x128_0_0_40_0_0 : ∀ a, (![0, 0, 40, 0, 0] : Fin 5 → Nat) a + S1x1x9x128x128.size a ≤ S1x1x128x128x128.size a
  inb_S1x1x128x128x128_S1x1x9x128x128_0_0_48_0_0 : ∀ a, (![0, 0, 48, 0, 0] : Fin 5 → Nat) a + S1x1x9x128x128.size a ≤ S1x1x128x128x128.size a
  inb_S1x1x128x128x128_S1x1x9x128x128_0_0_56_0_0 : ∀ a, (![0, 0, 56, 0, 0] : Fin 5 → Nat) a + S1x1x9x128x128.size a ≤ S1x1x128x128x128.size a
  inb_S1x1x128x128x128_S1x1x9x128x128_0_0_64_0_0 : ∀ a, (![0, 0, 64, 0, 0] : Fin 5 → Nat) a + S1x1x9x128x128.size a ≤ S1x1x128x128x128.size a
  inb_S1x1x128x128x128_S1x1x9x128x128_0_0_72_0_0 : ∀ a, (![0, 0, 72, 0, 0] : Fin 5 → Nat) a + S1x1x9x128x128.size a ≤ S1x1x128x128x128.size a
  inb_S1x1x128x128x128_S1x1x9x128x128_0_0_80_0_0 : ∀ a, (![0, 0, 80, 0, 0] : Fin 5 → Nat) a + S1x1x9x128x128.size a ≤ S1x1x128x128x128.size a
  inb_S1x1x128x128x128_S1x1x9x128x128_0_0_88_0_0 : ∀ a, (![0, 0, 88, 0, 0] : Fin 5 → Nat) a + S1x1x9x128x128.size a ≤ S1x1x128x128x128.size a
  inb_S1x1x128x128x128_S1x1x9x128x128_0_0_96_0_0 : ∀ a, (![0, 0, 96, 0, 0] : Fin 5 → Nat) a + S1x1x9x128x128.size a ≤ S1x1x128x128x128.size a
  inb_S1x1x128x128x128_S1x1x9x128x128_0_0_104_0_0 : ∀ a, (![0, 0, 104, 0, 0] : Fin 5 → Nat) a + S1x1x9x128x128.size a ≤ S1x1x128x128x128.size a
  inb_S1x1x128x128x128_S1x1x9x128x128_0_0_112_0_0 : ∀ a, (![0, 0, 112, 0, 0] : Fin 5 → Nat) a + S1x1x9x128x128.size a ≤ S1x1x128x128x128.size a
  inb_S1x1x128x128x128_S1x1x8x128x128_0_0_120_0_0 : ∀ a, (![0, 0, 120, 0, 0] : Fin 5 → Nat) a + S1x1x8x128x128.size a ≤ S1x1x128x128x128.size a
  h_S1x1x8x128x128 : 0 < S1x1x8x128x128.numel
  shapeCasts_S1x1x8x128x128_S8x128x128 : S1x1x8x128x128.ShapeCasts S8x128x128
  slices_S8x128x128_o1_0_0_S7x128x128 : S8x128x128.Slices ![1, 0, 0] S7x128x128
  slices_S8x128x128_o0_0_0_S7x128x128 : S8x128x128.Slices ![0, 0, 0] S7x128x128
  reduces_S7x128x128_S7x128 : S7x128x128.Reduces [2] S7x128
  reduces_S7x128_S7 : S7x128.Reduces [1] S7
  shapeCasts_S7_S7x1 : S7.ShapeCasts S7x1
  reduces_S7x1_S1 : S7x1.Reduces [0] S1
  concatenates_S1x1_S1x1_S1x1_S1x1_S1x1_S1x1_S1x1_S1x1_S1x1_S1x1_S1x1_S1x1_S1x1_S1x1_S1x14_d1 : Shape.Concatenates [S1x1, S1x1, S1x1, S1x1, S1x1, S1x1, S1x1, S1x1, S1x1, S1x1, S1x1, S1x1, S1x1, S1x1] S1x14 1
  concatenates_S1x14_S1x114_S1x128_d1 : Shape.Concatenates [S1x14, S1x114] S1x128 1
  shapeCasts_S1x128_S1x128 : S1x128.ShapeCasts S1x128
  slices_S1x128_S1x14_0_0 : S1x128.Slices ![0, 0] S1x14
  shapeCasts_S1x14_S14 : S1x14.ShapeCasts S14
  slices_S14_S1_0 : S14.Slices ![0] S1
  shapeCasts_S1_S_ : S1.ShapeCasts S_
  slices_S14_S1_1 : S14.Slices ![1] S1
  slices_S14_S1_2 : S14.Slices ![2] S1
  slices_S14_S1_3 : S14.Slices ![3] S1
  slices_S14_S1_4 : S14.Slices ![4] S1
  slices_S14_S1_5 : S14.Slices ![5] S1
  slices_S14_S1_6 : S14.Slices ![6] S1
  slices_S14_S1_7 : S14.Slices ![7] S1
  slices_S14_S1_8 : S14.Slices ![8] S1
  slices_S14_S1_9 : S14.Slices ![9] S1
  slices_S14_S1_10 : S14.Slices ![10] S1
  slices_S14_S1_11 : S14.Slices ![11] S1
  slices_S14_S1_12 : S14.Slices ![12] S1
  slices_S14_S1_13 : S14.Slices ![13] S1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1x128x128x128.size a ≤ S2x3x128x128x128.size a
  hwx0_0 : ∀ i : grid0.Coords, EltTy.bits .f32 = 32 ∨ (Rect.block (s := S2x3x128x128x128) S1x1x128x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x128x128x128.size a ≤ S2x3x128x128x128.size a
  hwx0_1 : ∀ i : grid0.Coords, EltTy.bits .f32 = 32 ∨ (Rect.block (s := S2x3x128x128x128) S1x1x128x128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1x128x128x128.size a ≤ S2x1x128x128x128.size a
  hwx0_2 : ∀ i : grid0.Coords, EltTy.bits .f32 = 32 ∨ (Rect.block (s := S2x1x128x128x128) S1x1x128x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)

variable [Facts₀]

abbrev win0_0 : Pipeline.Window sig grid0 :=
  Pipeline.Window.ofSpec (Memref.whole main_arg0) S1x1x128x128x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x128x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x128x128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x3x128x128x128 : Shape := ⟨5, ![2, 3, 128, 128, 128]⟩
abbrev S2x1x128x128x128 : Shape := ⟨5, ![2, 1, 128, 128, 128]⟩
abbrev S_ : Shape := ⟨0, ![]⟩
abbrev S2x3x127x128x128 : Shape := ⟨5, ![2, 3, 127, 128, 128]⟩
abbrev S2x3x128x127x128 : Shape := ⟨5, ![2, 3, 128, 127, 128]⟩
abbrev S2x3x128x128x127 : Shape := ⟨5, ![2, 3, 128, 128, 127]⟩
abbrev S2x1x127x128x128 : Shape := ⟨5, ![2, 1, 127, 128, 128]⟩
abbrev S2x1x128x127x128 : Shape := ⟨5, ![2, 1, 128, 127, 128]⟩
abbrev S2x1x128x128x127 : Shape := ⟨5, ![2, 1, 128, 128, 127]⟩

abbrev nBuf : Space → Nat
  | .hbm => 167
  | .vmem => 0
  | .smem => 0
  | _ => 0

abbrev hbmTy0_0 (i : Nat) : BufTy := match i % 128 with
  | 0 => ⟨S2x3x128x128x128, .f32⟩
  | 1 => ⟨S2x3x128x128x128, .f32⟩
  | 2 => ⟨S2x1x128x128x128, .f32⟩
  | 3 => ⟨S2x3x128x128x128, .f32⟩
  | 4 => ⟨S2x3x128x128x128, .f32⟩
  | 5 => ⟨S2x3x128x128x128, .f32⟩
  | 6 => ⟨S2x3x128x128x128, .f32⟩
  | 7 => ⟨S2x3x128x128x128, .f32⟩
  | 8 => ⟨S2x3x128x128x128, .f32⟩
  | 9 => ⟨S2x3x128x128x128, .f32⟩
  | 10 => ⟨S2x3x128x128x128, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S2x3x127x128x128, .f32⟩
  | 21 => ⟨S2x3x127x128x128, .f32⟩
  | 22 => ⟨S2x3x127x128x128, .f32⟩
  | 23 => ⟨S2x3x128x127x128, .f32⟩
  | 24 => ⟨S2x3x128x127x128, .f32⟩
  | 25 => ⟨S2x3x128x127x128, .f32⟩
  | 26 => ⟨S2x3x128x128x127, .f32⟩
  | 27 => ⟨S2x3x128x128x127, .f32⟩
  | 28 => ⟨S2x3x128x128x127, .f32⟩
  | 29 => ⟨S2x3x127x128x128, .f32⟩
  | 30 => ⟨S2x3x127x128x128, .f32⟩
  | 31 => ⟨S2x3x127x128x128, .f32⟩
  | 32 => ⟨S2x3x128x127x128, .f32⟩
  | 33 => ⟨S2x3x128x127x128, .f32⟩
  | 34 => ⟨S2x3x128x127x128, .f32⟩
  | 35 => ⟨S2x3x128x128x127, .f32⟩
  | 36 => ⟨S2x3x128x128x127, .f32⟩
  | 37 => ⟨S2x3x128x128x127, .f32⟩
  | 38 => ⟨S2x1x127x128x128, .f32⟩
  | 39 => ⟨S2x1x127x128x128, .f32⟩
  | 40 => ⟨S2x1x127x128x128, .f32⟩
  | 41 => ⟨S2x1x128x127x128, .f32⟩
  | 42 => ⟨S2x1x128x127x128, .f32⟩
  | 43 => ⟨S2x1x128x127x128, .f32⟩
  | 44 => ⟨S2x1x128x128x127, .f32⟩
  | 45 => ⟨S2x1x128x128x127, .f32⟩
  | 46 => ⟨S2x1x128x128x127, .f32⟩
  | 47 => ⟨S2x3x127x128x128, .f32⟩
  | 48 => ⟨S2x3x127x128x128, .f32⟩
  | 49 => ⟨S2x3x127x128x128, .f32⟩
  | 50 => ⟨S2x3x127x128x128, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S2x3x128x127x128, .f32⟩
  | 61 => ⟨S2x3x128x127x128, .f32⟩
  | 62 => ⟨S2x3x128x127x128, .f32⟩
  | 63 => ⟨S2x3x128x127x128, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S2x3x128x128x127, .f32⟩
  | 75 => ⟨S2x3x128x128x127, .f32⟩
  | 76 => ⟨S2x3x128x128x127, .f32⟩
  | 77 => ⟨S2x3x128x128x127, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S2x3x127x128x128, .f32⟩
  | 89 => ⟨S2x3x127x128x128, .f32⟩
  | 90 => ⟨S2x3x127x128x128, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S2x3x128x127x128, .f32⟩
  | 101 => ⟨S2x3x128x127x128, .f32⟩
  | 102 => ⟨S2x3x128x127x128, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S2x3x128x128x127, .f32⟩
  | 114 => ⟨S2x3x128x128x127, .f32⟩
  | 115 => ⟨S2x3x128x128x127, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S2x1x128x128x128, .f32⟩
  | _ => ⟨S2x3x128x128x128, .f32⟩

abbrev hbmTy0_1 (i : Nat) : BufTy := match i % 128 with
  | 0 => ⟨S2x1x128x128x128, .f32⟩
  | 1 => ⟨S2x3x128x128x128, .f32⟩
  | 2 => ⟨S2x3x128x128x128, .f32⟩
  | 3 => ⟨S2x3x128x128x128, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S2x3x128x128x128, .f32⟩
  | 14 => ⟨S2x3x128x128x128, .f32⟩
  | 15 => ⟨S2x3x128x128x128, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | _ => ⟨S2x3x128x128x128, .f32⟩

abbrev hbmTy (i : Nat) : BufTy := match i / 128 with
  | 0 => hbmTy0_0 i
  | 1 => hbmTy0_1 i
  | _ => ⟨S2x3x128x128x128, .f32⟩

abbrev bufTy : (tb : Table) → Fin (tcTables nBuf tb) → BufTy
  | .hbm, ⟨i, _⟩ => hbmTy i
  | _, _ => ⟨S2x3x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_cst_5 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_7 : Ref sig .tc := ⟨.hbm, 64, rfl⟩
abbrev main_v53 : Ref sig .tc := ⟨.hbm, 65, rfl⟩
abbrev main_cst_8 : Ref sig .tc := ⟨.hbm, 66, rfl⟩
abbrev main_v54 : Ref sig .tc := ⟨.hbm, 67, rfl⟩
abbrev main_cst_9 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_11 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_15 : Ref sig .tc := ⟨.hbm, 91, rfl⟩
abbrev main_v72 : Ref sig .tc := ⟨.hbm, 92, rfl⟩
abbrev main_cst_16 : Ref sig .tc := ⟨.hbm, 93, rfl⟩
abbrev main_v73 : Ref sig .tc := ⟨.hbm, 94, rfl⟩
abbrev main_cst_17 : Ref sig .tc := ⟨.hbm, 95, rfl⟩
abbrev main_v74 : Ref sig .tc := ⟨.hbm, 96, rfl⟩
abbrev main_cst_18 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_19 : Ref sig .tc := ⟨.hbm, 103, rfl⟩
abbrev main_v80 : Ref sig .tc := ⟨.hbm, 104, rfl⟩
abbrev main_cst_20 : Ref sig .tc := ⟨.hbm, 105, rfl⟩
abbrev main_v81 : Ref sig .tc := ⟨.hbm, 106, rfl⟩
abbrev main_cst_21 : Ref sig .tc := ⟨.hbm, 107, rfl⟩
abbrev main_v82 : Ref sig .tc := ⟨.hbm, 108, rfl⟩
abbrev main_cst_22 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_23 : Ref sig .tc := ⟨.hbm, 116, rfl⟩
abbrev main_v89 : Ref sig .tc := ⟨.hbm, 117, rfl⟩
abbrev main_cst_24 : Ref sig .tc := ⟨.hbm, 118, rfl⟩
abbrev main_v90 : Ref sig .tc := ⟨.hbm, 119, rfl⟩
abbrev main_cst_25 : Ref sig .tc := ⟨.hbm, 120, rfl⟩
abbrev main_v91 : Ref sig .tc := ⟨.hbm, 121, rfl⟩
abbrev main_cst_26 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_27 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_28 : Ref sig .tc := ⟨.hbm, 132, rfl⟩
abbrev main_v100 : Ref sig .tc := ⟨.hbm, 133, rfl⟩
abbrev main_cst_29 : Ref sig .tc := ⟨.hbm, 134, rfl⟩
abbrev main_v101 : Ref sig .tc := ⟨.hbm, 135, rfl⟩
abbrev main_cst_30 : Ref sig .tc := ⟨.hbm, 136, rfl⟩
abbrev main_v102 : Ref sig .tc := ⟨.hbm, 137, rfl⟩
abbrev main_cst_31 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_32 : Ref sig .tc := ⟨.hbm, 144, rfl⟩
abbrev main_v108 : Ref sig .tc := ⟨.hbm, 145, rfl⟩
abbrev main_cst_33 : Ref sig .tc := ⟨.hbm, 146, rfl⟩
abbrev main_v109 : Ref sig .tc := ⟨.hbm, 147, rfl⟩
abbrev main_cst_34 : Ref sig .tc := ⟨.hbm, 148, rfl⟩
abbrev main_v110 : Ref sig .tc := ⟨.hbm, 149, rfl⟩
abbrev main_cst_35 : Ref sig .tc := ⟨.hbm, 150, rfl⟩
abbrev main_v111 : Ref sig .tc := ⟨.hbm, 151, rfl⟩
abbrev main_v112 : Ref sig .tc := ⟨.hbm, 152, rfl⟩
abbrev main_cst_36 : Ref sig .tc := ⟨.hbm, 153, rfl⟩
abbrev main_v113 : Ref sig .tc := ⟨.hbm, 154, rfl⟩
abbrev main_cst_37 : Ref sig .tc := ⟨.hbm, 155, rfl⟩
abbrev main_v114 : Ref sig .tc := ⟨.hbm, 156, rfl⟩
abbrev main_v115 : Ref sig .tc := ⟨.hbm, 157, rfl⟩
abbrev main_cst_38 : Ref sig .tc := ⟨.hbm, 158, rfl⟩
abbrev main_v116 : Ref sig .tc := ⟨.hbm, 159, rfl⟩
abbrev main_v117 : Ref sig .tc := ⟨.hbm, 160, rfl⟩
abbrev main_cst_39 : Ref sig .tc := ⟨.hbm, 161, rfl⟩
abbrev main_v118 : Ref sig .tc := ⟨.hbm, 162, rfl⟩
abbrev main_v119 : Ref sig .tc := ⟨.hbm, 163, rfl⟩
abbrev main_cst_40 : Ref sig .tc := ⟨.hbm, 164, rfl⟩
abbrev main_v120 : Ref sig .tc := ⟨.hbm, 165, rfl⟩
abbrev main_v121 : Ref sig .tc := ⟨.hbm, 166, rfl⟩

abbrev nD : Nat := 1
abbrev τ : Topo := Topo.v7x

variable {F : FTy → Type} [FloatOps F]

class Facts₀ : Prop where
  bcast_S2x1x128x128x128_S2x3x128x128x128_0_1_2_3_4 : S2x1x128x128x128.BroadcastsInDim S2x3x128x128x128 (![0, 1, 2, 3, 4] : Fin 5 → Fin S2x3x128x128x128.rank)
  reducesTo_S2x3x128x128x128_S_d0_1_2_3_4 : S2x3x128x128x128.ReducesTo [0, 1, 2, 3, 4] S_
  h_S_ : 0 < S_.numel
  reducesTo_S2x1x128x128x128_S_d0_1_2_3_4 : S2x1x128x128x128.ReducesTo [0, 1, 2, 3, 4] S_
  slices_S2x3x128x128x128_S2x3x127x128x128_0_0_1_0_0 : S2x3x128x128x128.Slices ![0, 0, 1, 0, 0] S2x3x127x128x128
  slices_S2x3x128x128x128_S2x3x127x128x128_0_0_0_0_0 : S2x3x128x128x128.Slices ![0, 0, 0, 0, 0] S2x3x127x128x128
  slices_S2x3x128x128x128_S2x3x128x127x128_0_0_0_1_0 : S2x3x128x128x128.Slices ![0, 0, 0, 1, 0] S2x3x128x127x128
  slices_S2x3x128x128x128_S2x3x128x127x128_0_0_0_0_0 : S2x3x128x128x128.Slices ![0, 0, 0, 0, 0] S2x3x128x127x128
  slices_S2x3x128x128x128_S2x3x128x128x127_0_0_0_0_1 : S2x3x128x128x128.Slices ![0, 0, 0, 0, 1] S2x3x128x128x127
  slices_S2x3x128x128x128_S2x3x128x128x127_0_0_0_0_0 : S2x3x128x128x128.Slices ![0, 0, 0, 0, 0] S2x3x128x128x127
  slices_S2x1x128x128x128_S2x1x127x128x128_0_0_1_0_0 : S2x1x128x128x128.Slices ![0, 0, 1, 0, 0] S2x1x127x128x128
  slices_S2x1x128x128x128_S2x1x127x128x128_0_0_0_0_0 : S2x1x128x128x128.Slices ![0, 0, 0, 0, 0] S2x1x127x128x128
  slices_S2x1x128x128x128_S2x1x128x127x128_0_0_0_1_0 : S2x1x128x128x128.Slices ![0, 0, 0, 1, 0] S2x1x128x127x128
  slices_S2x1x128x128x128_S2x1x128x127x128_0_0_0_0_0 : S2x1x128x128x128.Slices ![0, 0, 0, 0, 0] S2x1x128x127x128
  slices_S2x1x128x128x128_S2x1x128x128x127_0_0_0_0_1 : S2x1x128x128x128.Slices ![0, 0, 0, 0, 1] S2x1x128x128x127
  slices_S2x1x128x128x128_S2x1x128x128x127_0_0_0_0_0 : S2x1x128x128x128.Slices ![0, 0, 0, 0, 0] S2x1x128x128x127
  bcast_S2x1x127x128x128_S2x3x127x128x128_0_1_2_3_4 : S2x1x127x128x128.BroadcastsInDim S2x3x127x128x128 (![0, 1, 2, 3, 4] : Fin 5 → Fin S2x3x127x128x128.rank)
  reducesTo_S2x3x127x128x128_S_d0_1_2_3_4 : S2x3x127x128x128.ReducesTo [0, 1, 2, 3, 4] S_
  reducesTo_S2x1x127x128x128_S_d0_1_2_3_4 : S2x1x127x128x128.ReducesTo [0, 1, 2, 3, 4] S_
  bcast_S2x1x128x127x128_S2x3x128x127x128_0_1_2_3_4 : S2x1x128x127x128.BroadcastsInDim S2x3x128x127x128 (![0, 1, 2, 3, 4] : Fin 5 → Fin S2x3x128x127x128.rank)
  reducesTo_S2x3x128x127x128_S_d0_1_2_3_4 : S2x3x128x127x128.ReducesTo [0, 1, 2, 3, 4] S_
  reducesTo_S2x1x128x127x128_S_d0_1_2_3_4 : S2x1x128x127x128.ReducesTo [0, 1, 2, 3, 4] S_
  bcast_S2x1x128x128x127_S2x3x128x128x127_0_1_2_3_4 : S2x1x128x128x127.BroadcastsInDim S2x3x128x128x127 (![0, 1, 2, 3, 4] : Fin 5 → Fin S2x3x128x128x127.rank)
  reducesTo_S2x3x128x128x127_S_d0_1_2_3_4 : S2x3x128x128x127.ReducesTo [0, 1, 2, 3, 4] S_
  reducesTo_S2x1x128x128x127_S_d0_1_2_3_4 : S2x1x128x128x127.ReducesTo [0, 1, 2, 3, 4] S_
  bcast_S_S2x1x128x128x128 : S_.BroadcastsInDim S2x1x128x128x128 (![] : Fin 0 → Fin S2x1x128x128x128.rank)

variable [Facts₀]

class Facts : Prop extends Facts₀ where

variable [Facts]
-- ==== Proof.K.Setup.lean ====
/-
  The loss kernel's frame, part one: what the region finds and what follows it.

  @main is one region over a 2 × 3 grid followed by 75 scalar host operations. At a grid point (b, c) the body is
  handed the whole [128,128,128] volume of pred and of target at (b, c) and of mask at (b, 0), and one [1,128] row that
  every point shares: the row is zeroed at the first point, added to at each point, and written back after the last.
  Here: the buffers' contents when the region is entered (as launched: nothing precedes it); that @main reduces to
  the region continued by the later lines; that those lines touch only unscoped buffers, allocate nothing and write
  no array a window stages; each input window's block at a point, and that the body finds it in the staging buffer
  whether or not the point fetched it (the mask's block index does not move while c does); the frame claim's post
  read off a frame run's; and the one branch condition, b = 0 ∧ c = 0, decided over the grid: it holds at the first
  point only.
-/
import proofs.«161304_j43791486550161_2_alg».proof.Proof.Gen.Kernel.Launch
import proofs.«161304_j43791486550161_2_alg».proof.Proof.Gen.Kernel.Skeleton
import proofs.«161304_j43791486550161_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
-- the 75 later lines are one long list: statements over it pass the default budget
set_option maxHeartbeats 4000000

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: as launched, no host operation coming first. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

set_option maxHeartbeats 4000000 in
/-- None of the 75 later lines allocates a buffer. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main is the region followed by the later lines: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The later lines touch the windows' arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 4000000 in
/-- Each later line writes its own result buffer, which is none of the four arrays the windows stage. -/
theorem hostOps1_keeps : (hostOps1 : List (HloOp τ sig (Elt F))).Forall fun op =>
    ∀ w, Proc.devRef .tc (Pipeline.arrRef spec0 w) ∉ op.writes := by
  simp only [List.Forall]
  repeat' constructor
  all_goals intro w; fin_cases w <;> simp only [StableHlo.nullary_writes, StableHlo.unary_writes, StableHlo.binary_writes, StableHlo.reshape_writes, Finset.mem_singleton] <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- pred's staging buffer holds the (b, c) volume at every point, for any proof data over these arrays whose body
    leaves the inputs in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- target's likewise. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- mask's holds the (b, 0) volume at every point: fetched when c = 0, and kept while c moves, its index unmoved. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- A run to the frame post over the later lines' contents leaves pred, target and mask as launched: each is an
    input window's array, which the pipeline never writes and no later line writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c)))⟩) h

/-! ## The body's branch -/

/-- The body's one branch: b = 0 and c = 0, as the printed scalar chain over the grid coordinates. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- Over the six points it holds at the first only. -/
theorem hcond0 : ∀ t : Fin cfg0.N, cond0 (grid0.coords t) ↔ t.val % 6 = 0 :=
  (by decide +kernel : ∀ t : Fin grid0.N, cond0 (grid0.coords t) ↔ t.val % 6 = 0)

/-! ## The staging memrefs at a point -/

/-- The shared row's staging buffer, through which its contents are stated. -/
abbrev VO3 : View sig .tc .vmem S1x128 .f32 := (Memref.whole cc0_stg3_0 : Memref sig .tc .vmem S1x128 .f32).view
abbrev ms0 (t : Fin cfg0.N) : Memref sig .tc .vmem S1x1x128x128x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x128x128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x128x128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)

end Cert.Kernel.Frm

end
-- ==== Proof.K.RunA.lean ====
/-
  The loss kernel's body at the first grid point (b = 0 and c = 0: the branch taken). The shared row's buffer holds
  anything when the body starts; the body overwrites it whole with zeros, reads the three volumes slab by slab,
  and stores the zeros plus the point's fourteen sums (padded to 128 lanes) back over the whole row. What the row's
  buffer ends with is found by running the body: a list of covering stores, last first.
-/
import proofs.«161304_j43791486550161_2_alg».proof.Proof.K.Setup

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the row's buffer ends with at the first point, WITH the proof that on whole staging memrefs — the three
    inputs at their contents, the row at anything — the body runs to its return, the inputs held as they were and the
    row's buffer holding those pieces. -/
noncomputable def kernelRunA (c : Dev nD) (i : grid0.Coords) (arg2 : Memref sig .tc .vmem S1x1x128x128x128 .f32) (harg2 : arg2.IsWhole) (arg3 : Memref sig .tc .vmem S1x1x128x128x128 .f32) (harg3 : arg3.IsWhole) (arg4 : Memref sig .tc .vmem S1x1x128x128x128 .f32) (harg4 : arg4.IsWhole) (arg5 : Memref sig .tc .vmem S1x128 .f32) (harg5 : arg5.IsWhole) (hc0 : cond0 i)
    (x0 x1 x2 : Vec F S1x1x128x128x128 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L)) -∗ K ⟨⟩))
          ⊢ wp frame (wpE (defs₀ (F := F)) Variants.none c none) E (cc0__loss_kernel i arg2 harg2 arg3 harg3 arg4 harg4 arg5 harg5) K } := by
  refine ⟨?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec_parts (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Frm

end
-- ==== Proof.K.RunB.lean ====
/-
  The loss kernel's body at a later grid point (the branch not taken). The shared row's buffer holds the running
  sums the points before left; the body reads the three volumes slab by slab, reads the row, and stores the row
  plus the point's fourteen sums (padded to 128 lanes) back over the whole row.
-/
import proofs.«161304_j43791486550161_2_alg».proof.Proof.K.RunA

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the row's buffer ends with at a later point, WITH the proof that on whole staging memrefs — the three
    inputs at their contents, the row at its running contents `xo` — the body runs to its return, the inputs held
    as they were and the row's buffer holding those pieces. -/
noncomputable def kernelRunB (c : Dev nD) (i : grid0.Coords) (arg2 : Memref sig .tc .vmem S1x1x128x128x128 .f32) (harg2 : arg2.IsWhole) (arg3 : Memref sig .tc .vmem S1x1x128x128x128 .f32) (harg3 : arg3.IsWhole) (arg4 : Memref sig .tc .vmem S1x1x128x128x128 .f32) (harg4 : arg4.IsWhole) (arg5 : Memref sig .tc .vmem S1x128 .f32) (harg5 : arg5.IsWhole) (hc0 : ¬cond0 i)
    (x0 x1 x2 : Vec F S1x1x128x128x128 .f32) (xo : Vec F S1x128 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L)) -∗ K ⟨⟩))
          ⊢ wp frame (wpE (defs₀ (F := F)) Variants.none c none) E (cc0__loss_kernel i arg2 harg2 arg3 harg3 arg4 harg4 arg5 harg5) K } := by
  refine ⟨?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec_parts (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Frm

end
-- ==== Proof.K.Frame.lean ====
/-
  The loss kernel's frame, last part. The shared [1,128] row after each grid point: at the first point what the
  zero-then-accumulate body leaves over anything; at each later point what the accumulate body leaves over the row
  as the point before left it (the row is written back after the last point only, so between points its staging
  buffer is untouched). With that as the proof data — inputs left in place, the row at this running value — the
  body meets its obligation at every point, the pipeline runs around the region, and the later scalar lines run
  after it; pred, target and mask end as launched.
-/
import proofs.«161304_j43791486550161_2_alg».proof.Proof.K.RunB

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first point the body's stores cover the row (each store writes all 128 lanes). -/
theorem coverA (c : Dev nD) (i : grid0.Coords) (arg2 : Memref sig .tc .vmem S1x1x128x128x128 .f32) (harg2 : arg2.IsWhole) (arg3 : Memref sig .tc .vmem S1x1x128x128x128 .f32) (harg3 : arg3.IsWhole) (arg4 : Memref sig .tc .vmem S1x1x128x128x128 .f32) (harg4 : arg4.IsWhole) (arg5 : Memref sig .tc .vmem S1x128 .f32) (harg5 : arg5.IsWhole) (hc0 : cond0 i)
    (x0 x1 x2 : Vec F S1x1x128x128x128 .f32) (y : S1x128.Idx) :
    ∃ pc ∈ (kernelRunA c i arg2 harg2 arg3 harg3 arg4 harg4 arg5 harg5 hc0 x0 x1 x2).1, y ∈ pc.1.set :=
  View.cover_of_tiledL (kernelRunA c i arg2 harg2 arg3 harg3 arg4 harg4 arg5 harg5 hc0 x0 x1 x2).1 S1x128.size (by sl_kernel_rfl) y

/-- What the first point leaves in the row: its stores read back. -/
def outA (c : Dev nD) (i : grid0.Coords) (arg2 : Memref sig .tc .vmem S1x1x128x128x128 .f32) (harg2 : arg2.IsWhole) (arg3 : Memref sig .tc .vmem S1x1x128x128x128 .f32) (harg3 : arg3.IsWhole) (arg4 : Memref sig .tc .vmem S1x1x128x128x128 .f32) (harg4 : arg4.IsWhole) (arg5 : Memref sig .tc .vmem S1x128 .f32) (harg5 : arg5.IsWhole) (hc0 : cond0 i)
    (x0 x1 x2 : Vec F S1x1x128x128x128 .f32) : Vec F S1x128 .f32 :=
  VO3.read (Elt F) (VO3.writes (Elt F) VO3.junk (kernelRunA c i arg2 harg2 arg3 harg3 arg4 harg4 arg5 harg5 hc0 x0 x1 x2).1)

/-- At a later point the body's one store covers the row. -/
theorem coverB (c : Dev nD) (i : grid0.Coords) (arg2 : Memref sig .tc .vmem S1x1x128x128x128 .f32) (harg2 : arg2.IsWhole) (arg3 : Memref sig .tc .vmem S1x1x128x128x128 .f32) (harg3 : arg3.IsWhole) (arg4 : Memref sig .tc .vmem S1x1x128x128x128 .f32) (harg4 : arg4.IsWhole) (arg5 : Memref sig .tc .vmem S1x128 .f32) (harg5 : arg5.IsWhole) (hc0 : ¬cond0 i)
    (x0 x1 x2 : Vec F S1x1x128x128x128 .f32) (xo : Vec F S1x128 .f32) (y : S1x128.Idx) :
    ∃ pc ∈ (kernelRunB c i arg2 harg2 arg3 harg3 arg4 harg4 arg5 harg5 hc0 x0 x1 x2 xo).1, y ∈ pc.1.set :=
  View.cover_of_tiledL (kernelRunB c i arg2 harg2 arg3 harg3 arg4 harg4 arg5 harg5 hc0 x0 x1 x2 xo).1 S1x128.size (by sl_kernel_rfl) y

/-- What a later point leaves in the row, over the running value `xo`: its store read back. -/
def outB (c : Dev nD) (i : grid0.Coords) (arg2 : Memref sig .tc .vmem S1x1x128x128x128 .f32) (harg2 : arg2.IsWhole) (arg3 : Memref sig .tc .vmem S1x1x128x128x128 .f32) (harg3 : arg3.IsWhole) (arg4 : Memref sig .tc .vmem S1x1x128x128x128 .f32) (harg4 : arg4.IsWhole) (arg5 : Memref sig .tc .vmem S1x128 .f32) (harg5 : arg5.IsWhole) (hc0 : ¬cond0 i)
    (x0 x1 x2 : Vec F S1x1x128x128x128 .f32) (xo : Vec F S1x128 .f32) : Vec F S1x128 .f32 :=
  VO3.read (Elt F) (VO3.writes (Elt F) VO3.junk (kernelRunB c i arg2 harg2 arg3 harg3 arg4 harg4 arg5 harg5 hc0 x0 x1 x2 xo).1)

/-! ## The row after each point -/

/-- The accumulation: the row after the body at position `n` of the grid's order — the first-point body's result at
    position 0, the later-point body's result over the row at position `n - 1` otherwise. -/
def outsAt (c : Dev nD) : (n : ℕ) → n < cfg0.N → Vec F S1x128 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      ((hcond0 ⟨0, hn⟩).mpr (Nat.zero_mod _)) (iblk m c 0 ⟨0, hn⟩) (iblk m c 1 ⟨0, hn⟩) (iblk m c 2 ⟨0, hn⟩)
  | n + 1, hn =>
    if h0 : (n + 1) % 6 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        ((hcond0 ⟨n + 1, hn⟩).mpr h0) (iblk m c 0 ⟨n + 1, hn⟩) (iblk m c 1 ⟨n + 1, hn⟩) (iblk m c 2 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (fun h => h0 ((hcond0 ⟨n + 1, hn⟩).mp h)) (iblk m c 0 ⟨n + 1, hn⟩) (iblk m c 1 ⟨n + 1, hn⟩) (iblk m c 2 ⟨n + 1, hn⟩) (outsAt c n (Nat.lt_of_succ_lt hn))

/-- `outsAt` at the first point. -/
theorem outsAt_A (c : Dev nD) (t : Fin cfg0.N) (h0 : t.val % 6 = 0) :
    outsAt m c t.val t.isLt = outA c (grid0.coords t) (ms0 t) (hs0 t) (ms1 t) (hs1 t) (ms2 t) (hs2 t) (ms3 t) (hs3 t) ((hcond0 t).mpr h0) (iblk m c 0 t) (iblk m c 1 t) (iblk m c 2 t) := by
  obtain ⟨n, hn⟩ := t
  cases n with
  | zero => exact rfl
  | succ n => exact (dif_pos h0).trans rfl

/-- `outsAt` at a later point: over what the point before left. -/
theorem outsAt_B (c : Dev nD) (t : Fin cfg0.N) (h0 : ¬t.val % 6 = 0) :
    outsAt m c t.val t.isLt = outB c (grid0.coords t) (ms0 t) (hs0 t) (ms1 t) (hs1 t) (ms2 t) (hs2 t) (ms3 t) (hs3 t) (fun h => h0 ((hcond0 t).mp h)) (iblk m c 0 t) (iblk m c 1 t) (iblk m c 2 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the row's at
    `outsAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
/-- At a later point the row's staging buffer holds what the body left at the point before: the point is not the
    first, and the row is written back after the last point only. -/
theorem before_3_B (c : Dev nD) (t : Fin cfg0.N) (h0 : ¬t.val % 6 = 0) (d) :
    (dats m 0 c).before 3 t d = (outsAt m c (t.val - 1) (Nat.lt_of_le_of_lt (Nat.sub_le _ _) t.isLt)) := by
  have hN : t.val < 6 := lt_of_lt_of_eq t.isLt (show cfg0.N = 6 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' buffers hold their blocks; at the first point the first-point run applies over
    whatever the row held, at a later point the later-point run applies over what the point before left; the
    invariant passes through unread and nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  have hN : t.val < 6 := lt_of_lt_of_eq t.isLt (show cfg0.N = 6 from N_0)
  by_cases h0 : t.val % 6 = 0
  · rw [outsAt_A m c t h0]
    unfold outA
    iintro ⟨HΦ, Ho, ⟨%d0, H0⟩, ⟨%d1, H1⟩, ⟨%d2, H2⟩, ⟨%d3, H3⟩⟩
    iapply ((kernelRunA c (grid0.coords t) _ _ _ _ _ _ _ _ ((hcond0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _)
  · rw [outsAt_B m c t h0]
    simp only [before_3_B m c t h0]
    unfold outB
    iintro ⟨HΦ, Ho, ⟨%d0, H0⟩, ⟨%d1, H1⟩, ⟨%d2, H2⟩, ⟨%d3, H3⟩⟩
    iapply ((kernelRunB c (grid0.coords t) _ _ _ _ _ _ _ _ (fun h => h0 ((hcond0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB c _ _ _ _ _ _ _ _ _ _ _ _ _ _)

/-- The body obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- From any memory with zero counters every weakly fair execution of @main terminates, each window's array ending at
    what the pipeline computes from the proof data and every other unscoped buffer at what the later lines compute
    from the region's exit. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main terminates without a fault and pred, target and mask end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Frm

end
-- ==== Proof.KI.Setup.lean ====
/-
  The loss kernel's frame, part one: what the region finds and what follows it.

  @main is one region over a 2 × 3 grid followed by 75 scalar host operations. At a grid point (b, c) the body is
  handed the whole [128,128,128] volume of pred and of target at (b, c) and of mask at (b, 0), and one [1,128] row that
  every point shares: the row is zeroed at the first point, added to at each point, and written back after the last.
  Here: the buffers' contents when the region is entered (as launched: nothing precedes it); that @main reduces to
  the region continued by the later lines; that those lines touch only unscoped buffers, allocate nothing and write
  no array a window stages; each input window's block at a point, and that the body finds it in the staging buffer
  whether or not the point fetched it (the mask's block index does not move while c does); the frame claim's post
  read off a frame run's; and the one branch condition, b = 0 ∧ c = 0, decided over the grid: it holds at the first
  point only.
-/
import proofs.«161304_j43791486550161_2_alg».proof.Proof.Gen.KernelIdeal.Launch
import proofs.«161304_j43791486550161_2_alg».proof.Proof.Gen.KernelIdeal.Skeleton
import proofs.«161304_j43791486550161_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
-- the 75 later lines are one long list: statements over it pass the default budget
set_option maxHeartbeats 4000000

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: as launched, no host operation coming first. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

set_option maxHeartbeats 4000000 in
/-- None of the 75 later lines allocates a buffer. -/
theorem hostOps1_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main is the region followed by the later lines: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The later lines touch the windows' arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxHeartbeats 4000000 in
/-- Each later line writes its own result buffer, which is none of the four arrays the windows stage. -/
theorem hostOps1_keeps : (hostOps1 : List (HloOp τ sig (Elt F))).Forall fun op =>
    ∀ w, Proc.devRef .tc (Pipeline.arrRef spec0 w) ∉ op.writes := by
  simp only [List.Forall]
  repeat' constructor
  all_goals intro w; fin_cases w <;> simp only [StableHlo.nullary_writes, StableHlo.unary_writes, StableHlo.binary_writes, StableHlo.reshape_writes, Finset.mem_singleton] <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- pred's staging buffer holds the (b, c) volume at every point, for any proof data over these arrays whose body
    leaves the inputs in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- target's likewise. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- mask's holds the (b, 0) volume at every point: fetched when c = 0, and kept while c moves, its index unmoved. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- A run to the frame post over the later lines' contents leaves pred, target and mask as launched: each is an
    input window's array, which the pipeline never writes and no later line writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c)))⟩) h

/-! ## The body's branch -/

/-- The body's one branch: b = 0 and c = 0, as the printed scalar chain over the grid coordinates. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- Over the six points it holds at the first only. -/
theorem hcond0 : ∀ t : Fin cfg0.N, cond0 (grid0.coords t) ↔ t.val % 6 = 0 :=
  (by decide +kernel : ∀ t : Fin grid0.N, cond0 (grid0.coords t) ↔ t.val % 6 = 0)

/-! ## The staging memrefs at a point -/

/-- The shared row's staging buffer, through which its contents are stated. -/
abbrev VO3 : View sig .tc .vmem S1x128 .f32 := (Memref.whole cc0_stg3_0 : Memref sig .tc .vmem S1x128 .f32).view
abbrev ms0 (t : Fin cfg0.N) : Memref sig .tc .vmem S1x1x128x128x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x128x128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x128x128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128 .f32 := win0_3.stage (cfg0.slots t 3)
abbrev hs3 (t : Fin cfg0.N) : (ms3 t).IsWhole := hstage0_3 ((cfg0.slots t 3).cast nbuf0_3)

end Cert.KernelIdeal.Frm

end
-- ==== Proof.KI.RunA.lean ====
/-
  The loss kernel's body at the first grid point (b = 0 and c = 0: the branch taken). The shared row's buffer holds
  anything when the body starts; the body overwrites it whole with zeros, reads the three volumes slab by slab,
  and stores the zeros plus the point's fourteen sums (padded to 128 lanes) back over the whole row. What the row's
  buffer ends with is found by running the body: a list of covering stores, last first.
-/
import proofs.«161304_j43791486550161_2_alg».proof.Proof.KI.Setup

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the row's buffer ends with at the first point, WITH the proof that on whole staging memrefs — the three
    inputs at their contents, the row at anything — the body runs to its return, the inputs held as they were and the
    row's buffer holding those pieces. -/
noncomputable def kernelRunA (c : Dev nD) (i : grid0.Coords) (arg2 : Memref sig .tc .vmem S1x1x128x128x128 .f32) (harg2 : arg2.IsWhole) (arg3 : Memref sig .tc .vmem S1x1x128x128x128 .f32) (harg3 : arg3.IsWhole) (arg4 : Memref sig .tc .vmem S1x1x128x128x128 .f32) (harg4 : arg4.IsWhole) (arg5 : Memref sig .tc .vmem S1x128 .f32) (harg5 : arg5.IsWhole) (hc0 : cond0 i)
    (x0 x1 x2 : Vec F S1x1x128x128x128 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L)) -∗ K ⟨⟩))
          ⊢ wp frame (wpE (defs₀ (F := F)) Variants.none c none) E (cc0__loss_kernel i arg2 harg2 arg3 harg3 arg4 harg4 arg5 harg5) K } := by
  refine ⟨?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec_parts (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Frm

end
-- ==== Proof.KI.RunB.lean ====
/-
  The loss kernel's body at a later grid point (the branch not taken). The shared row's buffer holds the running
  sums the points before left; the body reads the three volumes slab by slab, reads the row, and stores the row
  plus the point's fourteen sums (padded to 128 lanes) back over the whole row.
-/
import proofs.«161304_j43791486550161_2_alg».proof.Proof.KI.RunA

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the row's buffer ends with at a later point, WITH the proof that on whole staging memrefs — the three
    inputs at their contents, the row at its running contents `xo` — the body runs to its return, the inputs held
    as they were and the row's buffer holding those pieces. -/
noncomputable def kernelRunB (c : Dev nD) (i : grid0.Coords) (arg2 : Memref sig .tc .vmem S1x1x128x128x128 .f32) (harg2 : arg2.IsWhole) (arg3 : Memref sig .tc .vmem S1x1x128x128x128 .f32) (harg3 : arg3.IsWhole) (arg4 : Memref sig .tc .vmem S1x1x128x128x128 .f32) (harg4 : arg4.IsWhole) (arg5 : Memref sig .tc .vmem S1x128 .f32) (harg5 : arg5.IsWhole) (hc0 : ¬cond0 i)
    (x0 x1 x2 : Vec F S1x1x128x128x128 .f32) (xo : Vec F S1x128 .f32) :
    { L : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L)) -∗ K ⟨⟩))
          ⊢ wp frame (wpE (defs₀ (F := F)) Variants.none c none) E (cc0__loss_kernel i arg2 harg2 arg3 harg3 arg4 harg4 arg5 harg5) K } := by
  refine ⟨?_, fun E K => ?run⟩
  case run =>
    simp only [cc0__loss_kernel_eq_skeleton]; unfold cc0__loss_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2
    obtain rfl := harg5.eq_unread hf3
    sl_exec_parts (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Frm

end
-- ==== Proof.KI.Frame.lean ====
/-
  The loss kernel's frame, last part. The shared [1,128] row after each grid point: at the first point what the
  zero-then-accumulate body leaves over anything; at each later point what the accumulate body leaves over the row
  as the point before left it (the row is written back after the last point only, so between points its staging
  buffer is untouched). With that as the proof data — inputs left in place, the row at this running value — the
  body meets its obligation at every point, the pipeline runs around the region, and the later scalar lines run
  after it; pred, target and mask end as launched.
-/
import proofs.«161304_j43791486550161_2_alg».proof.Proof.KI.RunB

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the first point the body's stores cover the row (each store writes all 128 lanes). -/
theorem coverA (c : Dev nD) (i : grid0.Coords) (arg2 : Memref sig .tc .vmem S1x1x128x128x128 .f32) (harg2 : arg2.IsWhole) (arg3 : Memref sig .tc .vmem S1x1x128x128x128 .f32) (harg3 : arg3.IsWhole) (arg4 : Memref sig .tc .vmem S1x1x128x128x128 .f32) (harg4 : arg4.IsWhole) (arg5 : Memref sig .tc .vmem S1x128 .f32) (harg5 : arg5.IsWhole) (hc0 : cond0 i)
    (x0 x1 x2 : Vec F S1x1x128x128x128 .f32) (y : S1x128.Idx) :
    ∃ pc ∈ (kernelRunA c i arg2 harg2 arg3 harg3 arg4 harg4 arg5 harg5 hc0 x0 x1 x2).1, y ∈ pc.1.set :=
  View.cover_of_tiledL (kernelRunA c i arg2 harg2 arg3 harg3 arg4 harg4 arg5 harg5 hc0 x0 x1 x2).1 S1x128.size (by sl_kernel_rfl) y

/-- What the first point leaves in the row: its stores read back. -/
def outA (c : Dev nD) (i : grid0.Coords) (arg2 : Memref sig .tc .vmem S1x1x128x128x128 .f32) (harg2 : arg2.IsWhole) (arg3 : Memref sig .tc .vmem S1x1x128x128x128 .f32) (harg3 : arg3.IsWhole) (arg4 : Memref sig .tc .vmem S1x1x128x128x128 .f32) (harg4 : arg4.IsWhole) (arg5 : Memref sig .tc .vmem S1x128 .f32) (harg5 : arg5.IsWhole) (hc0 : cond0 i)
    (x0 x1 x2 : Vec F S1x1x128x128x128 .f32) : Vec F S1x128 .f32 :=
  VO3.read (Elt F) (VO3.writes (Elt F) VO3.junk (kernelRunA c i arg2 harg2 arg3 harg3 arg4 harg4 arg5 harg5 hc0 x0 x1 x2).1)

/-- At a later point the body's one store covers the row. -/
theorem coverB (c : Dev nD) (i : grid0.Coords) (arg2 : Memref sig .tc .vmem S1x1x128x128x128 .f32) (harg2 : arg2.IsWhole) (arg3 : Memref sig .tc .vmem S1x1x128x128x128 .f32) (harg3 : arg3.IsWhole) (arg4 : Memref sig .tc .vmem S1x1x128x128x128 .f32) (harg4 : arg4.IsWhole) (arg5 : Memref sig .tc .vmem S1x128 .f32) (harg5 : arg5.IsWhole) (hc0 : ¬cond0 i)
    (x0 x1 x2 : Vec F S1x1x128x128x128 .f32) (xo : Vec F S1x128 .f32) (y : S1x128.Idx) :
    ∃ pc ∈ (kernelRunB c i arg2 harg2 arg3 harg3 arg4 harg4 arg5 harg5 hc0 x0 x1 x2 xo).1, y ∈ pc.1.set :=
  View.cover_of_tiledL (kernelRunB c i arg2 harg2 arg3 harg3 arg4 harg4 arg5 harg5 hc0 x0 x1 x2 xo).1 S1x128.size (by sl_kernel_rfl) y

/-- What a later point leaves in the row, over the running value `xo`: its store read back. -/
def outB (c : Dev nD) (i : grid0.Coords) (arg2 : Memref sig .tc .vmem S1x1x128x128x128 .f32) (harg2 : arg2.IsWhole) (arg3 : Memref sig .tc .vmem S1x1x128x128x128 .f32) (harg3 : arg3.IsWhole) (arg4 : Memref sig .tc .vmem S1x1x128x128x128 .f32) (harg4 : arg4.IsWhole) (arg5 : Memref sig .tc .vmem S1x128 .f32) (harg5 : arg5.IsWhole) (hc0 : ¬cond0 i)
    (x0 x1 x2 : Vec F S1x1x128x128x128 .f32) (xo : Vec F S1x128 .f32) : Vec F S1x128 .f32 :=
  VO3.read (Elt F) (VO3.writes (Elt F) VO3.junk (kernelRunB c i arg2 harg2 arg3 harg3 arg4 harg4 arg5 harg5 hc0 x0 x1 x2 xo).1)

/-! ## The row after each point -/

/-- The accumulation: the row after the body at position `n` of the grid's order — the first-point body's result at
    position 0, the later-point body's result over the row at position `n - 1` otherwise. -/
def outsAt (c : Dev nD) : (n : ℕ) → n < cfg0.N → Vec F S1x128 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      ((hcond0 ⟨0, hn⟩).mpr (Nat.zero_mod _)) (iblk m c 0 ⟨0, hn⟩) (iblk m c 1 ⟨0, hn⟩) (iblk m c 2 ⟨0, hn⟩)
  | n + 1, hn =>
    if h0 : (n + 1) % 6 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        ((hcond0 ⟨n + 1, hn⟩).mpr h0) (iblk m c 0 ⟨n + 1, hn⟩) (iblk m c 1 ⟨n + 1, hn⟩) (iblk m c 2 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (fun h => h0 ((hcond0 ⟨n + 1, hn⟩).mp h)) (iblk m c 0 ⟨n + 1, hn⟩) (iblk m c 1 ⟨n + 1, hn⟩) (iblk m c 2 ⟨n + 1, hn⟩) (outsAt c n (Nat.lt_of_succ_lt hn))

/-- `outsAt` at the first point. -/
theorem outsAt_A (c : Dev nD) (t : Fin cfg0.N) (h0 : t.val % 6 = 0) :
    outsAt m c t.val t.isLt = outA c (grid0.coords t) (ms0 t) (hs0 t) (ms1 t) (hs1 t) (ms2 t) (hs2 t) (ms3 t) (hs3 t) ((hcond0 t).mpr h0) (iblk m c 0 t) (iblk m c 1 t) (iblk m c 2 t) := by
  obtain ⟨n, hn⟩ := t
  cases n with
  | zero => exact rfl
  | succ n => exact (dif_pos h0).trans rfl

/-- `outsAt` at a later point: over what the point before left. -/
theorem outsAt_B (c : Dev nD) (t : Fin cfg0.N) (h0 : ¬t.val % 6 = 0) :
    outsAt m c t.val t.isLt = outB c (grid0.coords t) (ms0 t) (hs0 t) (ms1 t) (hs1 t) (ms2 t) (hs2 t) (ms3 t) (hs3 t) (fun h => h0 ((hcond0 t).mp h)) (iblk m c 0 t) (iblk m c 1 t) (iblk m c 2 t)
      (outsAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the row's at
    `outsAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
/-- At a later point the row's staging buffer holds what the body left at the point before: the point is not the
    first, and the row is written back after the last point only. -/
theorem before_3_B (c : Dev nD) (t : Fin cfg0.N) (h0 : ¬t.val % 6 = 0) (d) :
    (dats m 0 c).before 3 t d = (outsAt m c (t.val - 1) (Nat.lt_of_le_of_lt (Nat.sub_le _ _) t.isLt)) := by
  have hN : t.val < 6 := lt_of_lt_of_eq t.isLt (show cfg0.N = 6 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' buffers hold their blocks; at the first point the first-point run applies over
    whatever the row held, at a later point the later-point run applies over what the point before left; the
    invariant passes through unread and nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  have hN : t.val < 6 := lt_of_lt_of_eq t.isLt (show cfg0.N = 6 from N_0)
  by_cases h0 : t.val % 6 = 0
  · rw [outsAt_A m c t h0]
    unfold outA
    iintro ⟨HΦ, Ho, ⟨%d0, H0⟩, ⟨%d1, H1⟩, ⟨%d2, H2⟩, ⟨%d3, H3⟩⟩
    iapply ((kernelRunA c (grid0.coords t) _ _ _ _ _ _ _ _ ((hcond0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverA c _ _ _ _ _ _ _ _ _ _ _ _ _)
  · rw [outsAt_B m c t h0]
    simp only [before_3_B m c t h0]
    unfold outB
    iintro ⟨HΦ, Ho, ⟨%d0, H0⟩, ⟨%d1, H1⟩, ⟨%d2, H2⟩, ⟨%d3, H3⟩⟩
    iapply ((kernelRunB c (grid0.coords t) _ _ _ _ _ _ _ _ (fun h => h0 ((hcond0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverB c _ _ _ _ _ _ _ _ _ _ _ _ _ _)

/-- The body obligation at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- From any memory with zero counters every weakly fair execution of @main terminates, each window's array ending at
    what the pipeline computes from the proof data and every other unscoped buffer at what the later lines compute
    from the region's exit. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main terminates without a fault and pred, target and mask end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Frm

end
-- ==== Proof.KI.Fn.lean ====
/-
  The loss kernel's body as a pure function of the three staged volumes.

  At one grid point the body walks the depth axis in sixteen slabs. For a slab it takes nine planes of pred, target
  and mask (eight in the last slab), forms pred·mask and target·mask on all of them, and on the first eight planes
  adds to fourteen running [1,1] sums the block sums of: |Pm − Tm|·M, M, (Pm − Tm)²·M, |P|·(1 − M), 1 − M; the three
  height-difference terms over [8,127,128]; the three width-difference terms over [8,128,127]; and, using the ninth
  plane as the upper neighbour of the eighth, the three depth-difference terms over [8,128,128] ([7,128,128] in the
  last slab, which has no ninth plane). A block sum reduces the last axis, then the middle one, then the first,
  with reshapes in between. After the last slab the fourteen sums are laid side by side, padded with zeros to 128
  lanes, and added to the row the point found.
-/
import proofs.«161304_j43791486550161_2_alg».proof.KernelIdeal
import Idealize.ShloMosaic.Lib.Pipeline.FrameBody

noncomputable section

namespace Cert.KernelIdeal.Fn

open Cert.KernelIdeal Idealize.ShloMosaic

variable {F : FTy → Type} [FloatOps F] [Facts]
open Facts₀ Facts

/-- The sum of an [8,128,128] block: over width, then height, then depth. -/
def rs (x : FVec F S8x128x128 .f32) : FVec F S1x1 .f32 :=
  shapeCast S1x1 (multiReduction .add [0] S1 (shapeCast S8x1 (multiReduction .add [1] S8
    (multiReduction .add [2] S8x128 x 0x00000000#32 reduces_S8x128x128_S8x128 (.inl rfl) rfl) 0x00000000#32 reduces_S8x128_S8 (.inl rfl) rfl) shapeCasts_S8_S8x1)
    0x00000000#32 reduces_S8x1_S1 (.inl rfl) rfl) shapeCasts_S1_S1x1

/-- The sum of an [8,127,128] block (the 127 adjacent pairs along height). -/
def rsH (x : FVec F S8x127x128 .f32) : FVec F S1x1 .f32 :=
  shapeCast S1x1 (multiReduction .add [0] S1 (shapeCast S8x1 (multiReduction .add [1] S8
    (multiReduction .add [2] S8x127 x 0x00000000#32 reduces_S8x127x128_S8x127 (.inl rfl) rfl) 0x00000000#32 reduces_S8x127_S8 (.inl rfl) rfl) shapeCasts_S8_S8x1)
    0x00000000#32 reduces_S8x1_S1 (.inl rfl) rfl) shapeCasts_S1_S1x1

/-- The sum of an [8,128,127] block (the 127 adjacent pairs along width). -/
def rsW (x : FVec F S8x128x127 .f32) : FVec F S1x1 .f32 :=
  shapeCast S1x1 (multiReduction .add [0] S1 (shapeCast S8x1 (multiReduction .add [1] S8
    (multiReduction .add [2] S8x128 x 0x00000000#32 reduces_S8x128x127_S8x128 (.inl rfl) rfl) 0x00000000#32 reduces_S8x128_S8 (.inl rfl) rfl) shapeCasts_S8_S8x1)
    0x00000000#32 reduces_S8x1_S1 (.inl rfl) rfl) shapeCasts_S1_S1x1

/-- The sum of a [7,128,128] block (the 7 adjacent pairs of planes inside the last slab). -/
def rs7 (x : FVec F S7x128x128 .f32) : FVec F S1x1 .f32 :=
  shapeCast S1x1 (multiReduction .add [0] S1 (shapeCast S7x1 (multiReduction .add [1] S7
    (multiReduction .add [2] S7x128 x 0x00000000#32 reduces_S7x128x128_S7x128 (.inl rfl) rfl) 0x00000000#32 reduces_S7x128_S7 (.inl rfl) rfl) shapeCasts_S7_S7x1)
    0x00000000#32 reduces_S7x1_S1 (.inl rfl) rfl) shapeCasts_S1_S1x1

/-- The fourteen running sums of a grid point, in the row's order. -/
structure Acc (F : FTy → Type) where
  s1 : FVec F S1x1 .f32
  m0 : FVec F S1x1 .f32
  smse : FVec F S1x1 .f32
  sbg : FVec F S1x1 .f32
  minv : FVec F S1x1 .f32
  sdx : FVec F S1x1 .f32
  mxs : FVec F S1x1 .f32
  stvx : FVec F S1x1 .f32
  sdy : FVec F S1x1 .f32
  mys : FVec F S1x1 .f32
  stvy : FVec F S1x1 .f32
  sdz : FVec F S1x1 .f32
  mzs : FVec F S1x1 .f32
  stvz : FVec F S1x1 .f32

/-- All sums at zero. -/
def zeroAcc : Acc F :=
  let z : FVec F S1x1 .f32 := broadcast S1x1 (Scalar.ofBits .f32 0x00000000#32)
  ⟨z, z, z, z, z, z, z, z, z, z, z, z, z, z⟩

/-- The height-difference terms of an [8,128,128] triple (pred·mask, target·mask, mask), added to the three sums. -/
def dH (pc tc mc : FVec F S8x128x128 .f32) : FVec F S8x127x128 .f32 × FVec F S8x127x128 .f32 × FVec F S8x127x128 .f32 :=
  let py := subf (extractStridedSlice S8x127x128 ![0, 1, 0] pc slices_S8x128x128_o0_1_0_S8x127x128) (extractStridedSlice S8x127x128 ![0, 0, 0] pc slices_S8x128x128_o0_0_0_S8x127x128)
  let ty := subf (extractStridedSlice S8x127x128 ![0, 1, 0] tc slices_S8x128x128_o0_1_0_S8x127x128) (extractStridedSlice S8x127x128 ![0, 0, 0] tc slices_S8x128x128_o0_0_0_S8x127x128)
  let my := minimumf (extractStridedSlice S8x127x128 ![0, 1, 0] mc slices_S8x128x128_o0_1_0_S8x127x128) (extractStridedSlice S8x127x128 ![0, 0, 0] mc slices_S8x128x128_o0_0_0_S8x127x128)
  (py, ty, my)

/-- The width-difference terms likewise. -/
def dW (pc tc mc : FVec F S8x128x128 .f32) : FVec F S8x128x127 .f32 × FVec F S8x128x127 .f32 × FVec F S8x128x127 .f32 :=
  let pz := subf (extractStridedSlice S8x128x127 ![0, 0, 1] pc slices_S8x128x128_o0_0_1_S8x128x127) (extractStridedSlice S8x128x127 ![0, 0, 0] pc slices_S8x128x128_o0_0_0_S8x128x127)
  let tz := subf (extractStridedSlice S8x128x127 ![0, 0, 1] tc slices_S8x128x128_o0_0_1_S8x128x127) (extractStridedSlice S8x128x127 ![0, 0, 0] tc slices_S8x128x128_o0_0_0_S8x128x127)
  let mz := minimumf (extractStridedSlice S8x128x127 ![0, 0, 1] mc slices_S8x128x128_o0_0_1_S8x128x127) (extractStridedSlice S8x128x127 ![0, 0, 0] mc slices_S8x128x128_o0_0_0_S8x128x127)
  (pz, tz, mz)

/-- One slab of nine planes: the fourteen sums advanced by the slab's first eight planes (depth differences reaching
    into the ninth). -/
def chunk9 (v6 v8 v10 : Vec F S1x1x9x128x128 .f32) (a : Acc F) : Acc F :=
  let p9 : FVec F S9x128x128 .f32 := shapeCast S9x128x128 v6 shapeCasts_S1x1x9x128x128_S9x128x128
  let t9 : FVec F S9x128x128 .f32 := shapeCast S9x128x128 v8 shapeCasts_S1x1x9x128x128_S9x128x128
  let m9 : FVec F S9x128x128 .f32 := shapeCast S9x128x128 v10 shapeCasts_S1x1x9x128x128_S9x128x128
  let pin9 := mulf p9 m9
  let tin9 := mulf t9 m9
  let pc : FVec F S8x128x128 .f32 := extractStridedSlice S8x128x128 ![0, 0, 0] pin9 slices_S9x128x128_o0_0_0_S8x128x128
  let tc : FVec F S8x128x128 .f32 := extractStridedSlice S8x128x128 ![0, 0, 0] tin9 slices_S9x128x128_o0_0_0_S8x128x128
  let mc : FVec F S8x128x128 .f32 := extractStridedSlice S8x128x128 ![0, 0, 0] m9 slices_S9x128x128_o0_0_0_S8x128x128
  let prc : FVec F S8x128x128 .f32 := extractStridedSlice S8x128x128 ![0, 0, 0] p9 slices_S9x128x128_o0_0_0_S8x128x128
  let diff := subf pc tc
  let inv : FVec F S8x128x128 .f32 := subf (broadcast S8x128x128 (Scalar.ofBits .f32 0x3F800000#32)) mc
  let (py, ty, my) := dH pc tc mc
  let (pz, tz, mz) := dW pc tc mc
  let px : FVec F S8x128x128 .f32 := subf (extractStridedSlice S8x128x128 ![1, 0, 0] pin9 slices_S9x128x128_o1_0_0_S8x128x128) (extractStridedSlice S8x128x128 ![0, 0, 0] pin9 slices_S9x128x128_o0_0_0_S8x128x128)
  let tx : FVec F S8x128x128 .f32 := subf (extractStridedSlice S8x128x128 ![1, 0, 0] tin9 slices_S9x128x128_o1_0_0_S8x128x128) (extractStridedSlice S8x128x128 ![0, 0, 0] tin9 slices_S9x128x128_o0_0_0_S8x128x128)
  let mx : FVec F S8x128x128 .f32 := minimumf (extractStridedSlice S8x128x128 ![1, 0, 0] m9 slices_S9x128x128_o1_0_0_S8x128x128) (extractStridedSlice S8x128x128 ![0, 0, 0] m9 slices_S9x128x128_o0_0_0_S8x128x128)
  { s1 := addf a.s1 (rs (mulf (absf diff) mc))
    m0 := addf a.m0 (rs mc)
    smse := addf a.smse (rs (mulf (mulf diff diff) mc))
    sbg := addf a.sbg (rs (mulf (absf prc) inv))
    minv := addf a.minv (rs inv)
    sdx := addf a.sdx (rs (mulf (absf (subf px tx)) mx))
    mxs := addf a.mxs (rs mx)
    stvx := addf a.stvx (rs (mulf (absf px) mx))
    sdy := addf a.sdy (rsH (mulf (absf (subf py ty)) my))
    mys := addf a.mys (rsH my)
    stvy := addf a.stvy (rsH (mulf (absf py) my))
    sdz := addf a.sdz (rsW (mulf (absf (subf pz tz)) mz))
    mzs := addf a.mzs (rsW mz)
    stvz := addf a.stvz (rsW (mulf (absf pz) mz)) }

/-- The last slab, of eight planes: all eight feed the plain, height and width sums; the depth differences are the
    seven adjacent pairs inside it. -/
def chunk8 (v6 v8 v10 : Vec F S1x1x8x128x128 .f32) (a : Acc F) : Acc F :=
  let p8 : FVec F S8x128x128 .f32 := shapeCast S8x128x128 v6 shapeCasts_S1x1x8x128x128_S8x128x128
  let t8 : FVec F S8x128x128 .f32 := shapeCast S8x128x128 v8 shapeCasts_S1x1x8x128x128_S8x128x128
  let mc : FVec F S8x128x128 .f32 := shapeCast S8x128x128 v10 shapeCasts_S1x1x8x128x128_S8x128x128
  let pc := mulf p8 mc
  let tc := mulf t8 mc
  let diff := subf pc tc
  let inv : FVec F S8x128x128 .f32 := subf (broadcast S8x128x128 (Scalar.ofBits .f32 0x3F800000#32)) mc
  let (py, ty, my) := dH pc tc mc
  let (pz, tz, mz) := dW pc tc mc
  let px : FVec F S7x128x128 .f32 := subf (extractStridedSlice S7x128x128 ![1, 0, 0] pc slices_S8x128x128_o1_0_0_S7x128x128) (extractStridedSlice S7x128x128 ![0, 0, 0] pc slices_S8x128x128_o0_0_0_S7x128x128)
  let tx : FVec F S7x128x128 .f32 := subf (extractStridedSlice S7x128x128 ![1, 0, 0] tc slices_S8x128x128_o1_0_0_S7x128x128) (extractStridedSlice S7x128x128 ![0, 0, 0] tc slices_S8x128x128_o0_0_0_S7x128x128)
  let mx : FVec F S7x128x128 .f32 := minimumf (extractStridedSlice S7x128x128 ![1, 0, 0] mc slices_S8x128x128_o1_0_0_S7x128x128) (extractStridedSlice S7x128x128 ![0, 0, 0] mc slices_S8x128x128_o0_0_0_S7x128x128)
  { s1 := addf a.s1 (rs (mulf (absf diff) mc))
    m0 := addf a.m0 (rs mc)
    smse := addf a.smse (rs (mulf (mulf diff diff) mc))
    sbg := addf a.sbg (rs (mulf (absf p8) inv))
    minv := addf a.minv (rs inv)
    sdx := addf a.sdx (rs7 (mulf (absf (subf px tx)) mx))
    mxs := addf a.mxs (rs7 mx)
    stvx := addf a.stvx (rs7 (mulf (absf px) mx))
    sdy := addf a.sdy (rsH (mulf (absf (subf py ty)) my))
    mys := addf a.mys (rsH my)
    stvy := addf a.stvy (rsH (mulf (absf py) my))
    sdz := addf a.sdz (rsW (mulf (absf (subf pz tz)) mz))
    mzs := addf a.mzs (rsW mz)
    stvz := addf a.stvz (rsW (mulf (absf pz) mz)) }

/-- The fourteen sums side by side, padded with zeros to 128 lanes, added to the row found. -/
def rowOf (a : Acc F) (prev : Vec F S1x128 .f32) : FVec F S1x128 .f32 :=
  addf (shapeCast S1x128 prev shapeCasts_S1x128_S1x128)
    (concatenate S1x128 1 [⟨S1x14, concatenate S1x14 1 [⟨S1x1, a.s1⟩, ⟨S1x1, a.m0⟩, ⟨S1x1, a.smse⟩, ⟨S1x1, a.sbg⟩, ⟨S1x1, a.minv⟩, ⟨S1x1, a.sdx⟩, ⟨S1x1, a.mxs⟩, ⟨S1x1, a.stvx⟩, ⟨S1x1, a.sdy⟩, ⟨S1x1, a.mys⟩, ⟨S1x1, a.stvy⟩, ⟨S1x1, a.sdz⟩, ⟨S1x1, a.mzs⟩, ⟨S1x1, a.stvz⟩] concatenates_S1x1_S1x1_S1x1_S1x1_S1x1_S1x1_S1x1_S1x1_S1x1_S1x1_S1x1_S1x1_S1x1_S1x1_S1x14_d1⟩,
      ⟨S1x114, broadcast S1x114 (Scalar.ofBits .f32 0x00000000#32)⟩] concatenates_S1x14_S1x114_S1x128_d1)

/-- Nine planes of a staged volume from plane `o` on. -/
abbrev slab9 (X : Vec F S1x1x128x128x128 .f32) (o : Nat) (h : ∀ a, (![0, 0, o, 0, 0] : Fin 5 → Nat) a + S1x1x9x128x128.size a ≤ S1x1x128x128x128.size a) :
    Vec F S1x1x9x128x128 .f32 :=
  View.ld X (Rect.unit (s := S1x1x128x128x128) ![0, 0, o, 0, 0] S1x1x9x128x128.size h)

/-- The last eight planes. -/
abbrev slab8 (X : Vec F S1x1x128x128x128 .f32) : Vec F S1x1x8x128x128 .f32 :=
  View.ld X (Rect.unit (s := S1x1x128x128x128) ![0, 0, 120, 0, 0] S1x1x8x128x128.size inb_S1x1x128x128x128_S1x1x8x128x128_0_0_120_0_0)

/-- The fourteen sums of one grid point: fifteen nine-plane slabs from planes 0, 8, …, 112, then the last eight. -/
def pointAcc (x0 x1 x2 : Vec F S1x1x128x128x128 .f32) : Acc F :=
  let st (o : Nat) (h : ∀ a, (![0, 0, o, 0, 0] : Fin 5 → Nat) a + S1x1x9x128x128.size a ≤ S1x1x128x128x128.size a) (a : Acc F) : Acc F :=
    chunk9 (slab9 x0 o h) (slab9 x1 o h) (slab9 x2 o h) a
  chunk8 (slab8 x0) (slab8 x1) (slab8 x2)
   (st 112 inb_S1x1x128x128x128_S1x1x9x128x128_0_0_112_0_0
   (st 104 inb_S1x1x128x128x128_S1x1x9x128x128_0_0_104_0_0
   (st 96 inb_S1x1x128x128x128_S1x1x9x128x128_0_0_96_0_0
   (st 88 inb_S1x1x128x128x128_S1x1x9x128x128_0_0_88_0_0
   (st 80 inb_S1x1x128x128x128_S1x1x9x128x128_0_0_80_0_0
   (st 72 inb_S1x1x128x128x128_S1x1x9x128x128_0_0_72_0_0
   (st 64 inb_S1x1x128x128x128_S1x1x9x128x128_0_0_64_0_0
   (st 56 inb_S1x1x128x128x128_S1x1x9x128x128_0_0_56_0_0
   (st 48 inb_S1x1x128x128x128_S1x1x9x128x128_0_0_48_0_0
   (st 40 inb_S1x1x128x128x128_S1x1x9x128x128_0_0_40_0_0
   (st 32 inb_S1x1x128x128x128_S1x1x9x128x128_0_0_32_0_0
   (st 24 inb_S1x1x128x128x128_S1x1x9x128x128_0_0_24_0_0
   (st 16 inb_S1x1x128x128x128_S1x1x9x128x128_0_0_16_0_0
   (st 8 inb_S1x1x128x128x128_S1x1x9x128x128_0_0_8_0_0
   (st 0 inb_S1x1x128x128x128_S1x1x9x128x128_0_0_0_0_0 zeroAcc)))))))))))))))

/-- The row a point leaves over the row `xo` it found. -/
def pointRow (x0 x1 x2 : Vec F S1x1x128x128x128 .f32) (xo : Vec F S1x128 .f32) : FVec F S1x128 .f32 :=
  rowOf (pointAcc x0 x1 x2) xo

end Cert.KernelIdeal.Fn

end
-- ==== Proof.KI.Open.lean ====
/-
  What each grid point leaves in the shared row, as the pure function of the three staged volumes: at a later point the
  row it found plus the point's fourteen sums (padded to 128 lanes); at the first point the same over the zeros the
  body had just stored. The body's stores found by running it are compared with the transcribed function by unfolding
  both down to the vector operations: they are the same term.
-/
import proofs.«161304_j43791486550161_2_alg».proof.Proof.KI.Frame
import proofs.«161304_j43791486550161_2_alg».proof.Proof.KI.Fn
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row's whole-shape rectangle starts at the origin. -/
theorem hz2 : (![0, 0] : Fin 2 → Nat) = fun _ => 0 := by funext a; fin_cases a <;> rfl

set_option maxHeartbeats 8000000 in
/-- A later point's stored value: the row read back, plus the point's sums. -/
theorem rowB_eq (c : Dev nD) (arg2 : Memref sig .tc .vmem S1x1x128x128x128 .f32) (harg2 : arg2.IsWhole) (arg3 : Memref sig .tc .vmem S1x1x128x128x128 .f32) (harg3 : arg3.IsWhole) (arg4 : Memref sig .tc .vmem S1x1x128x128x128 .f32) (harg4 : arg4.IsWhole) (arg5 : Memref sig .tc .vmem S1x128 .f32) (harg5 : arg5.IsWhole)
    (x0 x1 x2 : Vec F S1x1x128x128x128 .f32) (xo : Vec F S1x128 .f32) :
    kernelRunB.sl.r_426 c arg2 harg2 arg3 harg3 arg4 harg4 arg5 harg5 x0 x1 x2 xo
      = Fn.rowOf (Fn.pointAcc x0 x1 x2) (View.ld xo (Rect.unit (s := S1x128) ![0, 0] S1x128.size inb_S1x128_S1x128_0_0)) := by
  sl_unfold_run_names
  sl_unfold_run_names
  sl_unfold_run_names
  sl_unfold_run_names
  sl_unfold_run_names
  sl_unfold_run_names
  sl_unfold_run_names
  sl_unfold_run_names
  simp only [View.readAt_eq_ld, harg2.read_unread, harg3.read_unread, harg4.read_unread, harg5.read_unread]
  rfl

set_option maxHeartbeats 8000000 in
/-- The first point's stored value: the zeros it had just stored, plus the point's sums. -/
theorem rowA_eq (c : Dev nD) (arg2 : Memref sig .tc .vmem S1x1x128x128x128 .f32) (harg2 : arg2.IsWhole) (arg3 : Memref sig .tc .vmem S1x1x128x128x128 .f32) (harg3 : arg3.IsWhole) (arg4 : Memref sig .tc .vmem S1x1x128x128x128 .f32) (harg4 : arg4.IsWhole) (arg5 : Memref sig .tc .vmem S1x128 .f32) (harg5 : arg5.IsWhole)
    (x0 x1 x2 : Vec F S1x1x128x128x128 .f32) :
    kernelRunA.sl.r_426 c arg2 harg2 arg3 harg3 arg4 harg4 arg5 x0 x1 x2
      = Fn.rowOf (Fn.pointAcc x0 x1 x2) (k0_pay1 (F := F)) := by
  sl_unfold_run_names
  sl_unfold_run_names
  sl_unfold_run_names
  sl_unfold_run_names
  sl_unfold_run_names
  sl_unfold_run_names
  sl_unfold_run_names
  sl_unfold_run_names
  simp only [View.readAt_eq_ld, harg2.read_unread, harg3.read_unread, harg4.read_unread]
  rw [View.readCov_unit_zero _ hz2]
  rfl

/-- What a later point leaves in the row. -/
theorem outB_eq (c : Dev nD) (i : grid0.Coords) (arg2 : Memref sig .tc .vmem S1x1x128x128x128 .f32) (harg2 : arg2.IsWhole) (arg3 : Memref sig .tc .vmem S1x1x128x128x128 .f32) (harg3 : arg3.IsWhole) (arg4 : Memref sig .tc .vmem S1x1x128x128x128 .f32) (harg4 : arg4.IsWhole) (arg5 : Memref sig .tc .vmem S1x128 .f32) (harg5 : arg5.IsWhole) (hc0 : ¬cond0 i)
    (x0 x1 x2 : Vec F S1x1x128x128x128 .f32) (xo : Vec F S1x128 .f32) :
    outB c i arg2 harg2 arg3 harg3 arg4 harg4 arg5 harg5 hc0 x0 x1 x2 xo = Fn.pointRow x0 x1 x2 xo := by
  unfold outB
  rw [View.read_writes_eq_canon _ _ _ (coverB c i arg2 harg2 arg3 harg3 arg4 harg4 arg5 harg5 hc0 x0 x1 x2 xo)]
  unfold kernelRunB
  dsimp only
  rw [View.canon_unit_zero hz2, rowB_eq, View.ld_unit_zero hz2]
  rfl

/-- What the first point leaves in the row. -/
theorem outA_eq (c : Dev nD) (i : grid0.Coords) (arg2 : Memref sig .tc .vmem S1x1x128x128x128 .f32) (harg2 : arg2.IsWhole) (arg3 : Memref sig .tc .vmem S1x1x128x128x128 .f32) (harg3 : arg3.IsWhole) (arg4 : Memref sig .tc .vmem S1x1x128x128x128 .f32) (harg4 : arg4.IsWhole) (arg5 : Memref sig .tc .vmem S1x128 .f32) (harg5 : arg5.IsWhole) (hc0 : cond0 i)
    (x0 x1 x2 : Vec F S1x1x128x128x128 .f32) :
    outA c i arg2 harg2 arg3 harg3 arg4 harg4 arg5 harg5 hc0 x0 x1 x2 = Fn.pointRow x0 x1 x2 (k0_pay1 (F := F)) := by
  unfold outA
  rw [View.read_writes_eq_canon _ _ _ (coverA c i arg2 harg2 arg3 harg3 arg4 harg4 arg5 harg5 hc0 x0 x1 x2)]
  unfold kernelRunA
  dsimp only
  rw [View.canon_cons_unit_zero hz2, rowA_eq (harg5 := harg5)]
  rfl

end Cert.KernelIdeal.Frm

end
-- ==== Proof.KI.Blocks.lean ====
/-
  Where the blocks sit. At grid point t = 3·b + c the pred and target windows hold the (b, c) volume of their arrays
  and the mask window holds the (b, 0) volume: along each axis an array coordinate is the block's index times the
  block's extent plus the coordinate inside the block, the index maps decided once over the six points. The shared
  row's array, written back after the last point only and in one block, ends as the row the last point left.
-/
import proofs.«161304_j43791486550161_2_alg».proof.Proof.KI.Open
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The printed index maps over the grid: pred and target at (t / 3, t mod 3, 0, 0, 0), mask at (t / 3, 0, 0, 0, 0),
    the row at (0, 0). -/
theorem idx_facts : ∀ t : Fin cfg0.N,
    win0_0.index t (0 : Fin 5) = t.val / 3 ∧ win0_0.index t (1 : Fin 5) = t.val % 3 ∧ win0_0.index t (2 : Fin 5) = 0
    ∧ win0_0.index t (3 : Fin 5) = 0 ∧ win0_0.index t (4 : Fin 5) = 0
    ∧ win0_1.index t (0 : Fin 5) = t.val / 3 ∧ win0_1.index t (1 : Fin 5) = t.val % 3 ∧ win0_1.index t (2 : Fin 5) = 0
    ∧ win0_1.index t (3 : Fin 5) = 0 ∧ win0_1.index t (4 : Fin 5) = 0
    ∧ win0_2.index t (0 : Fin 5) = t.val / 3 ∧ win0_2.index t (1 : Fin 5) = 0 ∧ win0_2.index t (2 : Fin 5) = 0
    ∧ win0_2.index t (3 : Fin 5) = 0 ∧ win0_2.index t (4 : Fin 5) = 0
    ∧ win0_3.index t (0 : Fin 2) = 0 ∧ win0_3.index t (1 : Fin 2) = 0 :=
  (by decide +kernel : ∀ t : Fin grid0.N, _)

/-- pred's block at point t is the (t / 3, t mod 3) volume of pred. -/
theorem blk0_apply (c : Dev nD) (t : Fin cfg0.N) (d h w : Fin 128) :
    iblk m c 0 t (ix5 (0 : Fin 1) (0 : Fin 1) d h w) = V m c main_arg0 (ix5 (⟨t.val / 3, by have h1 := t.isLt; have h2 : cfg0.N = 6 := N_0; omega⟩ : Fin 2) (⟨t.val % 3, Nat.mod_lt _ (by norm_num)⟩ : Fin 3) d h w) := by
  have hf := idx_facts t
  show V m c main_arg0 (((cfg0.win 0).blk t).view.emb (ix5 (0 : Fin 1) (0 : Fin 1) d h w)) = _
  refine congrArg _ (funext fun a => Fin.ext ?_)
  match a with
  | ⟨0, _⟩ => show win0_0.index t (0 : Fin 5) * 1 + 1 * 0 = t.val / 3; omega
  | ⟨1, _⟩ => show win0_0.index t (1 : Fin 5) * 1 + 1 * 0 = t.val % 3; omega
  | ⟨2, _⟩ => show win0_0.index t (2 : Fin 5) * 128 + 1 * d.val = d.val; omega
  | ⟨3, _⟩ => show win0_0.index t (3 : Fin 5) * 128 + 1 * h.val = h.val; omega
  | ⟨4, _⟩ => show win0_0.index t (4 : Fin 5) * 128 + 1 * w.val = w.val; omega

/-- target's likewise. -/
theorem blk1_apply (c : Dev nD) (t : Fin cfg0.N) (d h w : Fin 128) :
    iblk m c 1 t (ix5 (0 : Fin 1) (0 : Fin 1) d h w) = V m c main_arg1 (ix5 (⟨t.val / 3, by have h1 := t.isLt; have h2 : cfg0.N = 6 := N_0; omega⟩ : Fin 2) (⟨t.val % 3, Nat.mod_lt _ (by norm_num)⟩ : Fin 3) d h w) := by
  have hf := idx_facts t
  show V m c main_arg1 (((cfg0.win 1).blk t).view.emb (ix5 (0 : Fin 1) (0 : Fin 1) d h w)) = _
  refine congrArg _ (funext fun a => Fin.ext ?_)
  match a with
  | ⟨0, _⟩ => show win0_1.index t (0 : Fin 5) * 1 + 1 * 0 = t.val / 3; omega
  | ⟨1, _⟩ => show win0_1.index t (1 : Fin 5) * 1 + 1 * 0 = t.val % 3; omega
  | ⟨2, _⟩ => show win0_1.index t (2 : Fin 5) * 128 + 1 * d.val = d.val; omega
  | ⟨3, _⟩ => show win0_1.index t (3 : Fin 5) * 128 + 1 * h.val = h.val; omega
  | ⟨4, _⟩ => show win0_1.index t (4 : Fin 5) * 128 + 1 * w.val = w.val; omega

/-- mask's block at point t is the (t / 3, 0) volume of mask. -/
theorem blk2_apply (c : Dev nD) (t : Fin cfg0.N) (d h w : Fin 128) :
    iblk m c 2 t (ix5 (0 : Fin 1) (0 : Fin 1) d h w) = V m c main_arg2 (ix5 (⟨t.val / 3, by have h1 := t.isLt; have h2 : cfg0.N = 6 := N_0; omega⟩ : Fin 2) (0 : Fin 1) d h w) := by
  have hf := idx_facts t
  show V m c main_arg2 (((cfg0.win 2).blk t).view.emb (ix5 (0 : Fin 1) (0 : Fin 1) d h w)) = _
  refine congrArg _ (funext fun a => Fin.ext ?_)
  match a with
  | ⟨0, _⟩ => show win0_2.index t (0 : Fin 5) * 1 + 1 * 0 = t.val / 3; omega
  | ⟨1, _⟩ => show win0_2.index t (1 : Fin 5) * 1 + 1 * 0 = 0; omega
  | ⟨2, _⟩ => show win0_2.index t (2 : Fin 5) * 128 + 1 * d.val = d.val; omega
  | ⟨3, _⟩ => show win0_2.index t (3 : Fin 5) * 128 + 1 * h.val = h.val; omega
  | ⟨4, _⟩ => show win0_2.index t (4 : Fin 5) * 128 + 1 * w.val = w.val; omega

end Cert.KernelIdeal.Frm

end
-- ==== Proof.KI.Row.lean ====
/-
  The shared row's array after the run. The row is written back once, after the sixth point, as the single block
  (0, 0) of a [1,128] array: read through zero offsets that block is the array, and it covers every lane. So the
  array ends as the row the sixth point left.
-/
import proofs.«161304_j43791486550161_2_alg».proof.Proof.KI.Blocks
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row after the last point, as contents of the row's array. -/
abbrev lastRow (c : Dev nD) : Buf (Elt F) ((c : Thread nD τ).loc main_v0) :=
  outsAt m c 5 (by rw [show cfg0.N = 6 from N_0]; decide)

/-- The one write-back, at the sixth point, writes that row. -/
theorem flushed_row (c : Dev nD) (t : Fin cfg0.N) (hf : (cfg0.win 3).flush t = true) :
    (dats m 0 c).flushed 3 t = ((cfg0.win 3).blk t).view.read (Elt F) (lastRow m c) := by
  have hN : cfg0.N = 6 := N_0
  have h5 : t.val = 5 := by have := (flush0_3 t).mp hf; have := t.isLt; omega
  obtain rfl : t = t0_5 := Fin.ext h5
  show (cfg0.win 3).cut (grid0.coords t0_5) ((dats m 0 c).after 3 t0_5) = _
  rw [after_3]
  have hz' : (fun a => win0_3.index t0_5 a * main_v0.ty.shape.size a) = fun _ => 0 := funext fun a => by fin_cases a <;> decide
  exact (Memref.read_access_unit_zero (Elt F) main_v0 hz' (fun a => by rw [congrFun hz' a]; simp) (lastRow m c)).symm

/-- So the row's array ends holding it: the sixth point's block is the whole array. -/
theorem final_row (c : Dev nD) : (dats m 0 c).arrAt 3 cfg0.N = lastRow m c :=
  (dats m 0 c).arrAt_eq_of_cover 3 (lastRow m c) (flushed_row m c) fun i =>
    ⟨t0_5, (flush0_3 t0_5).mpr rfl, by
      show i ∈ ((View.whole main_v0).slice (win0_3.rect t0_5)).set
      rw [View.set_slice_whole, Rect.mem_set_unit]
      intro a
      have h0 : (i 0 : Nat) < 1 := (i 0).isLt
      have h1 : (i 1 : Nat) < 128 := (i 1).isLt
      match a with
      | ⟨0, _⟩ =>
        show win0_3.index t0_5 0 * win0_3.size 0 ≤ (i 0 : Nat) ∧ (i 0 : Nat) < win0_3.index t0_5 0 * win0_3.size 0 + win0_3.xsize (grid0.coords t0_5) 0
        rw [show win0_3.index t0_5 0 * win0_3.size 0 = 0 from by decide +kernel, show win0_3.xsize (grid0.coords t0_5) 0 = 1 from by decide +kernel]; omega
      | ⟨1, _⟩ =>
        show win0_3.index t0_5 1 * win0_3.size 1 ≤ (i 1 : Nat) ∧ (i 1 : Nat) < win0_3.index t0_5 1 * win0_3.size 1 + win0_3.xsize (grid0.coords t0_5) 1
        rw [show win0_3.index t0_5 1 * win0_3.size 1 = 0 from by decide +kernel, show win0_3.xsize (grid0.coords t0_5) 1 = 128 from by decide +kernel]; omega⟩

end Cert.KernelIdeal.Frm

end
-- ==== Proof.KI.Fold.lean ====
/-
  The shared row, point by point, as the pure function: after the first point it is the point's fourteen sums over
  zeros; after each later point it is that point's sums over the row the point before left.
-/
import proofs.«161304_j43791486550161_2_alg».proof.Proof.KI.Row

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row after position 0. -/
theorem outsAt_zero (c : Dev nD) (h : 0 < cfg0.N) :
    outsAt m c 0 h = Fn.pointRow (iblk m c 0 ⟨0, h⟩) (iblk m c 1 ⟨0, h⟩) (iblk m c 2 ⟨0, h⟩) (k0_pay1 (F := F)) :=
  (outsAt_A m c ⟨0, h⟩ rfl).trans (outA_eq ..)

/-- The row after position n + 1, over the row after position n. -/
theorem outsAt_succ (c : Dev nD) (n : ℕ) (h : n + 1 < cfg0.N) :
    outsAt m c (n + 1) h = Fn.pointRow (iblk m c 0 ⟨n + 1, h⟩) (iblk m c 1 ⟨n + 1, h⟩) (iblk m c 2 ⟨n + 1, h⟩)
      (outsAt m c n (Nat.lt_of_succ_lt h)) := by
  have hN : cfg0.N = 6 := N_0
  have hB : ¬(⟨n + 1, h⟩ : Fin cfg0.N).val % 6 = 0 := by dsimp only; omega
  rw [outsAt_B m c ⟨n + 1, h⟩ hB, outB_eq]
  rfl

/-- The fourteen running sums of the point at position `t`. -/
abbrev ptAcc (c : Dev nD) (t : Fin cfg0.N) : Fn.Acc F := Fn.pointAcc (iblk m c 0 t) (iblk m c 1 t) (iblk m c 2 t)

end Cert.KernelIdeal.Frm

end
-- ==== Proof.LossSpec.lean ====
/-
  The composite loss, as mathematics over the extended reals. P and T are [2,3,128,128,128] fields (batch, channel,
  depth, height, width) and M is a [2,1,128,128,128] mask shared by the three channels. With Pm = P·M, Tm = T·M,
  |x| = max x (−x), and Δ along an axis the forward difference f(k+1) − f(k) over the 127 adjacent pairs, the
  fourteen sums are, over batch b, channel c and the spatial indices:

    s1   Σ |Pm − Tm|·M            m0   Σ M                      smse Σ (Pm − Tm)²·M
    sbg  Σ |P|·(1 − M)            minv Σ (1 − M)
    and for each spatial axis a, with μ = min (M at k+1) (M at k):
    sd_a Σ |Δ_a Pm − Δ_a Tm|·μ    m_a  Σ μ                      stv_a Σ |Δ_a Pm|·μ

  (the mask sums run over the channel too: each mask value is counted three times), and the loss is
    1·s1/(m0+ε) + 0.1·Σ_a sd_a/(m_a+ε) + 0.002·Σ_a stv_a/(m_a+ε) + 0.15·sbg/(minv+ε) + 1·smse/(m0+ε)
  with the weights and ε the f32 words both programs spell, added left to right in this order.
-/
import Idealize.ShloMosaic.PureOps.Ideal
import Idealize.ShloMosaic.PureOps.Ideal.Laws
import Idealize.ShloMosaic.Lib.ValueIdx

noncomputable section

namespace Cert.LossSpec

open Idealize.ShloMosaic Idealize.ShloMosaic.ValueIdx
open scoped BigOperators

/-- The shape of pred and target. -/
abbrev SV : Shape := ⟨5, ![2, 3, 128, 128, 128]⟩
/-- The shape of mask. -/
abbrev SM : Shape := ⟨5, ![2, 1, 128, 128, 128]⟩

/-- |x| on the extended reals. -/
abbrev aabs (x : EReal) : EReal := max x (-x)
/-- 1.0 -/
abbrev one : EReal := Ideal.ofBits .f32 0x3F800000#32
/-- ε = 1e-8 as an f32 word. -/
abbrev eps : EReal := Ideal.ofBits .f32 0x322BCC77#32

/-- The upper and the lower member of the k-th adjacent pair of 128 positions. -/
abbrev up (k : Fin 127) : Fin 128 := ⟨k.val + 1, by omega⟩
abbrev lo (k : Fin 127) : Fin 128 := ⟨k.val, by omega⟩

section Fields

variable (P T : SV.Idx → EReal) (M : SM.Idx → EReal)

/-- The mask at a batch and a position. -/
def mk (b : Fin 2) (d h w : Fin 128) : EReal := M (ix5 b (0 : Fin 1) d h w)
/-- pred·mask and target·mask. -/
def pin (b : Fin 2) (c : Fin 3) (d h w : Fin 128) : EReal := P (ix5 b c d h w) * mk M b d h w
def tin (b : Fin 2) (c : Fin 3) (d h w : Fin 128) : EReal := T (ix5 b c d h w) * mk M b d h w

def s1 : EReal := ∑ b : Fin 2, ∑ c : Fin 3, ∑ d : Fin 128, ∑ h : Fin 128, ∑ w : Fin 128,
  aabs (pin P M b c d h w - tin T M b c d h w) * mk M b d h w
def m0 : EReal := ∑ b : Fin 2, ∑ _c : Fin 3, ∑ d : Fin 128, ∑ h : Fin 128, ∑ w : Fin 128, mk M b d h w
def smse : EReal := ∑ b : Fin 2, ∑ c : Fin 3, ∑ d : Fin 128, ∑ h : Fin 128, ∑ w : Fin 128,
  ((pin P M b c d h w - tin T M b c d h w) * (pin P M b c d h w - tin T M b c d h w)) * mk M b d h w
def sbg : EReal := ∑ b : Fin 2, ∑ c : Fin 3, ∑ d : Fin 128, ∑ h : Fin 128, ∑ w : Fin 128,
  aabs (P (ix5 b c d h w)) * (one - mk M b d h w)
def minv : EReal := ∑ b : Fin 2, ∑ _c : Fin 3, ∑ d : Fin 128, ∑ h : Fin 128, ∑ w : Fin 128, (one - mk M b d h w)

/-- Along depth. -/
def sdx : EReal := ∑ b : Fin 2, ∑ c : Fin 3, ∑ d : Fin 127, ∑ h : Fin 128, ∑ w : Fin 128,
  aabs ((pin P M b c (up d) h w - pin P M b c (lo d) h w) - (tin T M b c (up d) h w - tin T M b c (lo d) h w))
    * min (mk M b (up d) h w) (mk M b (lo d) h w)
def mxs : EReal := ∑ b : Fin 2, ∑ _c : Fin 3, ∑ d : Fin 127, ∑ h : Fin 128, ∑ w : Fin 128,
  min (mk M b (up d) h w) (mk M b (lo d) h w)
def stvx : EReal := ∑ b : Fin 2, ∑ c : Fin 3, ∑ d : Fin 127, ∑ h : Fin 128, ∑ w : Fin 128,
  aabs (pin P M b c (up d) h w - pin P M b c (lo d) h w) * min (mk M b (up d) h w) (mk M b (lo d) h w)

/-- Along height. -/
def sdy : EReal := ∑ b : Fin 2, ∑ c : Fin 3, ∑ d : Fin 128, ∑ h : Fin 127, ∑ w : Fin 128,
  aabs ((pin P M b c d (up h) w - pin P M b c d (lo h) w) - (tin T M b c d (up h) w - tin T M b c d (lo h) w))
    * min (mk M b d (up h) w) (mk M b d (lo h) w)
def mys : EReal := ∑ b : Fin 2, ∑ _c : Fin 3, ∑ d : Fin 128, ∑ h : Fin 127, ∑ w : Fin 128,
  min (mk M b d (up h) w) (mk M b d (lo h) w)
def stvy : EReal := ∑ b : Fin 2, ∑ c : Fin 3, ∑ d : Fin 128, ∑ h : Fin 127, ∑ w : Fin 128,
  aabs (pin P M b c d (up h) w - pin P M b c d (lo h) w) * min (mk M b d (up h) w) (mk M b d (lo h) w)

/-- Along width. -/
def sdz : EReal := ∑ b : Fin 2, ∑ c : Fin 3, ∑ d : Fin 128, ∑ h : Fin 128, ∑ w : Fin 127,
  aabs ((pin P M b c d h (up w) - pin P M b c d h (lo w)) - (tin T M b c d h (up w) - tin T M b c d h (lo w)))
    * min (mk M b d h (up w)) (mk M b d h (lo w))
def mzs : EReal := ∑ b : Fin 2, ∑ _c : Fin 3, ∑ d : Fin 128, ∑ h : Fin 128, ∑ w : Fin 127,
  min (mk M b d h (up w)) (mk M b d h (lo w))
def stvz : EReal := ∑ b : Fin 2, ∑ c : Fin 3, ∑ d : Fin 128, ∑ h : Fin 128, ∑ w : Fin 127,
  aabs (pin P M b c d h (up w) - pin P M b c d h (lo w)) * min (mk M b d h (up w)) (mk M b d h (lo w))

end Fields

/-- A masked mean: sum over (count + ε), with the quotient both programs use on the extended reals. -/
def q (n d : EReal) : EReal := Ideal.div n (d + eps)

/-- The weighted combination of the five masked means, from the fourteen sums, in the order and grouping both
    programs add them. -/
def lossOf (s1 m0 smse sbg minv sdx mxs stvx sdy mys stvy sdz mzs stvz : EReal) : EReal :=
  ((((Ideal.ofBits .f32 0x3F800000#32 * q s1 m0
      + Ideal.ofBits .f32 0x3DCCCCCD#32 * ((q sdx mxs + q sdy mys) + q sdz mzs))
      + Ideal.ofBits .f32 0x3B03126F#32 * ((q stvx mxs + q stvy mys) + q stvz mzs))
      + Ideal.ofBits .f32 0x3E19999A#32 * q sbg minv)
      + Ideal.ofBits .f32 0x3F800000#32 * q smse m0)

/-- The loss of three arrays. -/
def loss (P T : SV.Idx → EReal) (M : SM.Idx → EReal) : EReal :=
  lossOf (s1 P T M) (m0 M) (smse P T M) (sbg P M) (minv M) (sdx P T M) (mxs M) (stvx P M)
    (sdy P T M) (mys M) (stvy P M) (sdz P T M) (mzs M) (stvz P M)

end Cert.LossSpec

end
-- ==== Proof.KI.Tail.lean ====
/-
  The later lines, as a function of the shared row. They cut lanes 0 … 13 out of the row (a [1,14] slice, a reshape to
  [14], a one-element slice, a reshape to a scalar), form the nine quotients sum / (count + ε) and add them with their
  weights. So the kernel's result after the run is that function of the row the sixth point left; and over the extended
  reals it is the specification's weighted combination of the row's first fourteen lanes.
-/
import proofs.«161304_j43791486550161_2_alg».proof.Proof.KI.Row
import proofs.«161304_j43791486550161_2_alg».proof.Proof.LossSpec
import Idealize.ShloMosaic.Lib.ValueLayout
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- Lane `k` of the row as a scalar, the way the later lines cut it out. -/
def lane (row : FVec F S1x128 .f32) (k : Nat) (hk : S14.Slices ![k] S1) : FVec F S_ .f32 :=
  fun i => shapeCast S_ (extractStridedSlice S1 ![k] (fun i => shapeCast S14 (extractStridedSlice S1x14 ![0, 0] row slices_S1x128_S1x14_0_0) shapeCasts_S1x14_S14 i) hk) shapeCasts_S1_S_ i

/-- A masked mean on scalars: sum over (count + ε). -/
def qK (n d : FVec F S_ .f32) : FVec F S_ .f32 := Host.divf n (addf d (constant S_ .f32 0x322BCC77#32))

/-- The later lines' result from the row. -/
def tailK (row : FVec F S1x128 .f32) : FVec F S_ .f32 :=
  addf (addf (addf (addf
    (mulf (constant S_ .f32 0x3F800000#32) (qK (lane row 0 slices_S14_S1_0) (lane row 1 slices_S14_S1_1)))
    (mulf (constant S_ .f32 0x3DCCCCCD#32) (addf (addf (qK (lane row 5 slices_S14_S1_5) (lane row 6 slices_S14_S1_6)) (qK (lane row 8 slices_S14_S1_8) (lane row 9 slices_S14_S1_9))) (qK (lane row 11 slices_S14_S1_11) (lane row 12 slices_S14_S1_12)))))
    (mulf (constant S_ .f32 0x3B03126F#32) (addf (addf (qK (lane row 7 slices_S14_S1_7) (lane row 6 slices_S14_S1_6)) (qK (lane row 10 slices_S14_S1_10) (lane row 9 slices_S14_S1_9))) (qK (lane row 13 slices_S14_S1_13) (lane row 12 slices_S14_S1_12)))))
    (mulf (constant S_ .f32 0x3E19999A#32) (qK (lane row 3 slices_S14_S1_3) (lane row 4 slices_S14_S1_4))))
    (mulf (constant S_ .f32 0x3F800000#32) (qK (lane row 2 slices_S14_S1_2) (lane row 1 slices_S14_S1_1)))

set_option maxHeartbeats 8000000 in
/-- After the run the result buffer holds the later lines' function of the row the sixth point left. -/
theorem kernel_value (c : Dev nD) :
    Pipeline.afterTail₀ cfgs (dats m) 0 (V0 m) [hostOps1] c main_v61 = tailK (lastRow m c) := by
  unfold Pipeline.afterTail₀
  show StableHlo.after hostOps1 _ (Proc.devRef .tc main_v61) = _
  after_results_simp
  rw [show Pipeline.withArrays (cfgs 0).spec c (V0 m c) (fun w => (dats m 0 c).arrAt w (cfgs 0).N) (Proc.devRef .tc main_v0) = lastRow m c
    from (Pipeline.withArrays_arr spec0 launch0.win.arr_inj c _ _ 3).trans (final_row m c)]
  rfl

end Cert.KernelIdeal.Frm

end
-- ==== Proof.KI.Lane.lean ====
/-
  A lane of the row, read: the scalar the later lines cut out at position k is the row's entry (0, k) — a [1,14] slice,
  a reshape to [14], a one-element slice at k and a reshape to a scalar move no value.
-/
import proofs.«161304_j43791486550161_2_alg».proof.Proof.KI.Tail
import Idealize.ShloMosaic.Lib.ValueLayout
import Idealize.ShloMosaic.Lib.ValueIdx
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem lane_apply (row : FVec F S1x128 .f32) (k : Fin 14) (hk : S14.Slices ![k.val] S1) (i : S_.Idx) :
    lane row k.val hk i = row (ix2 (0 : Fin 1) (⟨k.val, by omega⟩ : Fin 128)) := by
  unfold lane
  rw [shapeCast_dropUnit_apply (n := 0) ![] _ shapeCasts_S1_S_ i]
  rw [extractStridedSlice_apply ![k.val] _ hk _ (ix1 k) (by intro a; fin_cases a; simp; rfl)]
  rw [shapeCast_1a_a_apply]
  exact extractStridedSlice_apply ![0, 0] row slices_S1x128_S1x14_0_0 (ix2 0 k) (ix2 0 ⟨k.val, by omega⟩) (by intro a; fin_cases a <;> simp)

end Cert.KernelIdeal.Frm

end
-- ==== Proof.KI.TailIdeal.lean ====
/-
  The later lines over the extended reals. Each lane k of the row is the row's entry (0, k); the quotient of two
  scalars is the extended reals' quotient of the sum by the count plus ε; sums and products of scalars are the
  extended reals'. So the later lines' function of the row is the specification's weighted combination of the
  fourteen sums, taken as the row's lanes 0 … 13 in order.
-/
import proofs.«161304_j43791486550161_2_alg».proof.Proof.KI.Lane
import proofs.«161304_j43791486550161_2_alg».proof.Proof.LossSpec

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- On the extended reals the host's elementwise quotient at an index is the quotient of the entries. -/
theorem hostDivf_apply {s : Shape} {φ : FTy} (a b : FVec Ideal s φ) (i : s.Idx) :
    Host.divf a b i = Ideal.div (a i) (b i) := rfl

/-- The later lines' result over the extended reals: the weighted combination of the row's lanes 0 … 13. -/
theorem tailK_ideal (row : FVec Ideal S1x128 .f32) :
    tailK (F := Ideal) row = fun _ =>
      Cert.LossSpec.lossOf
        (row (ix2 (0 : Fin 1) (⟨0, by omega⟩ : Fin 128))) (row (ix2 (0 : Fin 1) (⟨1, by omega⟩ : Fin 128)))
        (row (ix2 (0 : Fin 1) (⟨2, by omega⟩ : Fin 128))) (row (ix2 (0 : Fin 1) (⟨3, by omega⟩ : Fin 128)))
        (row (ix2 (0 : Fin 1) (⟨4, by omega⟩ : Fin 128))) (row (ix2 (0 : Fin 1) (⟨5, by omega⟩ : Fin 128)))
        (row (ix2 (0 : Fin 1) (⟨6, by omega⟩ : Fin 128))) (row (ix2 (0 : Fin 1) (⟨7, by omega⟩ : Fin 128)))
        (row (ix2 (0 : Fin 1) (⟨8, by omega⟩ : Fin 128))) (row (ix2 (0 : Fin 1) (⟨9, by omega⟩ : Fin 128)))
        (row (ix2 (0 : Fin 1) (⟨10, by omega⟩ : Fin 128))) (row (ix2 (0 : Fin 1) (⟨11, by omega⟩ : Fin 128)))
        (row (ix2 (0 : Fin 1) (⟨12, by omega⟩ : Fin 128))) (row (ix2 (0 : Fin 1) (⟨13, by omega⟩ : Fin 128))) := by
  funext i
  have h0 : lane row 0 slices_S14_S1_0 i = row (ix2 (0 : Fin 1) (⟨0, by omega⟩ : Fin 128)) := lane_apply row ⟨0, by omega⟩ slices_S14_S1_0 i
  have h1 : lane row 1 slices_S14_S1_1 i = row (ix2 (0 : Fin 1) (⟨1, by omega⟩ : Fin 128)) := lane_apply row ⟨1, by omega⟩ slices_S14_S1_1 i
  have h2 : lane row 2 slices_S14_S1_2 i = row (ix2 (0 : Fin 1) (⟨2, by omega⟩ : Fin 128)) := lane_apply row ⟨2, by omega⟩ slices_S14_S1_2 i
  have h3 : lane row 3 slices_S14_S1_3 i = row (ix2 (0 : Fin 1) (⟨3, by omega⟩ : Fin 128)) := lane_apply row ⟨3, by omega⟩ slices_S14_S1_3 i
  have h4 : lane row 4 slices_S14_S1_4 i = row (ix2 (0 : Fin 1) (⟨4, by omega⟩ : Fin 128)) := lane_apply row ⟨4, by omega⟩ slices_S14_S1_4 i
  have h5 : lane row 5 slices_S14_S1_5 i = row (ix2 (0 : Fin 1) (⟨5, by omega⟩ : Fin 128)) := lane_apply row ⟨5, by omega⟩ slices_S14_S1_5 i
  have h6 : lane row 6 slices_S14_S1_6 i = row (ix2 (0 : Fin 1) (⟨6, by omega⟩ : Fin 128)) := lane_apply row ⟨6, by omega⟩ slices_S14_S1_6 i
  have h7 : lane row 7 slices_S14_S1_7 i = row (ix2 (0 : Fin 1) (⟨7, by omega⟩ : Fin 128)) := lane_apply row ⟨7, by omega⟩ slices_S14_S1_7 i
  have h8 : lane row 8 slices_S14_S1_8 i = row (ix2 (0 : Fin 1) (⟨8, by omega⟩ : Fin 128)) := lane_apply row ⟨8, by omega⟩ slices_S14_S1_8 i
  have h9 : lane row 9 slices_S14_S1_9 i = row (ix2 (0 : Fin 1) (⟨9, by omega⟩ : Fin 128)) := lane_apply row ⟨9, by omega⟩ slices_S14_S1_9 i
  have h10 : lane row 10 slices_S14_S1_10 i = row (ix2 (0 : Fin 1) (⟨10, by omega⟩ : Fin 128)) := lane_apply row ⟨10, by omega⟩ slices_S14_S1_10 i
  have h11 : lane row 11 slices_S14_S1_11 i = row (ix2 (0 : Fin 1) (⟨11, by omega⟩ : Fin 128)) := lane_apply row ⟨11, by omega⟩ slices_S14_S1_11 i
  have h12 : lane row 12 slices_S14_S1_12 i = row (ix2 (0 : Fin 1) (⟨12, by omega⟩ : Fin 128)) := lane_apply row ⟨12, by omega⟩ slices_S14_S1_12 i
  have h13 : lane row 13 slices_S14_S1_13 i = row (ix2 (0 : Fin 1) (⟨13, by omega⟩ : Fin 128)) := lane_apply row ⟨13, by omega⟩ slices_S14_S1_13 i
  unfold tailK qK
  simp only [addf_apply, mulf_apply, constant_apply, hostDivf_apply, h0, h1, h2, h3, h4, h5, h6, h7, h8, h9, h10, h11, h12, h13]
  rfl

end Cert.KernelIdeal.Frm

end
-- ==== Proof.KI.RowLane.lean ====
/-
  The row a grid point leaves, lane by lane.

  The fourteen running sums are laid side by side as a `[1, 14]` row, padded with zeros to 128 lanes and added to the
  row found: lane `k < 14` of the result is the row found at lane `k` plus the `k`-th running sum.
-/
import proofs.«161304_j43791486550161_2_alg».proof.Proof.KI.Fn
import Idealize.ShloMosaic.Lib.Pipeline.Value
import Idealize.ShloMosaic.Lib.ValueIdx

noncomputable section

namespace Cert.KernelIdeal.PointVal

open Cert.KernelIdeal Idealize.ShloMosaic Idealize.ShloMosaic.ValueIdx

variable [Cert.KernelIdeal.Facts]
open Cert.KernelIdeal.Facts₀ Cert.KernelIdeal.Facts

/-- The fourteen running sums by position in the row. -/
def fld (a : Fn.Acc Ideal) : Fin 14 → FVec Ideal S1x1 .f32 :=
  ![a.s1, a.m0, a.smse, a.sbg, a.minv, a.sdx, a.mxs, a.stvx, a.sdy, a.mys, a.stvy, a.sdz, a.mzs, a.stvz]

/-- The fourteen `[1, 1]` sums side by side: entry `k` of the `[1, 14]` row is the `k`-th sum. -/
theorem row14_lane (a : Fn.Acc Ideal) (k : Fin 14) :
    concatenate S1x14 1 [⟨S1x1, a.s1⟩, ⟨S1x1, a.m0⟩, ⟨S1x1, a.smse⟩, ⟨S1x1, a.sbg⟩, ⟨S1x1, a.minv⟩, ⟨S1x1, a.sdx⟩, ⟨S1x1, a.mxs⟩, ⟨S1x1, a.stvx⟩, ⟨S1x1, a.sdy⟩, ⟨S1x1, a.mys⟩, ⟨S1x1, a.stvy⟩, ⟨S1x1, a.sdz⟩, ⟨S1x1, a.mzs⟩, ⟨S1x1, a.stvz⟩]
        concatenates_S1x1_S1x1_S1x1_S1x1_S1x1_S1x1_S1x1_S1x1_S1x1_S1x1_S1x1_S1x1_S1x1_S1x1_S1x14_d1 (ix2 (0 : Fin 1) k)
      = fld a k (ix2 (0 : Fin 1) (0 : Fin 1)) :=
  concatenate_ofFn_unit_apply (t := S1x14) (s₁ := S1x1) (1 : Fin 2) (fld a)
    concatenates_S1x1_S1x1_S1x1_S1x1_S1x1_S1x1_S1x1_S1x1_S1x1_S1x1_S1x1_S1x1_S1x1_S1x1_S1x14_d1 rfl rfl (ix2 (0 : Fin 1) k) k rfl
    (ix2 (0 : Fin 1) (0 : Fin 1)) (fun b hb => by
      match b with
      | ⟨0, _⟩ => rfl
      | ⟨1, _⟩ => exact absurd rfl hb)

/-- THE ROW, LANE BY LANE: lane `k < 14` of the row a point leaves is the row found at lane `k` plus the `k`-th sum. -/
theorem rowOf_lane (a : Fn.Acc Ideal) (prev : Vec Ideal S1x128 .f32) (k : Fin 14) (hk : k.val < 128) :
    Fn.rowOf a prev (ix2 (0 : Fin 1) (⟨k.val, hk⟩ : Fin 128))
      = prev (ix2 (0 : Fin 1) (⟨k.val, hk⟩ : Fin 128)) + fld a k (ix2 (0 : Fin 1) (0 : Fin 1)) := by
  unfold Fn.rowOf
  rw [addf_apply, shapeCast_self]
  refine congrArg (prev (ix2 (0 : Fin 1) (⟨k.val, hk⟩ : Fin 128)) + ·) ?_
  refine (concatenate_pair_apply_left (t := S1x128) (s₁ := S1x14) (s₂ := S1x114) (1 : Fin 2) _ _
    concatenates_S1x14_S1x114_S1x128_d1 (ix2 (0 : Fin 1) (⟨k.val, hk⟩ : Fin 128)) rfl (ix2 (0 : Fin 1) k) (fun b => by
      match b with
      | ⟨0, _⟩ => rfl
      | ⟨1, _⟩ => rfl)).trans ?_
  exact row14_lane a k

end Cert.KernelIdeal.PointVal

end
-- ==== Proof.BlockSpec.lean ====
/-
  The fourteen sums of ONE [128,128,128] block (one batch entry and channel): for fields p, t (pred, target) and m
  (mask) over depth, height and width, with pm = p·m, tm = t·m, |x| = max x (−x): the sums over the block of
  |pm − tm|·m, m, (pm − tm)²·m, |p|·(1 − m), 1 − m, and along each axis, over the 127 adjacent pairs, of
  |Δpm − Δtm|·μ, μ and |Δpm|·μ with μ the smaller of the pair's two mask values. The whole-array sums are these,
  summed over batch and channel.
-/
import proofs.«161304_j43791486550161_2_alg».proof.Proof.LossSpec

noncomputable section

namespace Cert.BlockSpec

open Cert.LossSpec Idealize.ShloMosaic Idealize.ShloMosaic.ValueIdx
open scoped BigOperators

/-- A field over one block. -/
abbrev Fld := Fin 128 → Fin 128 → Fin 128 → EReal

variable (p t m : Fld)

def s1 : EReal := ∑ d : Fin 128, ∑ h : Fin 128, ∑ w : Fin 128, aabs (p d h w * m d h w - t d h w * m d h w) * m d h w
def m0 : EReal := ∑ d : Fin 128, ∑ h : Fin 128, ∑ w : Fin 128, m d h w
def smse : EReal := ∑ d : Fin 128, ∑ h : Fin 128, ∑ w : Fin 128,
  ((p d h w * m d h w - t d h w * m d h w) * (p d h w * m d h w - t d h w * m d h w)) * m d h w
def sbg : EReal := ∑ d : Fin 128, ∑ h : Fin 128, ∑ w : Fin 128, aabs (p d h w) * (one - m d h w)
def minv : EReal := ∑ d : Fin 128, ∑ h : Fin 128, ∑ w : Fin 128, (one - m d h w)

def sdx : EReal := ∑ d : Fin 127, ∑ h : Fin 128, ∑ w : Fin 128,
  aabs ((p (up d) h w * m (up d) h w - p (lo d) h w * m (lo d) h w) - (t (up d) h w * m (up d) h w - t (lo d) h w * m (lo d) h w))
    * min (m (up d) h w) (m (lo d) h w)
def mxs : EReal := ∑ d : Fin 127, ∑ h : Fin 128, ∑ w : Fin 128, min (m (up d) h w) (m (lo d) h w)
def stvx : EReal := ∑ d : Fin 127, ∑ h : Fin 128, ∑ w : Fin 128,
  aabs (p (up d) h w * m (up d) h w - p (lo d) h w * m (lo d) h w) * min (m (up d) h w) (m (lo d) h w)

def sdy : EReal := ∑ d : Fin 128, ∑ h : Fin 127, ∑ w : Fin 128,
  aabs ((p d (up h) w * m d (up h) w - p d (lo h) w * m d (lo h) w) - (t d (up h) w * m d (up h) w - t d (lo h) w * m d (lo h) w))
    * min (m d (up h) w) (m d (lo h) w)
def mys : EReal := ∑ d : Fin 128, ∑ h : Fin 127, ∑ w : Fin 128, min (m d (up h) w) (m d (lo h) w)
def stvy : EReal := ∑ d : Fin 128, ∑ h : Fin 127, ∑ w : Fin 128,
  aabs (p d (up h) w * m d (up h) w - p d (lo h) w * m d (lo h) w) * min (m d (up h) w) (m d (lo h) w)

def sdz : EReal := ∑ d : Fin 128, ∑ h : Fin 128, ∑ w : Fin 127,
  aabs ((p d h (up w) * m d h (up w) - p d h (lo w) * m d h (lo w)) - (t d h (up w) * m d h (up w) - t d h (lo w) * m d h (lo w)))
    * min (m d h (up w)) (m d h (lo w))
def mzs : EReal := ∑ d : Fin 128, ∑ h : Fin 128, ∑ w : Fin 127, min (m d h (up w)) (m d h (lo w))
def stvz : EReal := ∑ d : Fin 128, ∑ h : Fin 128, ∑ w : Fin 127,
  aabs (p d h (up w) * m d h (up w) - p d h (lo w) * m d h (lo w)) * min (m d h (up w)) (m d h (lo w))

end Cert.BlockSpec

namespace Cert.LossSpec

open Idealize.ShloMosaic Idealize.ShloMosaic.ValueIdx
open scoped BigOperators

variable (P T : SV.Idx → EReal) (M : SM.Idx → EReal)

/-- The (b, c) block of a volume, and the b block of the mask. -/
abbrev vblk (X : SV.Idx → EReal) (b : Fin 2) (c : Fin 3) : Cert.BlockSpec.Fld := fun d h w => X (ix5 b c d h w)
abbrev mblk (b : Fin 2) : Cert.BlockSpec.Fld := fun d h w => M (ix5 b (0 : Fin 1) d h w)

/-- Each whole-array sum is its block sum, summed over batch and channel. -/
theorem s1_blocks : s1 P T M = ∑ b : Fin 2, ∑ c : Fin 3, Cert.BlockSpec.s1 (vblk P b c) (vblk T b c) (mblk M b) := rfl
theorem m0_blocks : m0 M = ∑ b : Fin 2, ∑ _c : Fin 3, Cert.BlockSpec.m0 (mblk M b) := rfl
theorem smse_blocks : smse P T M = ∑ b : Fin 2, ∑ c : Fin 3, Cert.BlockSpec.smse (vblk P b c) (vblk T b c) (mblk M b) := rfl
theorem sbg_blocks : sbg P M = ∑ b : Fin 2, ∑ c : Fin 3, Cert.BlockSpec.sbg (vblk P b c) (mblk M b) := rfl
theorem minv_blocks : minv M = ∑ b : Fin 2, ∑ _c : Fin 3, Cert.BlockSpec.minv (mblk M b) := rfl
theorem sdx_blocks : sdx P T M = ∑ b : Fin 2, ∑ c : Fin 3, Cert.BlockSpec.sdx (vblk P b c) (vblk T b c) (mblk M b) := rfl
theorem mxs_blocks : mxs M = ∑ b : Fin 2, ∑ _c : Fin 3, Cert.BlockSpec.mxs (mblk M b) := rfl
theorem stvx_blocks : stvx P M = ∑ b : Fin 2, ∑ c : Fin 3, Cert.BlockSpec.stvx (vblk P b c) (mblk M b) := rfl
theorem sdy_blocks : sdy P T M = ∑ b : Fin 2, ∑ c : Fin 3, Cert.BlockSpec.sdy (vblk P b c) (vblk T b c) (mblk M b) := rfl
theorem mys_blocks : mys M = ∑ b : Fin 2, ∑ _c : Fin 3, Cert.BlockSpec.mys (mblk M b) := rfl
theorem stvy_blocks : stvy P M = ∑ b : Fin 2, ∑ c : Fin 3, Cert.BlockSpec.stvy (vblk P b c) (mblk M b) := rfl
theorem sdz_blocks : sdz P T M = ∑ b : Fin 2, ∑ c : Fin 3, Cert.BlockSpec.sdz (vblk P b c) (vblk T b c) (mblk M b) := rfl
theorem mzs_blocks : mzs M = ∑ b : Fin 2, ∑ _c : Fin 3, Cert.BlockSpec.mzs (mblk M b) := rfl
theorem stvz_blocks : stvz P M = ∑ b : Fin 2, ∑ c : Fin 3, Cert.BlockSpec.stvz (vblk P b c) (mblk M b) := rfl

end Cert.LossSpec

end
-- ==== Proof.LibLossSums.lean ====
/-
  Sums of a block of extended reals, read off the vector operations that form them.

  A rank-3 block `x : [A, B, C]` is summed by three one-axis reductions with two recasts in between
  (`[A, B, C] → [A, B] → [A] → [A, 1] → [1] → [1, 1]`); `rsum3` says the one entry of the result is the triple sum
  `∑ a, ∑ b, ∑ c, x (a, b, c)`. The steps are stated one by one first (`red_last`, `red_mid`, `cast_col`, `red_first`,
  `cast_one`), each at any extents. Then a sum over the whole index set of a rank-3 or rank-5 shape is written as the
  iterated sum over the coordinates (`sum_idx3`, `sum_idx5`).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibLossSums

open Idealize.ShloMosaic Idealize.ShloMosaic.ValueIdx

/-! ## One block's sum, step by step -/

/-- The index of a rank-3 block over the rank-2 index `(a, b)` with last coordinate `c` inserted is `(a, b, c)`. -/
theorem lift_last {A B C : Nat} (h : Shape.Reduces ⟨3, ![A, B, C]⟩ [2] ⟨2, ![A, B]⟩) (a : Fin A) (b : Fin B) (c : Fin C) :
    h.lift (ix2 a b) c = ix3 a b c := by
  funext d; refine Fin.ext ?_
  match d with
  | ⟨0, _⟩ => rfl
  | ⟨1, _⟩ => rfl
  | ⟨2, _⟩ => rfl

/-- Summing a rank-3 block over its last axis: at `(a, b)` the result is `∑ c, x (a, b, c)`. -/
theorem red_last {A B C : Nat} (x : FVec Ideal ⟨3, ![A, B, C]⟩ .f32)
    (h : Shape.Reduces ⟨3, ![A, B, C]⟩ [2] ⟨2, ![A, B]⟩) (hφ : FKind.Formats .f32)
    (hacc : (0x00000000#32 : BitVec 32) = 0x00000000#32) (a : Fin A) (b : Fin B) :
    multiReduction (F := Ideal) .add [2] ⟨2, ![A, B]⟩ x 0x00000000#32 h hφ hacc (ix2 a b)
      = ∑ c : Fin C, x (ix3 a b c) := by
  refine (Ideal.multiReduction_add_single x 0x00000000#32 h hφ hacc (ix2 a b)).trans ?_
  exact Finset.sum_congr rfl fun c _ => congrArg x (lift_last h a b c)

/-- The index of a rank-2 block over the rank-1 index `a` with last coordinate `b` inserted is `(a, b)`. -/
theorem lift_mid {A B : Nat} (h : Shape.Reduces ⟨2, ![A, B]⟩ [1] ⟨1, ![A]⟩) (a : Fin A) (b : Fin B) :
    h.lift (ix1 a) b = ix2 a b := by
  funext d; refine Fin.ext ?_
  match d with
  | ⟨0, _⟩ => rfl
  | ⟨1, _⟩ => rfl

/-- Summing a rank-2 block over its last axis: at `a` the result is `∑ b, y (a, b)`. -/
theorem red_mid {A B : Nat} (y : FVec Ideal ⟨2, ![A, B]⟩ .f32)
    (h : Shape.Reduces ⟨2, ![A, B]⟩ [1] ⟨1, ![A]⟩) (hφ : FKind.Formats .f32)
    (hacc : (0x00000000#32 : BitVec 32) = 0x00000000#32) (a : Fin A) :
    multiReduction (F := Ideal) .add [1] ⟨1, ![A]⟩ y 0x00000000#32 h hφ hacc (ix1 a)
      = ∑ b : Fin B, y (ix2 a b) := by
  refine (Ideal.multiReduction_add_single y 0x00000000#32 h hφ hacc (ix1 a)).trans ?_
  exact Finset.sum_congr rfl fun b _ => congrArg y (lift_mid h a b)

/-- The index of an `[A, 1]` block over the one index of `[1]` with first coordinate `a` inserted is `(a, 0)`. -/
theorem lift_first {A : Nat} (h : Shape.Reduces ⟨2, ![A, 1]⟩ [0] ⟨1, ![1]⟩) (j : (⟨1, ![1]⟩ : Shape).Idx) (a : Fin A) :
    h.lift j a = ix2 a (0 : Fin 1) := by
  funext d; refine Fin.ext ?_
  match d with
  | ⟨0, _⟩ => rfl
  | ⟨1, hd⟩ =>
    have hlt : (h.lift j a ⟨1, hd⟩).val < 1 := (h.lift j a ⟨1, hd⟩).isLt
    show (h.lift j a ⟨1, hd⟩).val = 0
    omega

/-- Summing an `[A, 1]` column over its first axis: the one entry of the result is `∑ a, z (a, 0)`. -/
theorem red_first {A : Nat} (z : FVec Ideal ⟨2, ![A, 1]⟩ .f32)
    (h : Shape.Reduces ⟨2, ![A, 1]⟩ [0] ⟨1, ![1]⟩) (hφ : FKind.Formats .f32)
    (hacc : (0x00000000#32 : BitVec 32) = 0x00000000#32) (j : (⟨1, ![1]⟩ : Shape).Idx) :
    multiReduction (F := Ideal) .add [0] ⟨1, ![1]⟩ z 0x00000000#32 h hφ hacc j
      = ∑ a : Fin A, z (ix2 a (0 : Fin 1)) := by
  refine (Ideal.multiReduction_add_single z 0x00000000#32 h hφ hacc j).trans ?_
  exact Finset.sum_congr rfl fun a _ => congrArg z (lift_first h j a)

/-- A vector `[A]` recast as a column `[A, 1]` reads, at `(a, 0)`, the vector at `a`. -/
theorem cast_col {α : Type} {A : Nat} (w : (⟨1, ![A]⟩ : Shape).Idx → α) (h : Shape.ShapeCasts ⟨1, ![A]⟩ ⟨2, ![A, 1]⟩) (a : Fin A) :
    shapeCast ⟨2, ![A, 1]⟩ w h (ix2 a (0 : Fin 1)) = w (ix1 a) := by
  refine shapeCast_apply w h _ (ix1 a) ?_
  rw [Shape.rowMajor_val_one, Shape.rowMajor_val_two]
  show a.val = a.val * 1 + 0
  omega

/-- A one-entry vector `[1]` recast as `[1, 1]` reads, at any index, the entry at any index. -/
theorem cast_one {α : Type} (w : (⟨1, ![1]⟩ : Shape).Idx → α) (h : Shape.ShapeCasts ⟨1, ![1]⟩ ⟨2, ![1, 1]⟩)
    (i : (⟨2, ![1, 1]⟩ : Shape).Idx) (j : (⟨1, ![1]⟩ : Shape).Idx) :
    shapeCast ⟨2, ![1, 1]⟩ w h i = w j := by
  refine shapeCast_apply w h i j ?_
  have h1 : ((⟨1, ![1]⟩ : Shape).rowMajor j).val < 1 := ((⟨1, ![1]⟩ : Shape).rowMajor j).isLt
  have h2 : ((⟨2, ![1, 1]⟩ : Shape).rowMajor i).val < 1 := ((⟨2, ![1, 1]⟩ : Shape).rowMajor i).isLt
  omega

/-- THE BLOCK SUM. A rank-3 block `x : [A, B, C]` summed over its last axis, then over the last axis of the `[A, B]`
    result, the `[A]` result recast as a column `[A, 1]`, summed over its first axis and the `[1]` result recast as
    `[1, 1]`: the one entry of the result is the triple sum `∑ a, ∑ b, ∑ c, x (a, b, c)`. No accumulator term is left:
    each reduction starts from the neutral word of addition. -/
theorem rsum3 {A B C : Nat} (x : FVec Ideal ⟨3, ![A, B, C]⟩ .f32)
    (h1 : Shape.Reduces ⟨3, ![A, B, C]⟩ [2] ⟨2, ![A, B]⟩) (h2 : Shape.Reduces ⟨2, ![A, B]⟩ [1] ⟨1, ![A]⟩)
    (c1 : Shape.ShapeCasts ⟨1, ![A]⟩ ⟨2, ![A, 1]⟩) (h3 : Shape.Reduces ⟨2, ![A, 1]⟩ [0] ⟨1, ![1]⟩)
    (c2 : Shape.ShapeCasts ⟨1, ![1]⟩ ⟨2, ![1, 1]⟩)
    (f1 f2 f3 : FKind.Formats .f32) (e1 e2 e3 : (0x00000000#32 : BitVec 32) = 0x00000000#32)
    (i : (⟨2, ![1, 1]⟩ : Shape).Idx) :
    shapeCast ⟨2, ![1, 1]⟩
      (multiReduction (F := Ideal) .add [0] ⟨1, ![1]⟩
        (shapeCast ⟨2, ![A, 1]⟩
          (multiReduction (F := Ideal) .add [1] ⟨1, ![A]⟩
            (multiReduction (F := Ideal) .add [2] ⟨2, ![A, B]⟩ x 0x00000000#32 h1 f1 e1)
            0x00000000#32 h2 f2 e2) c1)
        0x00000000#32 h3 f3 e3) c2 i
      = ∑ a : Fin A, ∑ b : Fin B, ∑ c : Fin C, x (ix3 a b c) := by
  rw [cast_one _ c2 i (ix1 0), red_first]
  refine Finset.sum_congr rfl fun a _ => ?_
  rw [cast_col, red_mid]
  exact Finset.sum_congr rfl fun b _ => red_last x h1 f1 e1 a b

/-- The block sum `rsum3` with each accumulator's proof typed as the reduction's own argument is (the word is the
    neutral word of addition at `f32`): the same triple sum. -/
theorem rsum3_neutral {A B C : Nat} (x : FVec Ideal ⟨3, ![A, B, C]⟩ .f32)
    (h1 : Shape.Reduces ⟨3, ![A, B, C]⟩ [2] ⟨2, ![A, B]⟩) (h2 : Shape.Reduces ⟨2, ![A, B]⟩ [1] ⟨1, ![A]⟩)
    (c1 : Shape.ShapeCasts ⟨1, ![A]⟩ ⟨2, ![A, 1]⟩) (h3 : Shape.Reduces ⟨2, ![A, 1]⟩ [0] ⟨1, ![1]⟩)
    (c2 : Shape.ShapeCasts ⟨1, ![1]⟩ ⟨2, ![1, 1]⟩)
    (f1 f2 f3 : FKind.Formats .f32) (e1 : (0x00000000#32 : BitVec 32) = FKind.add.neutral .f32 f1)
    (e2 : (0x00000000#32 : BitVec 32) = FKind.add.neutral .f32 f2) (e3 : (0x00000000#32 : BitVec 32) = FKind.add.neutral .f32 f3)
    (i : (⟨2, ![1, 1]⟩ : Shape).Idx) :
    shapeCast ⟨2, ![1, 1]⟩
      (multiReduction (F := Ideal) .add [0] ⟨1, ![1]⟩
        (shapeCast ⟨2, ![A, 1]⟩
          (multiReduction (F := Ideal) .add [1] ⟨1, ![A]⟩
            (multiReduction (F := Ideal) .add [2] ⟨2, ![A, B]⟩ x 0x00000000#32 h1 f1 e1)
            0x00000000#32 h2 f2 e2) c1)
        0x00000000#32 h3 f3 e3) c2 i
      = ∑ a : Fin A, ∑ b : Fin B, ∑ c : Fin C, x (ix3 a b c) :=
  rsum3 x h1 h2 c1 h3 c2 f1 f2 f3 rfl rfl rfl i

/-! ## Sums over index sets of rank 3 and 5 as iterated sums over the coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-5 index set is the product of its five coordinate ranges … -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- … so a sum over it is the five-fold sum over the coordinates. -/
theorem sum_idx5 {M : Type*} [AddCommMonoid M] {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

end Cert.LibLossSums

end
-- ==== Proof.KI.PointVal0.lean ====
/-
  The loss kernel's reshapes, slices and block sums read at an index.

  A `[1, 1, A, 128, 128]` volume recast as `[A, 128, 128]` keeps its last three coordinates; a unit-stride slice of a
  rank-3 block reads the block at the coordinates shifted by the offsets; each of the four block sums (of an
  `[8,128,128]`, `[8,127,128]`, `[8,128,127]` or `[7,128,128]` block) is the triple sum of the block's entries.
-/
import proofs.«161304_j43791486550161_2_alg».proof.Proof.KI.Fn
import proofs.«161304_j43791486550161_2_alg».proof.Proof.BlockSpec
import proofs.«161304_j43791486550161_2_alg».proof.Proof.LibLossSums

noncomputable section

open scoped BigOperators

namespace Cert.KernelIdeal.PointVal

open Cert.KernelIdeal Idealize.ShloMosaic Idealize.ShloMosaic.ValueIdx Cert.LibLossSums Cert.LossSpec

/-! ## Reshapes and slices at an index -/

/-- A `[1, 1, A, 128, 128]` volume recast as `[A, 128, 128]` reads, at `(a, h, w)`, the volume at `(0, 0, a, h, w)`. -/
theorem cast5 {α : Type} {A : Nat} (v : (⟨5, ![1, 1, A, 128, 128]⟩ : Shape).Idx → α)
    (hc : Shape.ShapeCasts ⟨5, ![1, 1, A, 128, 128]⟩ ⟨3, ![A, 128, 128]⟩) (a : Fin A) (h w : Fin 128) :
    shapeCast ⟨3, ![A, 128, 128]⟩ v hc (ix3 a h w) = v (ix5 (0 : Fin 1) (0 : Fin 1) a h w) := by
  refine shapeCast_apply v hc _ _ ?_
  rw [Shape.rowMajor_val_five, Shape.rowMajor_val_three]
  show (((0 * 1 + 0) * A + a.val) * 128 + h.val) * 128 + w.val = (a.val * 128 + h.val) * 128 + w.val
  omega

/-- A unit-stride slice of a rank-3 block at `(a, b, c)` is the block at the coordinates shifted by the offsets. -/
theorem slice3 {α : Type} {A B C A' B' C' o0 o1 o2 : Nat} (x : (⟨3, ![A, B, C]⟩ : Shape).Idx → α)
    (hs : Shape.Slices ⟨3, ![A, B, C]⟩ ![o0, o1, o2] ⟨3, ![A', B', C']⟩) (a : Fin A') (b : Fin B') (c : Fin C')
    (a' : Fin A) (b' : Fin B) (c' : Fin C) (ha : a'.val = o0 + a.val) (hb : b'.val = o1 + b.val) (hc : c'.val = o2 + c.val) :
    extractStridedSlice ⟨3, ![A', B', C']⟩ ![o0, o1, o2] x hs (ix3 a b c) = x (ix3 a' b' c') := by
  refine extractStridedSlice_apply _ x hs _ _ fun k => ?_
  match k with
  | ⟨0, _⟩ => exact ha
  | ⟨1, _⟩ => exact hb
  | ⟨2, _⟩ => exact hc

/-- The lower and the upper member of the k-th adjacent pair of nine planes, and of eight. -/
abbrev lo9 (k : Fin 8) : Fin 9 := ⟨k.val, by omega⟩
abbrev up9 (k : Fin 8) : Fin 9 := ⟨k.val + 1, by omega⟩
abbrev lo8 (k : Fin 7) : Fin 8 := ⟨k.val, by omega⟩
abbrev up8 (k : Fin 7) : Fin 8 := ⟨k.val + 1, by omega⟩

variable [Cert.KernelIdeal.Facts]
open Cert.KernelIdeal.Facts₀ Cert.KernelIdeal.Facts

/-! ## The block sums as triple sums -/

theorem rs_eq (x : FVec Ideal S8x128x128 .f32) (i : S1x1.Idx) :
    Fn.rs x i = ∑ d : Fin 8, ∑ h : Fin 128, ∑ w : Fin 128, x (ix3 d h w) := by
  unfold Fn.rs
  exact rsum3 x _ _ _ _ _ _ _ _ _ _ _ i

theorem rsH_eq (x : FVec Ideal S8x127x128 .f32) (i : S1x1.Idx) :
    Fn.rsH x i = ∑ d : Fin 8, ∑ h : Fin 127, ∑ w : Fin 128, x (ix3 d h w) := by
  unfold Fn.rsH
  exact rsum3 x _ _ _ _ _ _ _ _ _ _ _ i

theorem rsW_eq (x : FVec Ideal S8x128x127 .f32) (i : S1x1.Idx) :
    Fn.rsW x i = ∑ d : Fin 8, ∑ h : Fin 128, ∑ w : Fin 127, x (ix3 d h w) := by
  unfold Fn.rsW
  exact rsum3 x _ _ _ _ _ _ _ _ _ _ _ i

theorem rs7_eq (x : FVec Ideal S7x128x128 .f32) (i : S1x1.Idx) :
    Fn.rs7 x i = ∑ d : Fin 7, ∑ h : Fin 128, ∑ w : Fin 128, x (ix3 d h w) := by
  unfold Fn.rs7
  exact rsum3 x _ _ _ _ _ _ _ _ _ _ _ i

end Cert.KernelIdeal.PointVal

end
-- ==== Proof.KI.PointVal1.lean ====
/-
  The fourteen sums after one slab of nine planes, read at an index.

  A slab of nine planes of pred, target and mask advances each running sum by a triple sum of that sum's term: over
  the slab's first eight planes for the five plain sums; over those eight planes and the 127 adjacent pairs along
  height (or width) for the height (or width) differences; and over the eight adjacent pairs of the nine planes for
  the depth differences, the ninth plane being the upper neighbour of the eighth.

  First the slab's reshape and slices at an index by coordinates, then the fourteen fields.
-/
import proofs.«161304_j43791486550161_2_alg».proof.Proof.KI.PointVal0

noncomputable section

open scoped BigOperators

namespace Cert.KernelIdeal.PointVal

open Cert.KernelIdeal Idealize.ShloMosaic Idealize.ShloMosaic.ValueIdx Cert.LibLossSums Cert.LossSpec

variable [Cert.KernelIdeal.Facts]
open Cert.KernelIdeal.Facts₀ Cert.KernelIdeal.Facts

/-! ## The nine-plane slab's blocks at an index -/

/-- On the extended reals the elementwise absolute value at an index is max x (−x). -/
theorem absf_apply {s : Shape} {φ : FTy} (a : FVec Ideal s φ) (i : s.Idx) : absf a i = max (a i) (-(a i)) := rfl

/-- The reshaped slab at (a, h, w) is the slab at (0, 0, a, h, w). -/
theorem cast9 {α : Type} (v : S1x1x9x128x128.Idx → α) (hc : S1x1x9x128x128.ShapeCasts S9x128x128) (a : Fin 9) (h w : Fin 128) :
    shapeCast S9x128x128 v hc (ix3 a h w) = v (ix5 (0 : Fin 1) (0 : Fin 1) a h w) := cast5 v hc a h w

/-- The first eight planes of nine: plane d is the lower member of the d-th adjacent pair. -/
theorem core9 {α : Type} (x : S9x128x128.Idx → α) (hs : S9x128x128.Slices ![0, 0, 0] S8x128x128) (d : Fin 8) (h w : Fin 128) :
    extractStridedSlice S8x128x128 ![0, 0, 0] x hs (ix3 d h w) = x (ix3 (lo9 d) h w) :=
  slice3 x hs d h w (lo9 d) h w (Nat.zero_add _).symm (Nat.zero_add _).symm (Nat.zero_add _).symm

/-- The last eight planes of nine: plane d is the upper member of the d-th adjacent pair. -/
theorem upper9 {α : Type} (x : S9x128x128.Idx → α) (hs : S9x128x128.Slices ![1, 0, 0] S8x128x128) (d : Fin 8) (h w : Fin 128) :
    extractStridedSlice S8x128x128 ![1, 0, 0] x hs (ix3 d h w) = x (ix3 (up9 d) h w) :=
  slice3 x hs d h w (up9 d) h w (Nat.add_comm _ _) (Nat.zero_add _).symm (Nat.zero_add _).symm

/-- The 127 adjacent pairs along height of an eight-plane block: the lower and the upper member. -/
theorem loH {α : Type} (x : S8x128x128.Idx → α) (hs : S8x128x128.Slices ![0, 0, 0] S8x127x128) (d : Fin 8) (h : Fin 127) (w : Fin 128) :
    extractStridedSlice S8x127x128 ![0, 0, 0] x hs (ix3 d h w) = x (ix3 d (lo h) w) :=
  slice3 x hs d h w d (lo h) w (Nat.zero_add _).symm (Nat.zero_add _).symm (Nat.zero_add _).symm

theorem upH {α : Type} (x : S8x128x128.Idx → α) (hs : S8x128x128.Slices ![0, 1, 0] S8x127x128) (d : Fin 8) (h : Fin 127) (w : Fin 128) :
    extractStridedSlice S8x127x128 ![0, 1, 0] x hs (ix3 d h w) = x (ix3 d (up h) w) :=
  slice3 x hs d h w d (up h) w (Nat.zero_add _).symm (Nat.add_comm _ _) (Nat.zero_add _).symm

/-- The 127 adjacent pairs along width. -/
theorem loW {α : Type} (x : S8x128x128.Idx → α) (hs : S8x128x128.Slices ![0, 0, 0] S8x128x127) (d : Fin 8) (h : Fin 128) (w : Fin 127) :
    extractStridedSlice S8x128x127 ![0, 0, 0] x hs (ix3 d h w) = x (ix3 d h (lo w)) :=
  slice3 x hs d h w d h (lo w) (Nat.zero_add _).symm (Nat.zero_add _).symm (Nat.zero_add _).symm

theorem upW {α : Type} (x : S8x128x128.Idx → α) (hs : S8x128x128.Slices ![0, 0, 1] S8x128x127) (d : Fin 8) (h : Fin 128) (w : Fin 127) :
    extractStridedSlice S8x128x127 ![0, 0, 1] x hs (ix3 d h w) = x (ix3 d h (up w)) :=
  slice3 x hs d h w d h (up w) (Nat.zero_add _).symm (Nat.zero_add _).symm (Nat.add_comm _ _)

/-! ## The fourteen sums after a nine-plane slab -/

/-- The index (0, 0, a, h, w) of a slab. -/
local notation "𝕚" => ix5 (0 : Fin 1) (0 : Fin 1)

theorem chunk9_s1 (v6 v8 v10 : Vec Ideal S1x1x9x128x128 .f32) (a : Fn.Acc Ideal) (i : S1x1.Idx) :
    (Fn.chunk9 v6 v8 v10 a).s1 i = a.s1 i + ∑ d : Fin 8, ∑ h : Fin 128, ∑ w : Fin 128,
      aabs ((v6 (𝕚 (lo9 d) h w) : EReal) * (v10 (𝕚 (lo9 d) h w) : EReal)
        - (v8 (𝕚 (lo9 d) h w) : EReal) * (v10 (𝕚 (lo9 d) h w) : EReal)) * (v10 (𝕚 (lo9 d) h w) : EReal) := by
  unfold Fn.chunk9
  dsimp only
  rw [addf_apply, rs_eq]
  refine congrArg _ (Finset.sum_congr rfl fun d _ => Finset.sum_congr rfl fun h _ => Finset.sum_congr rfl fun w _ => ?_)
  simp only [mulf_apply, subf_apply, absf_apply, core9, cast9]

theorem chunk9_m0 (v6 v8 v10 : Vec Ideal S1x1x9x128x128 .f32) (a : Fn.Acc Ideal) (i : S1x1.Idx) :
    (Fn.chunk9 v6 v8 v10 a).m0 i = a.m0 i + ∑ d : Fin 8, ∑ h : Fin 128, ∑ w : Fin 128,
      (v10 (𝕚 (lo9 d) h w) : EReal) := by
  unfold Fn.chunk9
  dsimp only
  rw [addf_apply, rs_eq]
  refine congrArg _ (Finset.sum_congr rfl fun d _ => Finset.sum_congr rfl fun h _ => Finset.sum_congr rfl fun w _ => ?_)
  simp only [core9, cast9]

theorem chunk9_smse (v6 v8 v10 : Vec Ideal S1x1x9x128x128 .f32) (a : Fn.Acc Ideal) (i : S1x1.Idx) :
    (Fn.chunk9 v6 v8 v10 a).smse i = a.smse i + ∑ d : Fin 8, ∑ h : Fin 128, ∑ w : Fin 128,
      (((v6 (𝕚 (lo9 d) h w) : EReal) * (v10 (𝕚 (lo9 d) h w) : EReal) - (v8 (𝕚 (lo9 d) h w) : EReal) * (v10 (𝕚 (lo9 d) h w) : EReal))
        * ((v6 (𝕚 (lo9 d) h w) : EReal) * (v10 (𝕚 (lo9 d) h w) : EReal) - (v8 (𝕚 (lo9 d) h w) : EReal) * (v10 (𝕚 (lo9 d) h w) : EReal)))
        * (v10 (𝕚 (lo9 d) h w) : EReal) := by
  unfold Fn.chunk9
  dsimp only
  rw [addf_apply, rs_eq]
  refine congrArg _ (Finset.sum_congr rfl fun d _ => Finset.sum_congr rfl fun h _ => Finset.sum_congr rfl fun w _ => ?_)
  simp only [mulf_apply, subf_apply, core9, cast9]

theorem chunk9_sbg (v6 v8 v10 : Vec Ideal S1x1x9x128x128 .f32) (a : Fn.Acc Ideal) (i : S1x1.Idx) :
    (Fn.chunk9 v6 v8 v10 a).sbg i = a.sbg i + ∑ d : Fin 8, ∑ h : Fin 128, ∑ w : Fin 128,
      aabs (v6 (𝕚 (lo9 d) h w) : EReal) * (one - (v10 (𝕚 (lo9 d) h w) : EReal)) := by
  unfold Fn.chunk9
  dsimp only
  rw [addf_apply, rs_eq]
  refine congrArg _ (Finset.sum_congr rfl fun d _ => Finset.sum_congr rfl fun h _ => Finset.sum_congr rfl fun w _ => ?_)
  simp only [mulf_apply, subf_apply, absf_apply, broadcast_apply, core9, cast9]
  rfl

theorem chunk9_minv (v6 v8 v10 : Vec Ideal S1x1x9x128x128 .f32) (a : Fn.Acc Ideal) (i : S1x1.Idx) :
    (Fn.chunk9 v6 v8 v10 a).minv i = a.minv i + ∑ d : Fin 8, ∑ h : Fin 128, ∑ w : Fin 128,
      (one - (v10 (𝕚 (lo9 d) h w) : EReal)) := by
  unfold Fn.chunk9
  dsimp only
  rw [addf_apply, rs_eq]
  refine congrArg _ (Finset.sum_congr rfl fun d _ => Finset.sum_congr rfl fun h _ => Finset.sum_congr rfl fun w _ => ?_)
  simp only [subf_apply, broadcast_apply, core9, cast9]
  rfl

theorem chunk9_sdx (v6 v8 v10 : Vec Ideal S1x1x9x128x128 .f32) (a : Fn.Acc Ideal) (i : S1x1.Idx) :
    (Fn.chunk9 v6 v8 v10 a).sdx i = a.sdx i + ∑ d : Fin 8, ∑ h : Fin 128, ∑ w : Fin 128,
      aabs (((v6 (𝕚 (up9 d) h w) : EReal) * (v10 (𝕚 (up9 d) h w) : EReal) - (v6 (𝕚 (lo9 d) h w) : EReal) * (v10 (𝕚 (lo9 d) h w) : EReal))
          - ((v8 (𝕚 (up9 d) h w) : EReal) * (v10 (𝕚 (up9 d) h w) : EReal) - (v8 (𝕚 (lo9 d) h w) : EReal) * (v10 (𝕚 (lo9 d) h w) : EReal)))
        * min (v10 (𝕚 (up9 d) h w) : EReal) (v10 (𝕚 (lo9 d) h w) : EReal) := by
  unfold Fn.chunk9
  dsimp only
  rw [addf_apply, rs_eq]
  refine congrArg _ (Finset.sum_congr rfl fun d _ => Finset.sum_congr rfl fun h _ => Finset.sum_congr rfl fun w _ => ?_)
  simp only [mulf_apply, subf_apply, minimumf_apply, absf_apply, core9, upper9, cast9]

theorem chunk9_mxs (v6 v8 v10 : Vec Ideal S1x1x9x128x128 .f32) (a : Fn.Acc Ideal) (i : S1x1.Idx) :
    (Fn.chunk9 v6 v8 v10 a).mxs i = a.mxs i + ∑ d : Fin 8, ∑ h : Fin 128, ∑ w : Fin 128,
      min (v10 (𝕚 (up9 d) h w) : EReal) (v10 (𝕚 (lo9 d) h w) : EReal) := by
  unfold Fn.chunk9
  dsimp only
  rw [addf_apply, rs_eq]
  refine congrArg _ (Finset.sum_congr rfl fun d _ => Finset.sum_congr rfl fun h _ => Finset.sum_congr rfl fun w _ => ?_)
  simp only [minimumf_apply, core9, upper9, cast9]

theorem chunk9_stvx (v6 v8 v10 : Vec Ideal S1x1x9x128x128 .f32) (a : Fn.Acc Ideal) (i : S1x1.Idx) :
    (Fn.chunk9 v6 v8 v10 a).stvx i = a.stvx i + ∑ d : Fin 8, ∑ h : Fin 128, ∑ w : Fin 128,
      aabs ((v6 (𝕚 (up9 d) h w) : EReal) * (v10 (𝕚 (up9 d) h w) : EReal) - (v6 (𝕚 (lo9 d) h w) : EReal) * (v10 (𝕚 (lo9 d) h w) : EReal))
        * min (v10 (𝕚 (up9 d) h w) : EReal) (v10 (𝕚 (lo9 d) h w) : EReal) := by
  unfold Fn.chunk9
  dsimp only
  rw [addf_apply, rs_eq]
  refine congrArg _ (Finset.sum_congr rfl fun d _ => Finset.sum_congr rfl fun h _ => Finset.sum_congr rfl fun w _ => ?_)
  simp only [mulf_apply, subf_apply, minimumf_apply, absf_apply, core9, upper9, cast9]

theorem chunk9_sdy (v6 v8 v10 : Vec Ideal S1x1x9x128x128 .f32) (a : Fn.Acc Ideal) (i : S1x1.Idx) :
    (Fn.chunk9 v6 v8 v10 a).sdy i = a.sdy i + ∑ d : Fin 8, ∑ h : Fin 127, ∑ w : Fin 128,
      aabs (((v6 (𝕚 (lo9 d) (up h) w) : EReal) * (v10 (𝕚 (lo9 d) (up h) w) : EReal) - (v6 (𝕚 (lo9 d) (lo h) w) : EReal) * (v10 (𝕚 (lo9 d) (lo h) w) : EReal))
          - ((v8 (𝕚 (lo9 d) (up h) w) : EReal) * (v10 (𝕚 (lo9 d) (up h) w) : EReal) - (v8 (𝕚 (lo9 d) (lo h) w) : EReal) * (v10 (𝕚 (lo9 d) (lo h) w) : EReal)))
        * min (v10 (𝕚 (lo9 d) (up h) w) : EReal) (v10 (𝕚 (lo9 d) (lo h) w) : EReal) := by
  unfold Fn.chunk9 Fn.dH
  dsimp only
  rw [addf_apply, rsH_eq]
  refine congrArg _ (Finset.sum_congr rfl fun d _ => Finset.sum_congr rfl fun h _ => Finset.sum_congr rfl fun w _ => ?_)
  simp only [mulf_apply, subf_apply, minimumf_apply, absf_apply, core9, cast9, loH, upH]

theorem chunk9_mys (v6 v8 v10 : Vec Ideal S1x1x9x128x128 .f32) (a : Fn.Acc Ideal) (i : S1x1.Idx) :
    (Fn.chunk9 v6 v8 v10 a).mys i = a.mys i + ∑ d : Fin 8, ∑ h : Fin 127, ∑ w : Fin 128,
      min (v10 (𝕚 (lo9 d) (up h) w) : EReal) (v10 (𝕚 (lo9 d) (lo h) w) : EReal) := by
  unfold Fn.chunk9 Fn.dH
  dsimp only
  rw [addf_apply, rsH_eq]
  refine congrArg _ (Finset.sum_congr rfl fun d _ => Finset.sum_congr rfl fun h _ => Finset.sum_congr rfl fun w _ => ?_)
  simp only [minimumf_apply, core9, cast9, loH, upH]

theorem chunk9_stvy (v6 v8 v10 : Vec Ideal S1x1x9x128x128 .f32) (a : Fn.Acc Ideal) (i : S1x1.Idx) :
    (Fn.chunk9 v6 v8 v10 a).stvy i = a.stvy i + ∑ d : Fin 8, ∑ h : Fin 127, ∑ w : Fin 128,
      aabs ((v6 (𝕚 (lo9 d) (up h) w) : EReal) * (v10 (𝕚 (lo9 d) (up h) w) : EReal) - (v6 (𝕚 (lo9 d) (lo h) w) : EReal) * (v10 (𝕚 (lo9 d) (lo h) w) : EReal))
        * min (v10 (𝕚 (lo9 d) (up h) w) : EReal) (v10 (𝕚 (lo9 d) (lo h) w) : EReal) := by
  unfold Fn.chunk9 Fn.dH
  dsimp only
  rw [addf_apply, rsH_eq]
  refine congrArg _ (Finset.sum_congr rfl fun d _ => Finset.sum_congr rfl fun h _ => Finset.sum_congr rfl fun w _ => ?_)
  simp only [mulf_apply, subf_apply, minimumf_apply, absf_apply, core9, cast9, loH, upH]

theorem chunk9_sdz (v6 v8 v10 : Vec Ideal S1x1x9x128x128 .f32) (a : Fn.Acc Ideal) (i : S1x1.Idx) :
    (Fn.chunk9 v6 v8 v10 a).sdz i = a.sdz i + ∑ d : Fin 8, ∑ h : Fin 128, ∑ w : Fin 127,
      aabs (((v6 (𝕚 (lo9 d) h (up w)) : EReal) * (v10 (𝕚 (lo9 d) h (up w)) : EReal) - (v6 (𝕚 (lo9 d) h (lo w)) : EReal) * (v10 (𝕚 (lo9 d) h (lo w)) : EReal))
          - ((v8 (𝕚 (lo9 d) h (up w)) : EReal) * (v10 (𝕚 (lo9 d) h (up w)) : EReal) - (v8 (𝕚 (lo9 d) h (lo w)) : EReal) * (v10 (𝕚 (lo9 d) h (lo w)) : EReal)))
        * min (v10 (𝕚 (lo9 d) h (up w)) : EReal) (v10 (𝕚 (lo9 d) h (lo w)) : EReal) := by
  unfold Fn.chunk9 Fn.dW
  dsimp only
  rw [addf_apply, rsW_eq]
  refine congrArg _ (Finset.sum_congr rfl fun d _ => Finset.sum_congr rfl fun h _ => Finset.sum_congr rfl fun w _ => ?_)
  simp only [mulf_apply, subf_apply, minimumf_apply, absf_apply, core9, cast9, loW, upW]

theorem chunk9_mzs (v6 v8 v10 : Vec Ideal S1x1x9x128x128 .f32) (a : Fn.Acc Ideal) (i : S1x1.Idx) :
    (Fn.chunk9 v6 v8 v10 a).mzs i = a.mzs i + ∑ d : Fin 8, ∑ h : Fin 128, ∑ w : Fin 127,
      min (v10 (𝕚 (lo9 d) h (up w)) : EReal) (v10 (𝕚 (lo9 d) h (lo w)) : EReal) := by
  unfold Fn.chunk9 Fn.dW
  dsimp only
  rw [addf_apply, rsW_eq]
  refine congrArg _ (Finset.sum_congr rfl fun d _ => Finset.sum_congr rfl fun h _ => Finset.sum_congr rfl fun w _ => ?_)
  simp only [minimumf_apply, core9, cast9, loW, upW]

theorem chunk9_stvz (v6 v8 v10 : Vec Ideal S1x1x9x128x128 .f32) (a : Fn.Acc Ideal) (i : S1x1.Idx) :
    (Fn.chunk9 v6 v8 v10 a).stvz i = a.stvz i + ∑ d : Fin 8, ∑ h : Fin 128, ∑ w : Fin 127,
      aabs ((v6 (𝕚 (lo9 d) h (up w)) : EReal) * (v10 (𝕚 (lo9 d) h (up w)) : EReal) - (v6 (𝕚 (lo9 d) h (lo w)) : EReal) * (v10 (𝕚 (lo9 d) h (lo w)) : EReal))
        * min (v10 (𝕚 (lo9 d) h (up w)) : EReal) (v10 (𝕚 (lo9 d) h (lo w)) : EReal) := by
  unfold Fn.chunk9 Fn.dW
  dsimp only
  rw [addf_apply, rsW_eq]
  refine congrArg _ (Finset.sum_congr rfl fun d _ => Finset.sum_congr rfl fun h _ => Finset.sum_congr rfl fun w _ => ?_)
  simp only [mulf_apply, subf_apply, minimumf_apply, absf_apply, core9, cast9, loW, upW]

end Cert.KernelIdeal.PointVal

end
-- ==== Proof.KI.PointVal1b.lean ====
/-
  The last slab of the loss kernel's walk, read at an index.

  The last slab has eight planes. It advances each of the fourteen running sums by a triple sum over the slab: the
  five plain sums over its eight planes; the three height and the three width sums over the 127 adjacent pairs of rows
  or columns of each plane; the three depth sums over the seven adjacent pairs of planes inside it. Each is spelt over
  the entries of the three staged slabs (pred `v6`, target `v8`, mask `v10`), with `|x| = max x (−x)` and `μ` the
  smaller of a pair's two mask values.
-/
import proofs.«161304_j43791486550161_2_alg».proof.Proof.KI.PointVal0

noncomputable section

open scoped BigOperators

namespace Cert.KernelIdeal.PointVal

open Cert.KernelIdeal Idealize.ShloMosaic Idealize.ShloMosaic.ValueIdx Cert.LibLossSums Cert.LossSpec

variable [Cert.KernelIdeal.Facts]
open Cert.KernelIdeal.Facts₀ Cert.KernelIdeal.Facts

/-! ## The last slab's reshape and slices at an index -/

/-- The absolute value at an index is the larger of the entry and its negative. -/
private theorem c8_absf {s : Shape} {φ : FTy} (x : FVec Ideal s φ) (j : s.Idx) : absf x j = max (x j) (-(x j)) := rfl

/-- The eight-plane slab recast as a rank-3 block keeps its last three coordinates. -/
private theorem c8_cast {α : Type} (v : S1x1x8x128x128.Idx → α) (d : Fin 8) (h w : Fin 128) :
    shapeCast S8x128x128 v shapeCasts_S1x1x8x128x128_S8x128x128 (ix3 d h w) = v (ix5 (0 : Fin 1) (0 : Fin 1) d h w) :=
  cast5 v _ d h w

/-- The first seven planes of an eight-plane block: the lower member of each adjacent pair of planes … -/
private theorem c8_lo7 {α : Type} (x : S8x128x128.Idx → α) (hs : S8x128x128.Slices ![0, 0, 0] S7x128x128) (d : Fin 7) (h w : Fin 128) :
    extractStridedSlice S7x128x128 ![0, 0, 0] x hs (ix3 d h w) = x (ix3 (lo8 d) h w) :=
  slice3 x hs d h w (lo8 d) h w (Nat.zero_add _).symm (Nat.zero_add _).symm (Nat.zero_add _).symm
/-- … and the last seven: the upper member. -/
private theorem c8_up7 {α : Type} (x : S8x128x128.Idx → α) (hs : S8x128x128.Slices ![1, 0, 0] S7x128x128) (d : Fin 7) (h w : Fin 128) :
    extractStridedSlice S7x128x128 ![1, 0, 0] x hs (ix3 d h w) = x (ix3 (up8 d) h w) :=
  slice3 x hs d h w (up8 d) h w (Nat.add_comm _ _) (Nat.zero_add _).symm (Nat.zero_add _).symm

/-- The first 127 rows of each plane: the lower member of each adjacent pair of rows … -/
private theorem c8_loH {α : Type} (x : S8x128x128.Idx → α) (hs : S8x128x128.Slices ![0, 0, 0] S8x127x128) (d : Fin 8) (h : Fin 127) (w : Fin 128) :
    extractStridedSlice S8x127x128 ![0, 0, 0] x hs (ix3 d h w) = x (ix3 d (lo h) w) :=
  slice3 x hs d h w d (lo h) w (Nat.zero_add _).symm (Nat.zero_add _).symm (Nat.zero_add _).symm
/-- … and the last 127: the upper member. -/
private theorem c8_upH {α : Type} (x : S8x128x128.Idx → α) (hs : S8x128x128.Slices ![0, 1, 0] S8x127x128) (d : Fin 8) (h : Fin 127) (w : Fin 128) :
    extractStridedSlice S8x127x128 ![0, 1, 0] x hs (ix3 d h w) = x (ix3 d (up h) w) :=
  slice3 x hs d h w d (up h) w (Nat.zero_add _).symm (Nat.add_comm _ _) (Nat.zero_add _).symm

/-- The first 127 columns of each row: the lower member of each adjacent pair of columns … -/
private theorem c8_loW {α : Type} (x : S8x128x128.Idx → α) (hs : S8x128x128.Slices ![0, 0, 0] S8x128x127) (d : Fin 8) (h : Fin 128) (w : Fin 127) :
    extractStridedSlice S8x128x127 ![0, 0, 0] x hs (ix3 d h w) = x (ix3 d h (lo w)) :=
  slice3 x hs d h w d h (lo w) (Nat.zero_add _).symm (Nat.zero_add _).symm (Nat.zero_add _).symm
/-- … and the last 127: the upper member. -/
private theorem c8_upW {α : Type} (x : S8x128x128.Idx → α) (hs : S8x128x128.Slices ![0, 0, 1] S8x128x127) (d : Fin 8) (h : Fin 128) (w : Fin 127) :
    extractStridedSlice S8x128x127 ![0, 0, 1] x hs (ix3 d h w) = x (ix3 d h (up w)) :=
  slice3 x hs d h w d h (up w) (Nat.zero_add _).symm (Nat.zero_add _).symm (Nat.add_comm _ _)

/-! ## The last slab's fourteen sums -/

section Chunk8
variable (v6 v8 v10 : Vec Ideal S1x1x8x128x128 .f32) (a : Fn.Acc Ideal) (i : S1x1.Idx)

/-- The sum of `|p·m − t·m|·m` advances by the slab's eight planes. -/
theorem chunk8_s1 :
    (Fn.chunk8 v6 v8 v10 a).s1 i = a.s1 i + ∑ d : Fin 8, ∑ h : Fin 128, ∑ w : Fin 128,
      aabs ((v6 (ix5 (0 : Fin 1) (0 : Fin 1) d h w) * v10 (ix5 (0 : Fin 1) (0 : Fin 1) d h w) : EReal)
          - v8 (ix5 (0 : Fin 1) (0 : Fin 1) d h w) * v10 (ix5 (0 : Fin 1) (0 : Fin 1) d h w))
        * v10 (ix5 (0 : Fin 1) (0 : Fin 1) d h w) := by
  unfold Fn.chunk8
  dsimp only
  rw [addf_apply, rs_eq]
  refine congrArg _ (Finset.sum_congr rfl fun d _ => Finset.sum_congr rfl fun h _ => Finset.sum_congr rfl fun w _ => ?_)
  simp only [Fn.dH, Fn.dW, mulf_apply, subf_apply, minimumf_apply, broadcast_apply, c8_absf, c8_lo7, c8_up7, c8_loH, c8_upH, c8_loW, c8_upW, c8_cast]

/-- The sum of the mask advances by the slab's eight planes. -/
theorem chunk8_m0 :
    (Fn.chunk8 v6 v8 v10 a).m0 i = a.m0 i + ∑ d : Fin 8, ∑ h : Fin 128, ∑ w : Fin 128,
      (v10 (ix5 (0 : Fin 1) (0 : Fin 1) d h w) : EReal) := by
  unfold Fn.chunk8
  dsimp only
  rw [addf_apply, rs_eq]
  refine congrArg _ (Finset.sum_congr rfl fun d _ => Finset.sum_congr rfl fun h _ => Finset.sum_congr rfl fun w _ => ?_)
  simp only [Fn.dH, Fn.dW, mulf_apply, subf_apply, minimumf_apply, broadcast_apply, c8_absf, c8_lo7, c8_up7, c8_loH, c8_upH, c8_loW, c8_upW, c8_cast]

/-- The sum of `(p·m − t·m)²·m` advances by the slab's eight planes. -/
theorem chunk8_smse :
    (Fn.chunk8 v6 v8 v10 a).smse i = a.smse i + ∑ d : Fin 8, ∑ h : Fin 128, ∑ w : Fin 128,
      (((v6 (ix5 (0 : Fin 1) (0 : Fin 1) d h w) * v10 (ix5 (0 : Fin 1) (0 : Fin 1) d h w) : EReal) - v8 (ix5 (0 : Fin 1) (0 : Fin 1) d h w) * v10 (ix5 (0 : Fin 1) (0 : Fin 1) d h w))
          * (v6 (ix5 (0 : Fin 1) (0 : Fin 1) d h w) * v10 (ix5 (0 : Fin 1) (0 : Fin 1) d h w) - v8 (ix5 (0 : Fin 1) (0 : Fin 1) d h w) * v10 (ix5 (0 : Fin 1) (0 : Fin 1) d h w)))
        * v10 (ix5 (0 : Fin 1) (0 : Fin 1) d h w) := by
  unfold Fn.chunk8
  dsimp only
  rw [addf_apply, rs_eq]
  refine congrArg _ (Finset.sum_congr rfl fun d _ => Finset.sum_congr rfl fun h _ => Finset.sum_congr rfl fun w _ => ?_)
  simp only [Fn.dH, Fn.dW, mulf_apply, subf_apply, minimumf_apply, broadcast_apply, c8_absf, c8_lo7, c8_up7, c8_loH, c8_upH, c8_loW, c8_upW, c8_cast]

/-- The sum of `|p|·(1 − m)` advances by the slab's eight planes. -/
theorem chunk8_sbg :
    (Fn.chunk8 v6 v8 v10 a).sbg i = a.sbg i + ∑ d : Fin 8, ∑ h : Fin 128, ∑ w : Fin 128,
      aabs (v6 (ix5 (0 : Fin 1) (0 : Fin 1) d h w) : EReal) * (one - v10 (ix5 (0 : Fin 1) (0 : Fin 1) d h w)) := by
  unfold Fn.chunk8
  dsimp only
  rw [addf_apply, rs_eq]
  refine congrArg _ (Finset.sum_congr rfl fun d _ => Finset.sum_congr rfl fun h _ => Finset.sum_congr rfl fun w _ => ?_)
  simp only [Fn.dH, Fn.dW, mulf_apply, subf_apply, minimumf_apply, broadcast_apply, c8_absf, c8_lo7, c8_up7, c8_loH, c8_upH, c8_loW, c8_upW, c8_cast]
  rfl

/-- The sum of `1 − m` advances by the slab's eight planes. -/
theorem chunk8_minv :
    (Fn.chunk8 v6 v8 v10 a).minv i = a.minv i + ∑ d : Fin 8, ∑ h : Fin 128, ∑ w : Fin 128,
      (one - v10 (ix5 (0 : Fin 1) (0 : Fin 1) d h w) : EReal) := by
  unfold Fn.chunk8
  dsimp only
  rw [addf_apply, rs_eq]
  refine congrArg _ (Finset.sum_congr rfl fun d _ => Finset.sum_congr rfl fun h _ => Finset.sum_congr rfl fun w _ => ?_)
  simp only [Fn.dH, Fn.dW, mulf_apply, subf_apply, minimumf_apply, broadcast_apply, c8_absf, c8_lo7, c8_up7, c8_loH, c8_upH, c8_loW, c8_upW, c8_cast]
  rfl

/-- The depth-difference sum of `|Δ(p·m) − Δ(t·m)|·μ` advances by the seven adjacent pairs of planes inside the slab. -/
theorem chunk8_sdx :
    (Fn.chunk8 v6 v8 v10 a).sdx i = a.sdx i + ∑ d : Fin 7, ∑ h : Fin 128, ∑ w : Fin 128,
      aabs ((v6 (ix5 (0 : Fin 1) (0 : Fin 1) (up8 d) h w) * v10 (ix5 (0 : Fin 1) (0 : Fin 1) (up8 d) h w) - v6 (ix5 (0 : Fin 1) (0 : Fin 1) (lo8 d) h w) * v10 (ix5 (0 : Fin 1) (0 : Fin 1) (lo8 d) h w))
          - (v8 (ix5 (0 : Fin 1) (0 : Fin 1) (up8 d) h w) * v10 (ix5 (0 : Fin 1) (0 : Fin 1) (up8 d) h w) - v8 (ix5 (0 : Fin 1) (0 : Fin 1) (lo8 d) h w) * v10 (ix5 (0 : Fin 1) (0 : Fin 1) (lo8 d) h w)))
        * min (v10 (ix5 (0 : Fin 1) (0 : Fin 1) (up8 d) h w)) (v10 (ix5 (0 : Fin 1) (0 : Fin 1) (lo8 d) h w)) := by
  unfold Fn.chunk8
  dsimp only
  rw [addf_apply, rs7_eq]
  refine congrArg _ (Finset.sum_congr rfl fun d _ => Finset.sum_congr rfl fun h _ => Finset.sum_congr rfl fun w _ => ?_)
  simp only [Fn.dH, Fn.dW, mulf_apply, subf_apply, minimumf_apply, broadcast_apply, c8_absf, c8_lo7, c8_up7, c8_loH, c8_upH, c8_loW, c8_upW, c8_cast]

/-- The sum of `μ` along depth advances by the seven adjacent pairs of planes inside the slab. -/
theorem chunk8_mxs :
    (Fn.chunk8 v6 v8 v10 a).mxs i = a.mxs i + ∑ d : Fin 7, ∑ h : Fin 128, ∑ w : Fin 128,
      min (v10 (ix5 (0 : Fin 1) (0 : Fin 1) (up8 d) h w)) (v10 (ix5 (0 : Fin 1) (0 : Fin 1) (lo8 d) h w)) := by
  unfold Fn.chunk8
  dsimp only
  rw [addf_apply, rs7_eq]
  refine congrArg _ (Finset.sum_congr rfl fun d _ => Finset.sum_congr rfl fun h _ => Finset.sum_congr rfl fun w _ => ?_)
  simp only [Fn.dH, Fn.dW, mulf_apply, subf_apply, minimumf_apply, broadcast_apply, c8_absf, c8_lo7, c8_up7, c8_loH, c8_upH, c8_loW, c8_upW, c8_cast]

/-- The depth-difference sum of `|Δ(p·m)|·μ` advances by the seven adjacent pairs of planes inside the slab. -/
theorem chunk8_stvx :
    (Fn.chunk8 v6 v8 v10 a).stvx i = a.stvx i + ∑ d : Fin 7, ∑ h : Fin 128, ∑ w : Fin 128,
      aabs (v6 (ix5 (0 : Fin 1) (0 : Fin 1) (up8 d) h w) * v10 (ix5 (0 : Fin 1) (0 : Fin 1) (up8 d) h w) - v6 (ix5 (0 : Fin 1) (0 : Fin 1) (lo8 d) h w) * v10 (ix5 (0 : Fin 1) (0 : Fin 1) (lo8 d) h w))
        * min (v10 (ix5 (0 : Fin 1) (0 : Fin 1) (up8 d) h w)) (v10 (ix5 (0 : Fin 1) (0 : Fin 1) (lo8 d) h w)) := by
  unfold Fn.chunk8
  dsimp only
  rw [addf_apply, rs7_eq]
  refine congrArg _ (Finset.sum_congr rfl fun d _ => Finset.sum_congr rfl fun h _ => Finset.sum_congr rfl fun w _ => ?_)
  simp only [Fn.dH, Fn.dW, mulf_apply, subf_apply, minimumf_apply, broadcast_apply, c8_absf, c8_lo7, c8_up7, c8_loH, c8_upH, c8_loW, c8_upW, c8_cast]

/-- The height-difference sum of `|Δ(p·m) − Δ(t·m)|·μ` advances by the 127 adjacent pairs of rows of each of the eight planes. -/
theorem chunk8_sdy :
    (Fn.chunk8 v6 v8 v10 a).sdy i = a.sdy i + ∑ d : Fin 8, ∑ h : Fin 127, ∑ w : Fin 128,
      aabs ((v6 (ix5 (0 : Fin 1) (0 : Fin 1) d (up h) w) * v10 (ix5 (0 : Fin 1) (0 : Fin 1) d (up h) w) - v6 (ix5 (0 : Fin 1) (0 : Fin 1) d (lo h) w) * v10 (ix5 (0 : Fin 1) (0 : Fin 1) d (lo h) w))
          - (v8 (ix5 (0 : Fin 1) (0 : Fin 1) d (up h) w) * v10 (ix5 (0 : Fin 1) (0 : Fin 1) d (up h) w) - v8 (ix5 (0 : Fin 1) (0 : Fin 1) d (lo h) w) * v10 (ix5 (0 : Fin 1) (0 : Fin 1) d (lo h) w)))
        * min (v10 (ix5 (0 : Fin 1) (0 : Fin 1) d (up h) w)) (v10 (ix5 (0 : Fin 1) (0 : Fin 1) d (lo h) w)) := by
  unfold Fn.chunk8
  dsimp only
  rw [addf_apply, rsH_eq]
  refine congrArg _ (Finset.sum_congr rfl fun d _ => Finset.sum_congr rfl fun h _ => Finset.sum_congr rfl fun w _ => ?_)
  simp only [Fn.dH, Fn.dW, mulf_apply, subf_apply, minimumf_apply, broadcast_apply, c8_absf, c8_lo7, c8_up7, c8_loH, c8_upH, c8_loW, c8_upW, c8_cast]

/-- The sum of `μ` along height advances by the 127 adjacent pairs of rows of each of the eight planes. -/
theorem chunk8_mys :
    (Fn.chunk8 v6 v8 v10 a).mys i = a.mys i + ∑ d : Fin 8, ∑ h : Fin 127, ∑ w : Fin 128,
      min (v10 (ix5 (0 : Fin 1) (0 : Fin 1) d (up h) w)) (v10 (ix5 (0 : Fin 1) (0 : Fin 1) d (lo h) w)) := by
  unfold Fn.chunk8
  dsimp only
  rw [addf_apply, rsH_eq]
  refine congrArg _ (Finset.sum_congr rfl fun d _ => Finset.sum_congr rfl fun h _ => Finset.sum_congr rfl fun w _ => ?_)
  simp only [Fn.dH, Fn.dW, mulf_apply, subf_apply, minimumf_apply, broadcast_apply, c8_absf, c8_lo7, c8_up7, c8_loH, c8_upH, c8_loW, c8_upW, c8_cast]

/-- The height-difference sum of `|Δ(p·m)|·μ` advances by the 127 adjacent pairs of rows of each of the eight planes. -/
theorem chunk8_stvy :
    (Fn.chunk8 v6 v8 v10 a).stvy i = a.stvy i + ∑ d : Fin 8, ∑ h : Fin 127, ∑ w : Fin 128,
      aabs (v6 (ix5 (0 : Fin 1) (0 : Fin 1) d (up h) w) * v10 (ix5 (0 : Fin 1) (0 : Fin 1) d (up h) w) - v6 (ix5 (0 : Fin 1) (0 : Fin 1) d (lo h) w) * v10 (ix5 (0 : Fin 1) (0 : Fin 1) d (lo h) w))
        * min (v10 (ix5 (0 : Fin 1) (0 : Fin 1) d (up h) w)) (v10 (ix5 (0 : Fin 1) (0 : Fin 1) d (lo h) w)) := by
  unfold Fn.chunk8
  dsimp only
  rw [addf_apply, rsH_eq]
  refine congrArg _ (Finset.sum_congr rfl fun d _ => Finset.sum_congr rfl fun h _ => Finset.sum_congr rfl fun w _ => ?_)
  simp only [Fn.dH, Fn.dW, mulf_apply, subf_apply, minimumf_apply, broadcast_apply, c8_absf, c8_lo7, c8_up7, c8_loH, c8_upH, c8_loW, c8_upW, c8_cast]

/-- The width-difference sum of `|Δ(p·m) − Δ(t·m)|·μ` advances by the 127 adjacent pairs of columns of each of the eight planes. -/
theorem chunk8_sdz :
    (Fn.chunk8 v6 v8 v10 a).sdz i = a.sdz i + ∑ d : Fin 8, ∑ h : Fin 128, ∑ w : Fin 127,
      aabs ((v6 (ix5 (0 : Fin 1) (0 : Fin 1) d h (up w)) * v10 (ix5 (0 : Fin 1) (0 : Fin 1) d h (up w)) - v6 (ix5 (0 : Fin 1) (0 : Fin 1) d h (lo w)) * v10 (ix5 (0 : Fin 1) (0 : Fin 1) d h (lo w)))
          - (v8 (ix5 (0 : Fin 1) (0 : Fin 1) d h (up w)) * v10 (ix5 (0 : Fin 1) (0 : Fin 1) d h (up w)) - v8 (ix5 (0 : Fin 1) (0 : Fin 1) d h (lo w)) * v10 (ix5 (0 : Fin 1) (0 : Fin 1) d h (lo w))))
        * min (v10 (ix5 (0 : Fin 1) (0 : Fin 1) d h (up w))) (v10 (ix5 (0 : Fin 1) (0 : Fin 1) d h (lo w))) := by
  unfold Fn.chunk8
  dsimp only
  rw [addf_apply, rsW_eq]
  refine congrArg _ (Finset.sum_congr rfl fun d _ => Finset.sum_congr rfl fun h _ => Finset.sum_congr rfl fun w _ => ?_)
  simp only [Fn.dH, Fn.dW, mulf_apply, subf_apply, minimumf_apply, broadcast_apply, c8_absf, c8_lo7, c8_up7, c8_loH, c8_upH, c8_loW, c8_upW, c8_cast]

/-- The sum of `μ` along width advances by the 127 adjacent pairs of columns of each of the eight planes. -/
theorem chunk8_mzs :
    (Fn.chunk8 v6 v8 v10 a).mzs i = a.mzs i + ∑ d : Fin 8, ∑ h : Fin 128, ∑ w : Fin 127,
      min (v10 (ix5 (0 : Fin 1) (0 : Fin 1) d h (up w))) (v10 (ix5 (0 : Fin 1) (0 : Fin 1) d h (lo w))) := by
  unfold Fn.chunk8
  dsimp only
  rw [addf_apply, rsW_eq]
  refine congrArg _ (Finset.sum_congr rfl fun d _ => Finset.sum_congr rfl fun h _ => Finset.sum_congr rfl fun w _ => ?_)
  simp only [Fn.dH, Fn.dW, mulf_apply, subf_apply, minimumf_apply, broadcast_apply, c8_absf, c8_lo7, c8_up7, c8_loH, c8_upH, c8_loW, c8_upW, c8_cast]

/-- The width-difference sum of `|Δ(p·m)|·μ` advances by the 127 adjacent pairs of columns of each of the eight planes. -/
theorem chunk8_stvz :
    (Fn.chunk8 v6 v8 v10 a).stvz i = a.stvz i + ∑ d : Fin 8, ∑ h : Fin 128, ∑ w : Fin 127,
      aabs (v6 (ix5 (0 : Fin 1) (0 : Fin 1) d h (up w)) * v10 (ix5 (0 : Fin 1) (0 : Fin 1) d h (up w)) - v6 (ix5 (0 : Fin 1) (0 : Fin 1) d h (lo w)) * v10 (ix5 (0 : Fin 1) (0 : Fin 1) d h (lo w)))
        * min (v10 (ix5 (0 : Fin 1) (0 : Fin 1) d h (up w))) (v10 (ix5 (0 : Fin 1) (0 : Fin 1) d h (lo w))) := by
  unfold Fn.chunk8
  dsimp only
  rw [addf_apply, rsW_eq]
  refine congrArg _ (Finset.sum_congr rfl fun d _ => Finset.sum_congr rfl fun h _ => Finset.sum_congr rfl fun w _ => ?_)
  simp only [Fn.dH, Fn.dW, mulf_apply, subf_apply, minimumf_apply, broadcast_apply, c8_absf, c8_lo7, c8_up7, c8_loH, c8_upH, c8_loW, c8_upW, c8_cast]

end Chunk8

end Cert.KernelIdeal.PointVal

end
-- ==== Proof.KI.PointVal1c.lean ====
/-
  Shared steps of the per-point assembly: the running sums start at zero; the planes of a slab are planes of the staged
  volume; a sum over sixteen (fifteen) slabs written out term by term, from zero, in the order the walk adds them.
-/
import proofs.«161304_j43791486550161_2_alg».proof.Proof.KI.PointVal0

noncomputable section

open scoped BigOperators

namespace Cert.KernelIdeal.PointVal

open Cert.KernelIdeal Idealize.ShloMosaic Idealize.ShloMosaic.ValueIdx Cert.LibLossSums Cert.LossSpec

/-! ## Sums over the slabs, term by term -/

/-- A sum over sixteen slabs, from zero, in order. -/
theorem sum16 {M : Type*} [AddCommMonoid M] (T : Fin 16 → M) :
    ∑ s, T s = 0 + T 0 + T 1 + T 2 + T 3 + T 4 + T 5 + T 6 + T 7 + T 8 + T 9 + T 10 + T 11 + T 12 + T 13 + T 14 + T 15 := by
  simp only [Fin.sum_univ_castSucc, Fin.sum_univ_zero]
  rfl

/-- A sum over fifteen slabs, from zero, in order. -/
theorem sum15 {M : Type*} [AddCommMonoid M] (T : Fin 15 → M) :
    ∑ s, T s = 0 + T 0 + T 1 + T 2 + T 3 + T 4 + T 5 + T 6 + T 7 + T 8 + T 9 + T 10 + T 11 + T 12 + T 13 + T 14 := by
  simp only [Fin.sum_univ_castSucc, Fin.sum_univ_zero]
  rfl

variable [Cert.KernelIdeal.Facts]
open Cert.KernelIdeal.Facts₀ Cert.KernelIdeal.Facts

/-! ## The running sums start at zero -/

theorem zeroAcc_s1 (i : S1x1.Idx) : (Fn.zeroAcc (F := Ideal)).s1 i = 0 := Ideal.ofBits_zero_f32
theorem zeroAcc_m0 (i : S1x1.Idx) : (Fn.zeroAcc (F := Ideal)).m0 i = 0 := Ideal.ofBits_zero_f32
theorem zeroAcc_smse (i : S1x1.Idx) : (Fn.zeroAcc (F := Ideal)).smse i = 0 := Ideal.ofBits_zero_f32
theorem zeroAcc_sbg (i : S1x1.Idx) : (Fn.zeroAcc (F := Ideal)).sbg i = 0 := Ideal.ofBits_zero_f32
theorem zeroAcc_minv (i : S1x1.Idx) : (Fn.zeroAcc (F := Ideal)).minv i = 0 := Ideal.ofBits_zero_f32
theorem zeroAcc_sdx (i : S1x1.Idx) : (Fn.zeroAcc (F := Ideal)).sdx i = 0 := Ideal.ofBits_zero_f32
theorem zeroAcc_mxs (i : S1x1.Idx) : (Fn.zeroAcc (F := Ideal)).mxs i = 0 := Ideal.ofBits_zero_f32
theorem zeroAcc_stvx (i : S1x1.Idx) : (Fn.zeroAcc (F := Ideal)).stvx i = 0 := Ideal.ofBits_zero_f32
theorem zeroAcc_sdy (i : S1x1.Idx) : (Fn.zeroAcc (F := Ideal)).sdy i = 0 := Ideal.ofBits_zero_f32
theorem zeroAcc_mys (i : S1x1.Idx) : (Fn.zeroAcc (F := Ideal)).mys i = 0 := Ideal.ofBits_zero_f32
theorem zeroAcc_stvy (i : S1x1.Idx) : (Fn.zeroAcc (F := Ideal)).stvy i = 0 := Ideal.ofBits_zero_f32
theorem zeroAcc_sdz (i : S1x1.Idx) : (Fn.zeroAcc (F := Ideal)).sdz i = 0 := Ideal.ofBits_zero_f32
theorem zeroAcc_mzs (i : S1x1.Idx) : (Fn.zeroAcc (F := Ideal)).mzs i = 0 := Ideal.ofBits_zero_f32
theorem zeroAcc_stvz (i : S1x1.Idx) : (Fn.zeroAcc (F := Ideal)).stvz i = 0 := Ideal.ofBits_zero_f32

/-! ## A slab's planes are the volume's -/

section Slabs
variable {F : FTy → Type} [FloatOps F] (X : Vec F S1x1x128x128x128 .f32)

/-- In nine planes from plane `o` on, the lower member of the `d`-th adjacent pair is plane `o + d` of the volume … -/
theorem slab9_lo (o : Nat) (h : ∀ a, (![0, 0, o, 0, 0] : Fin 5 → Nat) a + S1x1x9x128x128.size a ≤ S1x1x128x128x128.size a)
    (d : Fin 8) (h' w' : Fin 128) :
    Fn.slab9 X o h (ix5 (0 : Fin 1) (0 : Fin 1) (lo9 d) h' w')
      = X (ix5 (0 : Fin 1) (0 : Fin 1) (⟨o + d.val, by have h2 : o + 9 ≤ 128 := h 2; omega⟩ : Fin 128) h' w') := by
  refine congrArg X (funext fun k => Fin.ext ?_)
  match k with
  | ⟨0, _⟩ => rfl
  | ⟨1, _⟩ => rfl
  | ⟨2, _⟩ => exact congrArg (o + ·) (Nat.one_mul d.val)
  | ⟨3, _⟩ => exact (Nat.zero_add _).trans (Nat.one_mul h'.val)
  | ⟨4, _⟩ => exact (Nat.zero_add _).trans (Nat.one_mul w'.val)

/-- … and the upper member is plane `o + d + 1`. -/
theorem slab9_up (o : Nat) (h : ∀ a, (![0, 0, o, 0, 0] : Fin 5 → Nat) a + S1x1x9x128x128.size a ≤ S1x1x128x128x128.size a)
    (d : Fin 8) (h' w' : Fin 128) :
    Fn.slab9 X o h (ix5 (0 : Fin 1) (0 : Fin 1) (up9 d) h' w')
      = X (ix5 (0 : Fin 1) (0 : Fin 1) (⟨o + d.val + 1, by have h2 : o + 9 ≤ 128 := h 2; omega⟩ : Fin 128) h' w') := by
  refine congrArg X (funext fun k => Fin.ext ?_)
  match k with
  | ⟨0, _⟩ => rfl
  | ⟨1, _⟩ => rfl
  | ⟨2, _⟩ => exact (congrArg (o + ·) (Nat.one_mul (d.val + 1))).trans (Nat.add_assoc o d.val 1).symm
  | ⟨3, _⟩ => exact (Nat.zero_add _).trans (Nat.one_mul h'.val)
  | ⟨4, _⟩ => exact (Nat.zero_add _).trans (Nat.one_mul w'.val)

/-- Plane `d` of the last eight is plane `120 + d` of the volume. -/
theorem slab8_at (d : Fin 8) (h' w' : Fin 128) :
    Fn.slab8 X (ix5 (0 : Fin 1) (0 : Fin 1) d h' w')
      = X (ix5 (0 : Fin 1) (0 : Fin 1) (⟨120 + d.val, by omega⟩ : Fin 128) h' w') := by
  refine congrArg X (funext fun k => Fin.ext ?_)
  match k with
  | ⟨0, _⟩ => rfl
  | ⟨1, _⟩ => rfl
  | ⟨2, _⟩ => exact congrArg (120 + ·) (Nat.one_mul d.val)
  | ⟨3, _⟩ => exact (Nat.zero_add _).trans (Nat.one_mul h'.val)
  | ⟨4, _⟩ => exact (Nat.zero_add _).trans (Nat.one_mul w'.val)

/-- In the last eight planes the lower member of the `d`-th adjacent pair is plane `120 + d` of the volume … -/
theorem slab8_lo (d : Fin 7) (h' w' : Fin 128) :
    Fn.slab8 X (ix5 (0 : Fin 1) (0 : Fin 1) (lo8 d) h' w')
      = X (ix5 (0 : Fin 1) (0 : Fin 1) (⟨120 + d.val, by omega⟩ : Fin 128) h' w') := by
  refine congrArg X (funext fun k => Fin.ext ?_)
  match k with
  | ⟨0, _⟩ => rfl
  | ⟨1, _⟩ => rfl
  | ⟨2, _⟩ => exact congrArg (120 + ·) (Nat.one_mul d.val)
  | ⟨3, _⟩ => exact (Nat.zero_add _).trans (Nat.one_mul h'.val)
  | ⟨4, _⟩ => exact (Nat.zero_add _).trans (Nat.one_mul w'.val)

/-- … and the upper member is plane `120 + d + 1`. -/
theorem slab8_up (d : Fin 7) (h' w' : Fin 128) :
    Fn.slab8 X (ix5 (0 : Fin 1) (0 : Fin 1) (up8 d) h' w')
      = X (ix5 (0 : Fin 1) (0 : Fin 1) (⟨120 + d.val + 1, by omega⟩ : Fin 128) h' w') := by
  refine congrArg X (funext fun k => Fin.ext ?_)
  match k with
  | ⟨0, _⟩ => rfl
  | ⟨1, _⟩ => rfl
  | ⟨2, _⟩ => exact (congrArg (120 + ·) (Nat.one_mul (d.val + 1))).trans (Nat.add_assoc 120 d.val 1).symm
  | ⟨3, _⟩ => exact (Nat.zero_add _).trans (Nat.one_mul h'.val)
  | ⟨4, _⟩ => exact (Nat.zero_add _).trans (Nat.one_mul w'.val)

end Slabs

end Cert.KernelIdeal.PointVal

end
-- ==== Proof.LibBlockSum.lean ====
/-
  Sums over an index range cut into equal blocks, and the running sum a blocked accumulation builds: general facts
  about finite sums in an additive commutative monoid, stated for Fin (a * b) against Fin a × Fin b.
-/
import Mathlib.Algebra.BigOperators.Fin
import Mathlib.Logic.Equiv.Fin.Basic
import Mathlib.Tactic.Ring
import Mathlib.Tactic.Linarith

namespace LibBlockSum

open Finset

/-- A sum over a * b indices is the sum over a blocks of the sums over the b indices of each block; index
    b·p + q is entry q of block p. -/
theorem sum_blocks {M : Type*} [AddCommMonoid M] (a b : ℕ) (f : Fin (a * b) → M) :
    ∑ j, f j = ∑ p : Fin a, ∑ q : Fin b, f ⟨b * p.val + q.val, by
      have hp := p.isLt; have hq := q.isLt
      calc b * p.val + q.val < b * p.val + b := by omega
        _ = b * (p.val + 1) := by ring
        _ ≤ b * a := Nat.mul_le_mul_left b hp
        _ = a * b := Nat.mul_comm b a⟩ := by
  rw [← Equiv.sum_comp (finProdFinEquiv : Fin a × Fin b ≃ Fin (a * b)) f, Fintype.sum_prod_type]
  refine sum_congr rfl fun p _ => sum_congr rfl fun q _ => congrArg f (Fin.ext ?_)
  simp only [finProdFinEquiv_apply_val]
  ring

/-- An accumulator that starts from its first term and adds one term per step holds, after step n, the sum of the
    terms up to n. -/
theorem acc_eq_sum {M : Type*} [AddCommMonoid M] (g : ℕ → M) (acc : ℕ → M) (h0 : acc 0 = g 0)
    (hs : ∀ n, acc (n + 1) = acc n + g (n + 1)) (n : ℕ) : acc n = ∑ k ∈ range (n + 1), g k := by
  induction n with
  | zero => simp [h0]
  | succ n ih => rw [hs, ih, sum_range_succ _ (n + 1)]

end LibBlockSum
-- ==== Proof.LibLossSums2.lean ====
/-
  Regrouping the sums a blocked walk over a volume forms, in an additive commutative monoid, and one fact about the
  extended reals.

  A depth axis of 128 planes is walked as 16 slabs of 8 planes (`sum_slabs16`); the 127 differences between neighbouring
  planes as 15 slabs of 8 and a last slab of 7 (`sum_slabs15_7`); a 2 × 3 grid of (batch, channel) points as six points
  in row-major order (`sum_grid6`); a running accumulator holds its start plus the terms added so far
  (`acc_eq_add_sum`). On the extended reals a finite sum times a natural number is the sum with each term counted that
  many times, with no finiteness assumed of the terms (`sum_mul_natCast`, `sum_mul_three`).
-/
import Mathlib.Algebra.BigOperators.Fin
import Mathlib.Data.EReal.Operations
import Mathlib.Tactic.Ring
import Mathlib.Tactic.Abel
import Mathlib.Tactic.NormNum
import proofs.«161304_j43791486550161_2_alg».proof.Proof.LibBlockSum

open scoped BigOperators

namespace Cert.LibLossSums

open Finset

/-! ## The depth axis cut into slabs -/

/-- 128 planes walked as 16 slabs of 8: plane `8 s + a` is plane `a` of slab `s`, and the sums over the slabs add up
    to the sum over all planes. -/
theorem sum_slabs16 {M : Type*} [AddCommMonoid M] (f : Fin 128 → M) :
    ∑ s : Fin 16, ∑ a : Fin 8, f ⟨8 * s.val + a.val, by have := s.isLt; have := a.isLt; omega⟩ = ∑ d : Fin 128, f d :=
  (LibBlockSum.sum_blocks 16 8 f).symm

/-- The same for a function of the plane's number. -/
theorem sum_slabs16_nat {M : Type*} [AddCommMonoid M] (g : ℕ → M) :
    ∑ s : Fin 16, ∑ a : Fin 8, g (8 * s.val + a.val) = ∑ d : Fin 128, g d.val :=
  sum_slabs16 fun d => g d.val

/-- The 127 differences between neighbouring planes walked as 15 slabs of 8 and a last slab of 7: difference `8 s + a`
    belongs to slab `s`, differences `120 + a` to the last slab. -/
theorem sum_slabs15_7 {M : Type*} [AddCommMonoid M] (f : Fin 127 → M) :
    (∑ s : Fin 15, ∑ a : Fin 8, f ⟨8 * s.val + a.val, by have := s.isLt; have := a.isLt; omega⟩)
        + ∑ a : Fin 7, f ⟨120 + a.val, by have := a.isLt; omega⟩
      = ∑ d : Fin 127, f d := by
  have h := Fin.sum_univ_add (M := M) (a := 120) (b := 7) f
  have hb := LibBlockSum.sum_blocks 15 8 fun i : Fin 120 => f (Fin.castAdd 7 i)
  rw [h, hb]
  rfl

/-- The same for a function of the difference's number. -/
theorem sum_slabs15_7_nat {M : Type*} [AddCommMonoid M] (g : ℕ → M) :
    (∑ s : Fin 15, ∑ a : Fin 8, g (8 * s.val + a.val)) + ∑ a : Fin 7, g (120 + a.val) = ∑ d : Fin 127, g d.val :=
  sum_slabs15_7 fun d => g d.val

/-! ## The grid of (batch, channel) points -/

/-- Six points walked in row-major order over a 2 × 3 grid: point `t` is batch `t / 3`, channel `t % 3`, and the sum over
    the points is the double sum over batches and channels. -/
theorem sum_grid6_nat {M : Type*} [AddCommMonoid M] (g : ℕ → ℕ → M) :
    ∑ t : Fin 6, g (t.val / 3) (t.val % 3) = ∑ b : Fin 2, ∑ c : Fin 3, g b.val c.val := by
  rw [Fin.sum_univ_six, Fin.sum_univ_two, Fin.sum_univ_three, Fin.sum_univ_three]
  show g 0 0 + g 0 1 + g 0 2 + g 1 0 + g 1 1 + g 1 2 = g 0 0 + g 0 1 + g 0 2 + (g 1 0 + g 1 1 + g 1 2)
  abel

/-- The same for a function of the two coordinates as elements of `Fin 2` and `Fin 3`. -/
theorem sum_grid6 {M : Type*} [AddCommMonoid M] (g : Fin 2 → Fin 3 → M) :
    ∑ t : Fin 6, g ⟨t.val / 3, by have := t.isLt; omega⟩ ⟨t.val % 3, Nat.mod_lt _ (by decide)⟩ = ∑ b : Fin 2, ∑ c : Fin 3, g b c := by
  rw [Fin.sum_univ_six, Fin.sum_univ_two, Fin.sum_univ_three, Fin.sum_univ_three]
  show g 0 0 + g 0 1 + g 0 2 + g 1 0 + g 1 1 + g 1 2 = g 0 0 + g 0 1 + g 0 2 + (g 1 0 + g 1 1 + g 1 2)
  abel

/-! ## A running accumulator -/

/-- An accumulator that starts at `z` and adds `r k` at step `k`, for the first `N` steps, holds after `n ≤ N` steps `z`
    plus the sum of the first `n` terms. -/
theorem acc_eq_add_sum {M : Type*} [AddCommMonoid M] (z : M) (r acc : ℕ → M) (N : ℕ) (h0 : acc 0 = z)
    (hs : ∀ k, k < N → acc (k + 1) = acc k + r k) (n : ℕ) (hn : n ≤ N) : acc n = z + ∑ s : Fin n, r s.val := by
  induction n with
  | zero => simp [h0]
  | succ n ih =>
    rw [hs n (by omega), ih (by omega), Fin.sum_univ_castSucc, add_assoc]
    rfl

/-- The same with every step given: after `n` steps the accumulator is `z + ∑ s < n, r s`. -/
theorem acc_eq_add_sum' {M : Type*} [AddCommMonoid M] (z : M) (r acc : ℕ → M) (h0 : acc 0 = z)
    (hs : ∀ k, acc (k + 1) = acc k + r k) (n : ℕ) : acc n = z + ∑ s : Fin n, r s.val :=
  acc_eq_add_sum z r acc n h0 (fun k _ => hs k) n le_rfl

/-! ## A channel-independent term counted once per channel -/

/-- On the extended reals, `y` times the natural number `n` is `y` added `n` times — at the infinities too, since all
    the summands have one sign. -/
theorem mul_natCast (y : EReal) (n : ℕ) : y * ((n : ℝ) : EReal) = ∑ _c : Fin n, y := by
  induction n with
  | zero => simp
  | succ n ih =>
    rw [Fin.sum_univ_castSucc, ← ih, Nat.cast_succ, EReal.coe_add, EReal.coe_one,
      EReal.left_distrib_of_nonneg (EReal.coe_nonneg.mpr (Nat.cast_nonneg n)) zero_le_one, mul_one]

/-- A finite sum of extended reals times the natural number `n` is the sum with every term counted `n` times: the
    factor is finite and non-negative, so it distributes whatever the terms are. -/
theorem sum_mul_natCast {ι : Type*} (s : Finset ι) (y : ι → EReal) (n : ℕ) :
    (∑ b ∈ s, y b) * ((n : ℝ) : EReal) = ∑ b ∈ s, ∑ _c : Fin n, y b := by
  classical
  refine Finset.induction_on s (by simp) fun a s ha ih => ?_
  rw [Finset.sum_insert ha, Finset.sum_insert ha,
    EReal.right_distrib_of_nonneg_of_ne_top (EReal.coe_nonneg.mpr (Nat.cast_nonneg n)) (EReal.coe_ne_top _), ih, mul_natCast]

/-- Two batches, three channels: `(y 0 + y 1) · 3` is the sum over the 2 × 3 grid of the term that does not depend on
    the channel. No finiteness of `y` is assumed. -/
theorem sum_mul_three (y : Fin 2 → EReal) :
    (∑ b, y b) * ((3 : ℝ) : EReal) = ∑ b : Fin 2, ∑ _c : Fin 3, y b := by
  have h := sum_mul_natCast Finset.univ y 3
  rwa [Nat.cast_ofNat] at h

/-- The same with the factor written as the numeral `3` of the extended reals. -/
theorem sum_mul_three' (y : Fin 2 → EReal) : (∑ b, y b) * (3 : EReal) = ∑ b : Fin 2, ∑ _c : Fin 3, y b := by
  rw [← sum_mul_three y]
  rfl

end Cert.LibLossSums
-- ==== Proof.KI.PointVal2.lean ====
/-
  Seven of the fourteen sums of one grid point, as block sums of the specification.

  A grid point walks the depth axis in fifteen slabs of nine planes from planes 0, 8, …, 112 and a last slab of the
  eight planes from 120 on, starting from all sums at zero. Each slab adds to a running sum the triple sum of that
  sum's term over its first eight planes (its eight, or in the last slab seven, adjacent pairs of planes for the
  depth differences), at the volume's planes o + d. Sixteen slabs of eight planes are the 128 planes; fifteen slabs
  of eight pairs and one of seven are the 127 adjacent pairs. So the point's sum is the block sum over the whole
  [128,128,128] block: here for the five plain sums and two of the depth-difference sums.
-/
import proofs.«161304_j43791486550161_2_alg».proof.Proof.KI.PointVal1
import proofs.«161304_j43791486550161_2_alg».proof.Proof.KI.PointVal1b
import proofs.«161304_j43791486550161_2_alg».proof.Proof.KI.PointVal1c
import proofs.«161304_j43791486550161_2_alg».proof.Proof.LibLossSums2

noncomputable section

open scoped BigOperators

namespace Cert.KernelIdeal.PointVal

open Cert.KernelIdeal Idealize.ShloMosaic Idealize.ShloMosaic.ValueIdx Cert.LibLossSums Cert.LossSpec

variable [Cert.KernelIdeal.Facts]
open Cert.KernelIdeal.Facts₀ Cert.KernelIdeal.Facts

/-- The index (0, 0, d, h, w) of a staged volume. -/
local notation "𝕚" => ix5 (0 : Fin 1) (0 : Fin 1)

/-! ## The five plain sums: sixteen slabs of eight planes -/

theorem s1_eq (x0 x1 x2 : Vec Ideal S1x1x128x128x128 .f32) (i : S1x1.Idx) :
    (Fn.pointAcc (F := Ideal) x0 x1 x2).s1 i
      = Cert.BlockSpec.s1 (fun d h w => x0 (𝕚 d h w)) (fun d h w => x1 (𝕚 d h w)) (fun d h w => x2 (𝕚 d h w)) := by
  unfold Fn.pointAcc
  dsimp only
  simp only [chunk8_s1, chunk9_s1, zeroAcc_s1, slab9_lo x0, slab9_lo x1, slab9_lo x2, slab8_at x0, slab8_at x1, slab8_at x2]
  refine Eq.trans ?_ (sum_slabs16 fun D : Fin 128 => ∑ h : Fin 128, ∑ w : Fin 128,
    aabs ((x0 (𝕚 D h w) : EReal) * (x2 (𝕚 D h w) : EReal) - (x1 (𝕚 D h w) : EReal) * (x2 (𝕚 D h w) : EReal)) * (x2 (𝕚 D h w) : EReal))
  rw [sum16]
  rfl

theorem m0_eq (x0 x1 x2 : Vec Ideal S1x1x128x128x128 .f32) (i : S1x1.Idx) :
    (Fn.pointAcc (F := Ideal) x0 x1 x2).m0 i
      = Cert.BlockSpec.m0 (fun d h w => x2 (𝕚 d h w)) := by
  unfold Fn.pointAcc
  dsimp only
  simp only [chunk8_m0, chunk9_m0, zeroAcc_m0, slab9_lo x2, slab8_at x2]
  refine Eq.trans ?_ (sum_slabs16 fun D : Fin 128 => ∑ h : Fin 128, ∑ w : Fin 128, (x2 (𝕚 D h w) : EReal))
  rw [sum16]
  rfl

theorem smse_eq (x0 x1 x2 : Vec Ideal S1x1x128x128x128 .f32) (i : S1x1.Idx) :
    (Fn.pointAcc (F := Ideal) x0 x1 x2).smse i
      = Cert.BlockSpec.smse (fun d h w => x0 (𝕚 d h w)) (fun d h w => x1 (𝕚 d h w)) (fun d h w => x2 (𝕚 d h w)) := by
  unfold Fn.pointAcc
  dsimp only
  simp only [chunk8_smse, chunk9_smse, zeroAcc_smse, slab9_lo x0, slab9_lo x1, slab9_lo x2, slab8_at x0, slab8_at x1, slab8_at x2]
  refine Eq.trans ?_ (sum_slabs16 fun D : Fin 128 => ∑ h : Fin 128, ∑ w : Fin 128,
    (((x0 (𝕚 D h w) : EReal) * (x2 (𝕚 D h w) : EReal) - (x1 (𝕚 D h w) : EReal) * (x2 (𝕚 D h w) : EReal))
      * ((x0 (𝕚 D h w) : EReal) * (x2 (𝕚 D h w) : EReal) - (x1 (𝕚 D h w) : EReal) * (x2 (𝕚 D h w) : EReal)))
      * (x2 (𝕚 D h w) : EReal))
  rw [sum16]
  rfl

theorem sbg_eq (x0 x1 x2 : Vec Ideal S1x1x128x128x128 .f32) (i : S1x1.Idx) :
    (Fn.pointAcc (F := Ideal) x0 x1 x2).sbg i
      = Cert.BlockSpec.sbg (fun d h w => x0 (𝕚 d h w)) (fun d h w => x2 (𝕚 d h w)) := by
  unfold Fn.pointAcc
  dsimp only
  simp only [chunk8_sbg, chunk9_sbg, zeroAcc_sbg, slab9_lo x0, slab9_lo x2, slab8_at x0, slab8_at x2]
  refine Eq.trans ?_ (sum_slabs16 fun D : Fin 128 => ∑ h : Fin 128, ∑ w : Fin 128,
    aabs (x0 (𝕚 D h w) : EReal) * (one - (x2 (𝕚 D h w) : EReal)))
  rw [sum16]
  rfl

theorem minv_eq (x0 x1 x2 : Vec Ideal S1x1x128x128x128 .f32) (i : S1x1.Idx) :
    (Fn.pointAcc (F := Ideal) x0 x1 x2).minv i
      = Cert.BlockSpec.minv (fun d h w => x2 (𝕚 d h w)) := by
  unfold Fn.pointAcc
  dsimp only
  simp only [chunk8_minv, chunk9_minv, zeroAcc_minv, slab9_lo x2, slab8_at x2]
  refine Eq.trans ?_ (sum_slabs16 fun D : Fin 128 => ∑ h : Fin 128, ∑ w : Fin 128, (one - (x2 (𝕚 D h w) : EReal)))
  rw [sum16]
  rfl

/-! ## Two of the depth-difference sums: fifteen slabs of eight adjacent pairs and a last slab of seven -/

theorem sdx_eq (x0 x1 x2 : Vec Ideal S1x1x128x128x128 .f32) (i : S1x1.Idx) :
    (Fn.pointAcc (F := Ideal) x0 x1 x2).sdx i
      = Cert.BlockSpec.sdx (fun d h w => x0 (𝕚 d h w)) (fun d h w => x1 (𝕚 d h w)) (fun d h w => x2 (𝕚 d h w)) := by
  unfold Fn.pointAcc
  dsimp only
  simp only [chunk8_sdx, chunk9_sdx, zeroAcc_sdx, slab9_lo x0, slab9_lo x1, slab9_lo x2, slab9_up x0, slab9_up x1, slab9_up x2,
    slab8_lo x0, slab8_lo x1, slab8_lo x2, slab8_up x0, slab8_up x1, slab8_up x2]
  refine Eq.trans ?_ (sum_slabs15_7 fun D : Fin 127 => ∑ h : Fin 128, ∑ w : Fin 128,
    aabs (((x0 (𝕚 (up D) h w) : EReal) * (x2 (𝕚 (up D) h w) : EReal) - (x0 (𝕚 (lo D) h w) : EReal) * (x2 (𝕚 (lo D) h w) : EReal))
        - ((x1 (𝕚 (up D) h w) : EReal) * (x2 (𝕚 (up D) h w) : EReal) - (x1 (𝕚 (lo D) h w) : EReal) * (x2 (𝕚 (lo D) h w) : EReal)))
      * min (x2 (𝕚 (up D) h w) : EReal) (x2 (𝕚 (lo D) h w) : EReal))
  rw [sum15]
  rfl

theorem mxs_eq (x0 x1 x2 : Vec Ideal S1x1x128x128x128 .f32) (i : S1x1.Idx) :
    (Fn.pointAcc (F := Ideal) x0 x1 x2).mxs i
      = Cert.BlockSpec.mxs (fun d h w => x2 (𝕚 d h w)) := by
  unfold Fn.pointAcc
  dsimp only
  simp only [chunk8_mxs, chunk9_mxs, zeroAcc_mxs, slab9_lo x2, slab9_up x2, slab8_lo x2, slab8_up x2]
  refine Eq.trans ?_ (sum_slabs15_7 fun D : Fin 127 => ∑ h : Fin 128, ∑ w : Fin 128,
    min (x2 (𝕚 (up D) h w) : EReal) (x2 (𝕚 (lo D) h w) : EReal))
  rw [sum15]
  rfl

end Cert.KernelIdeal.PointVal

end
-- ==== Proof.KI.PointVal2b.lean ====
/-
  The fourteen sums of one grid point, assembled: seven of them (the depth-difference sum of `|Δ(p·m)|·μ` and the six
  height and width sums) as the sums over the whole `[128, 128, 128]` block.

  The walk starts every running sum at zero, adds the contribution of fifteen nine-plane slabs from planes 0, 8, …, 112
  and of the last eight planes. Planes `8 s + a` (`a < 8`, `s < 16`) are all 128 planes once, and adjacent pairs
  `8 s + a` (`s < 15`) with the seven pairs inside the last slab are all 127 pairs once.
-/
import proofs.«161304_j43791486550161_2_alg».proof.Proof.KI.PointVal1
import proofs.«161304_j43791486550161_2_alg».proof.Proof.KI.PointVal1b
import proofs.«161304_j43791486550161_2_alg».proof.Proof.KI.PointVal1c
import proofs.«161304_j43791486550161_2_alg».proof.Proof.LibLossSums2

noncomputable section

open scoped BigOperators

namespace Cert.KernelIdeal.PointVal

open Cert.KernelIdeal Idealize.ShloMosaic Idealize.ShloMosaic.ValueIdx Cert.LibLossSums Cert.LossSpec

variable [Cert.KernelIdeal.Facts]
open Cert.KernelIdeal.Facts₀ Cert.KernelIdeal.Facts

section Point
variable (x0 x1 x2 : Vec Ideal S1x1x128x128x128 .f32) (i : S1x1.Idx)

/-- The index (0, 0, d, h, w) of a staged volume. -/
local notation "𝕚" => ix5 (0 : Fin 1) (0 : Fin 1)

/-- The depth-difference sum of `|Δ(p·m)|·μ` of a grid point is the block's: the 120 adjacent pairs of planes whose lower member lies in one of the fifteen nine-plane slabs, and the seven pairs inside the last slab. -/
theorem stvx_eq :
    (Fn.pointAcc (F := Ideal) x0 x1 x2).stvx i = Cert.BlockSpec.stvx (fun d h w => x0 (𝕚 d h w)) (fun d h w => x2 (𝕚 d h w)) := by
  unfold Fn.pointAcc
  dsimp only
  simp only [chunk8_stvx, chunk9_stvx, zeroAcc_stvx, slab9_lo x0, slab9_up x0, slab8_lo x0, slab8_up x0, slab9_lo x2, slab9_up x2, slab8_lo x2, slab8_up x2]
  refine Eq.trans ?_ (sum_slabs15_7 fun D : Fin 127 => ∑ h : Fin 128, ∑ w : Fin 128,
    aabs ((x0 (𝕚 (up D) h w) * x2 (𝕚 (up D) h w) : EReal) - x0 (𝕚 (lo D) h w) * x2 (𝕚 (lo D) h w))
      * min (x2 (𝕚 (up D) h w)) (x2 (𝕚 (lo D) h w)))
  rw [sum15]
  rfl

/-- The height-difference sum of `|Δ(p·m) − Δ(t·m)|·μ` of a grid point is the block's: sixteen slabs of eight planes are the 128 planes. -/
theorem sdy_eq :
    (Fn.pointAcc (F := Ideal) x0 x1 x2).sdy i = Cert.BlockSpec.sdy (fun d h w => x0 (𝕚 d h w)) (fun d h w => x1 (𝕚 d h w)) (fun d h w => x2 (𝕚 d h w)) := by
  unfold Fn.pointAcc
  dsimp only
  simp only [chunk8_sdy, chunk9_sdy, zeroAcc_sdy, slab9_lo x0, slab8_at x0, slab9_lo x1, slab8_at x1, slab9_lo x2, slab8_at x2]
  refine Eq.trans ?_ (sum_slabs16 fun D : Fin 128 => ∑ h : Fin 127, ∑ w : Fin 128,
    aabs (((x0 (𝕚 D (up h) w) * x2 (𝕚 D (up h) w) : EReal) - x0 (𝕚 D (lo h) w) * x2 (𝕚 D (lo h) w))
        - (x1 (𝕚 D (up h) w) * x2 (𝕚 D (up h) w) - x1 (𝕚 D (lo h) w) * x2 (𝕚 D (lo h) w)))
      * min (x2 (𝕚 D (up h) w)) (x2 (𝕚 D (lo h) w)))
  rw [sum16]
  rfl

/-- The sum of `μ` along height of a grid point is the block's. -/
theorem mys_eq :
    (Fn.pointAcc (F := Ideal) x0 x1 x2).mys i = Cert.BlockSpec.mys (fun d h w => x2 (𝕚 d h w)) := by
  unfold Fn.pointAcc
  dsimp only
  simp only [chunk8_mys, chunk9_mys, zeroAcc_mys, slab9_lo x2, slab8_at x2]
  refine Eq.trans ?_ (sum_slabs16 fun D : Fin 128 => ∑ h : Fin 127, ∑ w : Fin 128,
    min (x2 (𝕚 D (up h) w) : EReal) (x2 (𝕚 D (lo h) w)))
  rw [sum16]
  rfl

/-- The height-difference sum of `|Δ(p·m)|·μ` of a grid point is the block's. -/
theorem stvy_eq :
    (Fn.pointAcc (F := Ideal) x0 x1 x2).stvy i = Cert.BlockSpec.stvy (fun d h w => x0 (𝕚 d h w)) (fun d h w => x2 (𝕚 d h w)) := by
  unfold Fn.pointAcc
  dsimp only
  simp only [chunk8_stvy, chunk9_stvy, zeroAcc_stvy, slab9_lo x0, slab8_at x0, slab9_lo x2, slab8_at x2]
  refine Eq.trans ?_ (sum_slabs16 fun D : Fin 128 => ∑ h : Fin 127, ∑ w : Fin 128,
    aabs ((x0 (𝕚 D (up h) w) * x2 (𝕚 D (up h) w) : EReal) - x0 (𝕚 D (lo h) w) * x2 (𝕚 D (lo h) w))
      * min (x2 (𝕚 D (up h) w)) (x2 (𝕚 D (lo h) w)))
  rw [sum16]
  rfl

/-- The width-difference sum of `|Δ(p·m) − Δ(t·m)|·μ` of a grid point is the block's. -/
theorem sdz_eq :
    (Fn.pointAcc (F := Ideal) x0 x1 x2).sdz i = Cert.BlockSpec.sdz (fun d h w => x0 (𝕚 d h w)) (fun d h w => x1 (𝕚 d h w)) (fun d h w => x2 (𝕚 d h w)) := by
  unfold Fn.pointAcc
  dsimp only
  simp only [chunk8_sdz, chunk9_sdz, zeroAcc_sdz, slab9_lo x0, slab8_at x0, slab9_lo x1, slab8_at x1, slab9_lo x2, slab8_at x2]
  refine Eq.trans ?_ (sum_slabs16 fun D : Fin 128 => ∑ h : Fin 128, ∑ w : Fin 127,
    aabs (((x0 (𝕚 D h (up w)) * x2 (𝕚 D h (up w)) : EReal) - x0 (𝕚 D h (lo w)) * x2 (𝕚 D h (lo w)))
        - (x1 (𝕚 D h (up w)) * x2 (𝕚 D h (up w)) - x1 (𝕚 D h (lo w)) * x2 (𝕚 D h (lo w))))
      * min (x2 (𝕚 D h (up w))) (x2 (𝕚 D h (lo w))))
  rw [sum16]
  rfl

/-- The sum of `μ` along width of a grid point is the block's. -/
theorem mzs_eq :
    (Fn.pointAcc (F := Ideal) x0 x1 x2).mzs i = Cert.BlockSpec.mzs (fun d h w => x2 (𝕚 d h w)) := by
  unfold Fn.pointAcc
  dsimp only
  simp only [chunk8_mzs, chunk9_mzs, zeroAcc_mzs, slab9_lo x2, slab8_at x2]
  refine Eq.trans ?_ (sum_slabs16 fun D : Fin 128 => ∑ h : Fin 128, ∑ w : Fin 127,
    min (x2 (𝕚 D h (up w)) : EReal) (x2 (𝕚 D h (lo w))))
  rw [sum16]
  rfl

/-- The width-difference sum of `|Δ(p·m)|·μ` of a grid point is the block's. -/
theorem stvz_eq :
    (Fn.pointAcc (F := Ideal) x0 x1 x2).stvz i = Cert.BlockSpec.stvz (fun d h w => x0 (𝕚 d h w)) (fun d h w => x2 (𝕚 d h w)) := by
  unfold Fn.pointAcc
  dsimp only
  simp only [chunk8_stvz, chunk9_stvz, zeroAcc_stvz, slab9_lo x0, slab8_at x0, slab9_lo x2, slab8_at x2]
  refine Eq.trans ?_ (sum_slabs16 fun D : Fin 128 => ∑ h : Fin 128, ∑ w : Fin 127,
    aabs ((x0 (𝕚 D h (up w)) * x2 (𝕚 D h (up w)) : EReal) - x0 (𝕚 D h (lo w)) * x2 (𝕚 D h (lo w)))
      * min (x2 (𝕚 D h (up w))) (x2 (𝕚 D h (lo w))))
  rw [sum16]
  rfl

end Point

end Cert.KernelIdeal.PointVal

end
-- ==== Proof.GridSums.lean ====
/-
  The whole-array sums from the six grid points.

  The walk visits the 2 × 3 grid of (batch, channel) points in row-major order: point `t` is batch `t / 3`, channel
  `t % 3`. Each of the fourteen whole-array sums is the sum over batch and channel of the block's sum, so it is the sum
  of the block sums over the six points; a mask-only sum sees the same mask block at the three channel points of a
  batch entry, which is the whole-array sum's count of every mask value three times.
-/
import proofs.«161304_j43791486550161_2_alg».proof.Proof.BlockSpec
import proofs.«161304_j43791486550161_2_alg».proof.Proof.LibLossSums2

noncomputable section

open scoped BigOperators

namespace Cert.LossSpec

open Idealize.ShloMosaic Idealize.ShloMosaic.ValueIdx Cert.LibLossSums

section Grid
variable (P T : SV.Idx → EReal) (M : SM.Idx → EReal)
  (hb : ∀ t : Fin 6, t.val / 3 < 2) (hc : ∀ t : Fin 6, t.val % 3 < 3)

/-- The block sums of `|p·m − t·m|·m` at the six grid points add up to the whole-array sum. -/
theorem grid_s1 :
    ∑ t : Fin 6, Cert.BlockSpec.s1 (vblk P ⟨t.val / 3, hb t⟩ ⟨t.val % 3, hc t⟩) (vblk T ⟨t.val / 3, hb t⟩ ⟨t.val % 3, hc t⟩) (mblk M ⟨t.val / 3, hb t⟩) = s1 P T M :=
  (sum_grid6 fun b c => Cert.BlockSpec.s1 (vblk P b c) (vblk T b c) (mblk M b)).trans (s1_blocks P T M).symm

/-- The block sums of the mask (each batch entry's block counted at its three channel points) at the six grid points add up to the whole-array sum. -/
theorem grid_m0 :
    ∑ t : Fin 6, Cert.BlockSpec.m0 (mblk M ⟨t.val / 3, hb t⟩) = m0 M :=
  (sum_grid6 fun b c => Cert.BlockSpec.m0 (mblk M b)).trans (m0_blocks M).symm

/-- The block sums of `(p·m − t·m)²·m` at the six grid points add up to the whole-array sum. -/
theorem grid_smse :
    ∑ t : Fin 6, Cert.BlockSpec.smse (vblk P ⟨t.val / 3, hb t⟩ ⟨t.val % 3, hc t⟩) (vblk T ⟨t.val / 3, hb t⟩ ⟨t.val % 3, hc t⟩) (mblk M ⟨t.val / 3, hb t⟩) = smse P T M :=
  (sum_grid6 fun b c => Cert.BlockSpec.smse (vblk P b c) (vblk T b c) (mblk M b)).trans (smse_blocks P T M).symm

/-- The block sums of `|p|·(1 − m)` at the six grid points add up to the whole-array sum. -/
theorem grid_sbg :
    ∑ t : Fin 6, Cert.BlockSpec.sbg (vblk P ⟨t.val / 3, hb t⟩ ⟨t.val % 3, hc t⟩) (mblk M ⟨t.val / 3, hb t⟩) = sbg P M :=
  (sum_grid6 fun b c => Cert.BlockSpec.sbg (vblk P b c) (mblk M b)).trans (sbg_blocks P M).symm

/-- The block sums of `1 − m` (counted at the three channel points) at the six grid points add up to the whole-array sum. -/
theorem grid_minv :
    ∑ t : Fin 6, Cert.BlockSpec.minv (mblk M ⟨t.val / 3, hb t⟩) = minv M :=
  (sum_grid6 fun b c => Cert.BlockSpec.minv (mblk M b)).trans (minv_blocks M).symm

/-- The block sums of `|Δ(p·m) − Δ(t·m)|·μ` along depth at the six grid points add up to the whole-array sum. -/
theorem grid_sdx :
    ∑ t : Fin 6, Cert.BlockSpec.sdx (vblk P ⟨t.val / 3, hb t⟩ ⟨t.val % 3, hc t⟩) (vblk T ⟨t.val / 3, hb t⟩ ⟨t.val % 3, hc t⟩) (mblk M ⟨t.val / 3, hb t⟩) = sdx P T M :=
  (sum_grid6 fun b c => Cert.BlockSpec.sdx (vblk P b c) (vblk T b c) (mblk M b)).trans (sdx_blocks P T M).symm

/-- The block sums of `μ` along depth (counted at the three channel points) at the six grid points add up to the whole-array sum. -/
theorem grid_mxs :
    ∑ t : Fin 6, Cert.BlockSpec.mxs (mblk M ⟨t.val / 3, hb t⟩) = mxs M :=
  (sum_grid6 fun b c => Cert.BlockSpec.mxs (mblk M b)).trans (mxs_blocks M).symm

/-- The block sums of `|Δ(p·m)|·μ` along depth at the six grid points add up to the whole-array sum. -/
theorem grid_stvx :
    ∑ t : Fin 6, Cert.BlockSpec.stvx (vblk P ⟨t.val / 3, hb t⟩ ⟨t.val % 3, hc t⟩) (mblk M ⟨t.val / 3, hb t⟩) = stvx P M :=
  (sum_grid6 fun b c => Cert.BlockSpec.stvx (vblk P b c) (mblk M b)).trans (stvx_blocks P M).symm

/-- The block sums of `|Δ(p·m) − Δ(t·m)|·μ` along height at the six grid points add up to the whole-array sum. -/
theorem grid_sdy :
    ∑ t : Fin 6, Cert.BlockSpec.sdy (vblk P ⟨t.val / 3, hb t⟩ ⟨t.val % 3, hc t⟩) (vblk T ⟨t.val / 3, hb t⟩ ⟨t.val % 3, hc t⟩) (mblk M ⟨t.val / 3, hb t⟩) = sdy P T M :=
  (sum_grid6 fun b c => Cert.BlockSpec.sdy (vblk P b c) (vblk T b c) (mblk M b)).trans (sdy_blocks P T M).symm

/-- The block sums of `μ` along height (counted at the three channel points) at the six grid points add up to the whole-array sum. -/
theorem grid_mys :
    ∑ t : Fin 6, Cert.BlockSpec.mys (mblk M ⟨t.val / 3, hb t⟩) = mys M :=
  (sum_grid6 fun b c => Cert.BlockSpec.mys (mblk M b)).trans (mys_blocks M).symm

/-- The block sums of `|Δ(p·m)|·μ` along height at the six grid points add up to the whole-array sum. -/
theorem grid_stvy :
    ∑ t : Fin 6, Cert.BlockSpec.stvy (vblk P ⟨t.val / 3, hb t⟩ ⟨t.val % 3, hc t⟩) (mblk M ⟨t.val / 3, hb t⟩) = stvy P M :=
  (sum_grid6 fun b c => Cert.BlockSpec.stvy (vblk P b c) (mblk M b)).trans (stvy_blocks P M).symm

/-- The block sums of `|Δ(p·m) − Δ(t·m)|·μ` along width at the six grid points add up to the whole-array sum. -/
theorem grid_sdz :
    ∑ t : Fin 6, Cert.BlockSpec.sdz (vblk P ⟨t.val / 3, hb t⟩ ⟨t.val % 3, hc t⟩) (vblk T ⟨t.val / 3, hb t⟩ ⟨t.val % 3, hc t⟩) (mblk M ⟨t.val / 3, hb t⟩) = sdz P T M :=
  (sum_grid6 fun b c => Cert.BlockSpec.sdz (vblk P b c) (vblk T b c) (mblk M b)).trans (sdz_blocks P T M).symm

/-- The block sums of `μ` along width (counted at the three channel points) at the six grid points add up to the whole-array sum. -/
theorem grid_mzs :
    ∑ t : Fin 6, Cert.BlockSpec.mzs (mblk M ⟨t.val / 3, hb t⟩) = mzs M :=
  (sum_grid6 fun b c => Cert.BlockSpec.mzs (mblk M b)).trans (mzs_blocks M).symm

/-- The block sums of `|Δ(p·m)|·μ` along width at the six grid points add up to the whole-array sum. -/
theorem grid_stvz :
    ∑ t : Fin 6, Cert.BlockSpec.stvz (vblk P ⟨t.val / 3, hb t⟩ ⟨t.val % 3, hc t⟩) (mblk M ⟨t.val / 3, hb t⟩) = stvz P M :=
  (sum_grid6 fun b c => Cert.BlockSpec.stvz (vblk P b c) (mblk M b)).trans (stvz_blocks P M).symm

end Grid

end Cert.LossSpec

end
-- ==== Proof.KI.Value.lean ====
/-
  The kernel's value over the extended reals. Lane k of the row after position n is the sum, over the points up to n,
  of the point's k-th block sum (by induction on the position); the point at position t holds the (t / 3, t mod 3)
  blocks of pred and target and the (t / 3) block of mask, so its block sums are the specification's block sums there;
  and the six points are the two batches times the three channels. Hence each lane of the final row is the
  specification's whole-array sum, and the later lines turn the fourteen lanes into the loss.
-/
import proofs.«161304_j43791486550161_2_alg».proof.Proof.KI.Fold
import proofs.«161304_j43791486550161_2_alg».proof.Proof.KI.TailIdeal
import proofs.«161304_j43791486550161_2_alg».proof.Proof.KI.RowLane
import proofs.«161304_j43791486550161_2_alg».proof.Proof.KI.PointVal2
import proofs.«161304_j43791486550161_2_alg».proof.Proof.KI.PointVal2b
import proofs.«161304_j43791486550161_2_alg».proof.Proof.GridSums

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

open Idealize.ShloMosaic.ValueIdx Cert.KernelIdeal.PointVal Cert.LossSpec
open scoped BigOperators

/-- The zeros the first point stores are zero. -/
theorem zero_row (j : S1x128.Idx) : k0_pay1 (F := Ideal) j = 0 := Ideal.ofBits_zero_f32

/-- Lane k of the row after position n: the k-th block sums of the points 0 … n, added up. -/
theorem lane_outsAt (c : Dev nD) (k : Fin 14) (hk : k.val < 128) : ∀ (n : ℕ) (h : n < cfg0.N),
    outsAt m c n h (ix2 (0 : Fin 1) (⟨k.val, hk⟩ : Fin 128))
      = ∑ t : Fin (n + 1), fld (ptAcc m c ⟨t.val, lt_of_lt_of_le t.isLt h⟩) k (ix2 (0 : Fin 1) (0 : Fin 1))
  | 0, h => by
    rw [outsAt_zero, Fn.pointRow, rowOf_lane, zero_row, zero_add, Fin.sum_univ_one]
    rfl
  | n + 1, h => by
    rw [outsAt_succ, Fn.pointRow, rowOf_lane, lane_outsAt c k hk n (Nat.lt_of_succ_lt h)]
    conv_rhs => rw [Fin.sum_univ_castSucc]
    rfl

/-- The point at position t holds pred's (t / 3, t mod 3) block, -/
theorem blk_p (c : Dev nD) (t : Fin cfg0.N) :
    (fun d h w => iblk m c 0 t (ix5 (0 : Fin 1) (0 : Fin 1) d h w))
      = vblk (V m c main_arg0) (⟨t.val / 3, by have h1 := t.isLt; have h2 : cfg0.N = 6 := N_0; omega⟩ : Fin 2) (⟨t.val % 3, Nat.mod_lt _ (by norm_num)⟩ : Fin 3) :=
  funext fun d => funext fun h => funext fun w => blk0_apply m c t d h w
/-- target's, -/
theorem blk_t (c : Dev nD) (t : Fin cfg0.N) :
    (fun d h w => iblk m c 1 t (ix5 (0 : Fin 1) (0 : Fin 1) d h w))
      = vblk (V m c main_arg1) (⟨t.val / 3, by have h1 := t.isLt; have h2 : cfg0.N = 6 := N_0; omega⟩ : Fin 2) (⟨t.val % 3, Nat.mod_lt _ (by norm_num)⟩ : Fin 3) :=
  funext fun d => funext fun h => funext fun w => blk1_apply m c t d h w
/-- and mask's (t / 3) block. -/
theorem blk_m (c : Dev nD) (t : Fin cfg0.N) :
    (fun d h w => iblk m c 2 t (ix5 (0 : Fin 1) (0 : Fin 1) d h w))
      = mblk (V m c main_arg2) (⟨t.val / 3, by have h1 := t.isLt; have h2 : cfg0.N = 6 := N_0; omega⟩ : Fin 2) :=
  funext fun d => funext fun h => funext fun w => blk2_apply m c t d h w

/-- Lane 0 of the final row is the whole-array sum `s1`. -/
theorem lane_s1 (c : Dev nD) :
    lastRow m c (ix2 (0 : Fin 1) (⟨0, by omega⟩ : Fin 128)) = Cert.LossSpec.s1 (V m c main_arg0) (V m c main_arg1) (V m c main_arg2) := by
  have h5 : 5 < cfg0.N := by rw [show cfg0.N = 6 from N_0]; decide
  rw [show lastRow m c = outsAt m c 5 h5 from rfl, lane_outsAt m c ⟨0, by omega⟩ (by decide) 5 h5]
  show ∑ t : Fin 6, (ptAcc m c ⟨t.val, _⟩).s1 (ix2 (0 : Fin 1) (0 : Fin 1)) = _
  simp only [s1_eq, blk_p m c, blk_t m c, blk_m m c]
  exact Cert.LossSpec.grid_s1 _ _ _ _ _

/-- Lane 1 of the final row is the whole-array sum `m0`. -/
theorem lane_m0 (c : Dev nD) :
    lastRow m c (ix2 (0 : Fin 1) (⟨1, by omega⟩ : Fin 128)) = Cert.LossSpec.m0 (V m c main_arg2) := by
  have h5 : 5 < cfg0.N := by rw [show cfg0.N = 6 from N_0]; decide
  rw [show lastRow m c = outsAt m c 5 h5 from rfl, lane_outsAt m c ⟨1, by omega⟩ (by decide) 5 h5]
  show ∑ t : Fin 6, (ptAcc m c ⟨t.val, _⟩).m0 (ix2 (0 : Fin 1) (0 : Fin 1)) = _
  simp only [m0_eq, blk_p m c, blk_t m c, blk_m m c]
  exact Cert.LossSpec.grid_m0 _ _

/-- Lane 2 of the final row is the whole-array sum `smse`. -/
theorem lane_smse (c : Dev nD) :
    lastRow m c (ix2 (0 : Fin 1) (⟨2, by omega⟩ : Fin 128)) = Cert.LossSpec.smse (V m c main_arg0) (V m c main_arg1) (V m c main_arg2) := by
  have h5 : 5 < cfg0.N := by rw [show cfg0.N = 6 from N_0]; decide
  rw [show lastRow m c = outsAt m c 5 h5 from rfl, lane_outsAt m c ⟨2, by omega⟩ (by decide) 5 h5]
  show ∑ t : Fin 6, (ptAcc m c ⟨t.val, _⟩).smse (ix2 (0 : Fin 1) (0 : Fin 1)) = _
  simp only [smse_eq, blk_p m c, blk_t m c, blk_m m c]
  exact Cert.LossSpec.grid_smse _ _ _ _ _

/-- Lane 3 of the final row is the whole-array sum `sbg`. -/
theorem lane_sbg (c : Dev nD) :
    lastRow m c (ix2 (0 : Fin 1) (⟨3, by omega⟩ : Fin 128)) = Cert.LossSpec.sbg (V m c main_arg0) (V m c main_arg2) := by
  have h5 : 5 < cfg0.N := by rw [show cfg0.N = 6 from N_0]; decide
  rw [show lastRow m c = outsAt m c 5 h5 from rfl, lane_outsAt m c ⟨3, by omega⟩ (by decide) 5 h5]
  show ∑ t : Fin 6, (ptAcc m c ⟨t.val, _⟩).sbg (ix2 (0 : Fin 1) (0 : Fin 1)) = _
  simp only [sbg_eq, blk_p m c, blk_t m c, blk_m m c]
  exact Cert.LossSpec.grid_sbg _ _ _ _

/-- Lane 4 of the final row is the whole-array sum `minv`. -/
theorem lane_minv (c : Dev nD) :
    lastRow m c (ix2 (0 : Fin 1) (⟨4, by omega⟩ : Fin 128)) = Cert.LossSpec.minv (V m c main_arg2) := by
  have h5 : 5 < cfg0.N := by rw [show cfg0.N = 6 from N_0]; decide
  rw [show lastRow m c = outsAt m c 5 h5 from rfl, lane_outsAt m c ⟨4, by omega⟩ (by decide) 5 h5]
  show ∑ t : Fin 6, (ptAcc m c ⟨t.val, _⟩).minv (ix2 (0 : Fin 1) (0 : Fin 1)) = _
  simp only [minv_eq, blk_p m c, blk_t m c, blk_m m c]
  exact Cert.LossSpec.grid_minv _ _

/-- Lane 5 of the final row is the whole-array sum `sdx`. -/
theorem lane_sdx (c : Dev nD) :
    lastRow m c (ix2 (0 : Fin 1) (⟨5, by omega⟩ : Fin 128)) = Cert.LossSpec.sdx (V m c main_arg0) (V m c main_arg1) (V m c main_arg2) := by
  have h5 : 5 < cfg0.N := by rw [show cfg0.N = 6 from N_0]; decide
  rw [show lastRow m c = outsAt m c 5 h5 from rfl, lane_outsAt m c ⟨5, by omega⟩ (by decide) 5 h5]
  show ∑ t : Fin 6, (ptAcc m c ⟨t.val, _⟩).sdx (ix2 (0 : Fin 1) (0 : Fin 1)) = _
  simp only [sdx_eq, blk_p m c, blk_t m c, blk_m m c]
  exact Cert.LossSpec.grid_sdx _ _ _ _ _

/-- Lane 6 of the final row is the whole-array sum `mxs`. -/
theorem lane_mxs (c : Dev nD) :
    lastRow m c (ix2 (0 : Fin 1) (⟨6, by omega⟩ : Fin 128)) = Cert.LossSpec.mxs (V m c main_arg2) := by
  have h5 : 5 < cfg0.N := by rw [show cfg0.N = 6 from N_0]; decide
  rw [show lastRow m c = outsAt m c 5 h5 from rfl, lane_outsAt m c ⟨6, by omega⟩ (by decide) 5 h5]
  show ∑ t : Fin 6, (ptAcc m c ⟨t.val, _⟩).mxs (ix2 (0 : Fin 1) (0 : Fin 1)) = _
  simp only [mxs_eq, blk_p m c, blk_t m c, blk_m m c]
  exact Cert.LossSpec.grid_mxs _ _

/-- Lane 7 of the final row is the whole-array sum `stvx`. -/
theorem lane_stvx (c : Dev nD) :
    lastRow m c (ix2 (0 : Fin 1) (⟨7, by omega⟩ : Fin 128)) = Cert.LossSpec.stvx (V m c main_arg0) (V m c main_arg2) := by
  have h5 : 5 < cfg0.N := by rw [show cfg0.N = 6 from N_0]; decide
  rw [show lastRow m c = outsAt m c 5 h5 from rfl, lane_outsAt m c ⟨7, by omega⟩ (by decide) 5 h5]
  show ∑ t : Fin 6, (ptAcc m c ⟨t.val, _⟩).stvx (ix2 (0 : Fin 1) (0 : Fin 1)) = _
  simp only [stvx_eq, blk_p m c, blk_t m c, blk_m m c]
  exact Cert.LossSpec.grid_stvx _ _ _ _

/-- Lane 8 of the final row is the whole-array sum `sdy`. -/
theorem lane_sdy (c : Dev nD) :
    lastRow m c (ix2 (0 : Fin 1) (⟨8, by omega⟩ : Fin 128)) = Cert.LossSpec.sdy (V m c main_arg0) (V m c main_arg1) (V m c main_arg2) := by
  have h5 : 5 < cfg0.N := by rw [show cfg0.N = 6 from N_0]; decide
  rw [show lastRow m c = outsAt m c 5 h5 from rfl, lane_outsAt m c ⟨8, by omega⟩ (by decide) 5 h5]
  show ∑ t : Fin 6, (ptAcc m c ⟨t.val, _⟩).sdy (ix2 (0 : Fin 1) (0 : Fin 1)) = _
  simp only [sdy_eq, blk_p m c, blk_t m c, blk_m m c]
  exact Cert.LossSpec.grid_sdy _ _ _ _ _

/-- Lane 9 of the final row is the whole-array sum `mys`. -/
theorem lane_mys (c : Dev nD) :
    lastRow m c (ix2 (0 : Fin 1) (⟨9, by omega⟩ : Fin 128)) = Cert.LossSpec.mys (V m c main_arg2) := by
  have h5 : 5 < cfg0.N := by rw [show cfg0.N = 6 from N_0]; decide
  rw [show lastRow m c = outsAt m c 5 h5 from rfl, lane_outsAt m c ⟨9, by omega⟩ (by decide) 5 h5]
  show ∑ t : Fin 6, (ptAcc m c ⟨t.val, _⟩).mys (ix2 (0 : Fin 1) (0 : Fin 1)) = _
  simp only [mys_eq, blk_p m c, blk_t m c, blk_m m c]
  exact Cert.LossSpec.grid_mys _ _

/-- Lane 10 of the final row is the whole-array sum `stvy`. -/
theorem lane_stvy (c : Dev nD) :
    lastRow m c (ix2 (0 : Fin 1) (⟨10, by omega⟩ : Fin 128)) = Cert.LossSpec.stvy (V m c main_arg0) (V m c main_arg2) := by
  have h5 : 5 < cfg0.N := by rw [show cfg0.N = 6 from N_0]; decide
  rw [show lastRow m c = outsAt m c 5 h5 from rfl, lane_outsAt m c ⟨10, by omega⟩ (by decide) 5 h5]
  show ∑ t : Fin 6, (ptAcc m c ⟨t.val, _⟩).stvy (ix2 (0 : Fin 1) (0 : Fin 1)) = _
  simp only [stvy_eq, blk_p m c, blk_t m c, blk_m m c]
  exact Cert.LossSpec.grid_stvy _ _ _ _

/-- Lane 11 of the final row is the whole-array sum `sdz`. -/
theorem lane_sdz (c : Dev nD) :
    lastRow m c (ix2 (0 : Fin 1) (⟨11, by omega⟩ : Fin 128)) = Cert.LossSpec.sdz (V m c main_arg0) (V m c main_arg1) (V m c main_arg2) := by
  have h5 : 5 < cfg0.N := by rw [show cfg0.N = 6 from N_0]; decide
  rw [show lastRow m c = outsAt m c 5 h5 from rfl, lane_outsAt m c ⟨11, by omega⟩ (by decide) 5 h5]
  show ∑ t : Fin 6, (ptAcc m c ⟨t.val, _⟩).sdz (ix2 (0 : Fin 1) (0 : Fin 1)) = _
  simp only [sdz_eq, blk_p m c, blk_t m c, blk_m m c]
  exact Cert.LossSpec.grid_sdz _ _ _ _ _

/-- Lane 12 of the final row is the whole-array sum `mzs`. -/
theorem lane_mzs (c : Dev nD) :
    lastRow m c (ix2 (0 : Fin 1) (⟨12, by omega⟩ : Fin 128)) = Cert.LossSpec.mzs (V m c main_arg2) := by
  have h5 : 5 < cfg0.N := by rw [show cfg0.N = 6 from N_0]; decide
  rw [show lastRow m c = outsAt m c 5 h5 from rfl, lane_outsAt m c ⟨12, by omega⟩ (by decide) 5 h5]
  show ∑ t : Fin 6, (ptAcc m c ⟨t.val, _⟩).mzs (ix2 (0 : Fin 1) (0 : Fin 1)) = _
  simp only [mzs_eq, blk_p m c, blk_t m c, blk_m m c]
  exact Cert.LossSpec.grid_mzs _ _

/-- Lane 13 of the final row is the whole-array sum `stvz`. -/
theorem lane_stvz (c : Dev nD) :
    lastRow m c (ix2 (0 : Fin 1) (⟨13, by omega⟩ : Fin 128)) = Cert.LossSpec.stvz (V m c main_arg0) (V m c main_arg2) := by
  have h5 : 5 < cfg0.N := by rw [show cfg0.N = 6 from N_0]; decide
  rw [show lastRow m c = outsAt m c 5 h5 from rfl, lane_outsAt m c ⟨13, by omega⟩ (by decide) 5 h5]
  show ∑ t : Fin 6, (ptAcc m c ⟨t.val, _⟩).stvz (ix2 (0 : Fin 1) (0 : Fin 1)) = _
  simp only [stvz_eq, blk_p m c, blk_t m c, blk_m m c]
  exact Cert.LossSpec.grid_stvz _ _ _ _

/-- The kernel's result after the run: the loss of the three arrays as launched. -/
theorem kernel_loss (c : Dev nD) :
    tailK (F := Ideal) (lastRow m c) = fun _ => Cert.LossSpec.loss (V m c main_arg0) (V m c main_arg1) (V m c main_arg2) := by
  rw [tailK_ideal]
  funext _
  rw [lane_s1 m c, lane_m0 m c, lane_smse m c, lane_sbg m c, lane_minv m c, lane_sdx m c, lane_mxs m c, lane_stvx m c, lane_sdy m c, lane_mys m c, lane_stvy m c, lane_sdz m c, lane_mzs m c, lane_stvz m c]
  rfl

/-- Every weakly fair execution of the kernel over the extended reals ends with its result at the loss of the three
    arrays and leaves them as launched. -/
theorem value_run : θ_run defs (onTc (τ := τ) (main (F := Ideal))) ⟨m, fun _ => 0, ρ⟩ (fun r => ∀ c : Dev nD,
      r.2.mem ((c.tc : Thread nD τ).loc main_v61)
        = (fun _ => Cert.LossSpec.loss (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v61 (Pipeline.mem_restRefs_of main_v61 rfl (fun w => by fin_cases w <;> decide))).trans
        ((kernel_value m c).trans (kernel_loss m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Frm

end
-- ==== Proof.RefLoss.lean ====
/-
  The reference program's result as the composite loss of Proof/LossSpec.lean: each of the reference's fourteen
  sums over all axes is the corresponding nested sum of the specification, and the scalar tail is lossOf of them.
-/
import proofs.«161304_j43791486550161_2_alg».proof.Proof.Gen.ReferenceIdeal.Read
import proofs.«161304_j43791486550161_2_alg».proof.Proof.LossSpec

noncomputable section

namespace Cert.RefLoss

open Idealize.ShloMosaic Idealize.ShloMosaic.ValueIdx Cert.ReferenceIdeal Cert.ReferenceIdeal.Read Cert.LossSpec
open scoped BigOperators

/-! ## Sums over a rank-5 index set -/

/-- A rank-5 index set is the product of its five coordinate ranges … -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- … so a sum over it is the five-fold sum over the coordinates. -/
theorem sum_idx5 {M : Type*} [AddCommMonoid M] {n0 n1 n2 n3 n4 : Nat}
    (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

/-! ## The literal 3.0 and a count taken three times -/

/-- The word of 3.0 denotes the real 3. -/
theorem ofBits_three : Ideal.ofBits .f32 0x40400000#32 = ((3 : ℝ) : EReal) := by
  simp [Ideal.ofBits, Ideal.ieee, -EReal.coe_mul]; norm_num

/-- Three times an extended real is its threefold sum (no finiteness needed: 3 = 1 + 1 + 1 with nonnegative parts). -/
theorem mul_three (x : EReal) : x * ((3 : ℝ) : EReal) = x + x + x := by
  have h3 : ((3 : ℝ) : EReal) = 1 + 1 + 1 := by
    rw [← EReal.coe_one, ← EReal.coe_add, ← EReal.coe_add]; norm_num
  rw [h3, EReal.left_distrib_of_nonneg (by norm_num) (by norm_num),
    EReal.left_distrib_of_nonneg (by norm_num) (by norm_num), mul_one]

/-- The reference's count of a mask-shaped field — zero plus its sum over [2,1,·,·,·], times 3.0 — is the sum that runs
    over the three channels too. -/
theorem count3 {n2 n3 n4 : Nat} (f : (⟨5, ![2, 1, n2, n3, n4]⟩ : Shape).Idx → EReal) :
    (Ideal.ofBits .f32 0x00000000#32 + ∑ j, f j) * Ideal.ofBits .f32 0x40400000#32
      = ∑ b : Fin 2, ∑ _c : Fin 3, ∑ d : Fin n2, ∑ h : Fin n3, ∑ w : Fin n4, f (ix5 b (0 : Fin 1) d h w) := by
  rw [Ideal.ofBits_zero_f32, zero_add, ofBits_three, mul_three, sum_idx5]
  simp only [Fin.sum_univ_three, Finset.sum_add_distrib, Finset.univ_unique, Finset.sum_singleton]
  rfl

/-! ## Fields read at coordinates -/

/-- Two rank-5 indices with the same coordinate values are equal. -/
theorem idx5_ext {n0 n1 n2 n3 n4 : Nat} {i j : (⟨5, ![n0, n1, n2, n3, n4]⟩ : Shape).Idx}
    (h0 : (i 0).val = (j 0).val) (h1 : (i 1).val = (j 1).val) (h2 : (i 2).val = (j 2).val)
    (h3 : (i 3).val = (j 3).val) (h4 : (i 4).val = (j 4).val) : i = j := by
  funext a
  match a with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4

section Full

variable (x0 x1 : FVec Ideal S2x3x128x128x128 .f32) (x2 : FVec Ideal S2x1x128x128x128 .f32)
variable (b : Fin 2) (c : Fin 3) (d h w : Fin 128)

/-- The mask spread over the channels. -/
theorem v0_at : val_main_v0 (F := Ideal) x2 (ix5 b c d h w) = mk x2 b d h w := by
  rw [val_main_v0_apply]; exact congrArg x2 (idx5_ext rfl rfl rfl rfl rfl)
theorem v2_at : val_main_v2 (F := Ideal) x2 (ix5 b c d h w) = mk x2 b d h w := by
  rw [val_main_v2_apply]; exact congrArg x2 (idx5_ext rfl rfl rfl rfl rfl)
theorem v6_at : val_main_v6 (F := Ideal) x2 (ix5 b c d h w) = mk x2 b d h w := by
  rw [val_main_v6_apply]; exact congrArg x2 (idx5_ext rfl rfl rfl rfl rfl)
theorem v106_at : val_main_v106 (F := Ideal) x2 (ix5 b c d h w) = mk x2 b d h w := by
  rw [val_main_v106_apply]; exact congrArg x2 (idx5_ext rfl rfl rfl rfl rfl)

/-- pred·mask and target·mask. -/
theorem v1_at : val_main_v1 (F := Ideal) x0 x2 (ix5 b c d h w) = pin x0 x2 b c d h w := by
  rw [val_main_v1_apply, v0_at]; rfl
theorem v3_at : val_main_v3 (F := Ideal) x1 x2 (ix5 b c d h w) = tin x1 x2 b c d h w := by
  rw [val_main_v3_apply, v2_at]; rfl
theorem v4_at : val_main_v4 (F := Ideal) x0 x1 x2 (ix5 b c d h w) = pin x0 x2 b c d h w - tin x1 x2 b c d h w := by
  rw [val_main_v4_apply, v1_at, v3_at]; rfl
/-- The summand of s1. -/
theorem v7_at : val_main_v7 (F := Ideal) x0 x1 x2 (ix5 b c d h w)
    = aabs (pin x0 x2 b c d h w - tin x1 x2 b c d h w) * mk x2 b d h w := by
  rw [val_main_v7_apply, val_main_v5_apply, v4_at, v6_at]; rfl
/-- The summand of smse. -/
theorem v107_at : val_main_v107 (F := Ideal) x0 x1 x2 (ix5 b c d h w)
    = ((pin x0 x2 b c d h w - tin x1 x2 b c d h w) * (pin x0 x2 b c d h w - tin x1 x2 b c d h w)) * mk x2 b d h w := by
  rw [val_main_v107_apply, val_main_v105_apply, v4_at, v106_at]; rfl
/-- One minus the mask, and the summand of sbg. -/
theorem v96_at : val_main_v96 (F := Ideal) x2 (ix5 b (0 : Fin 1) d h w) = one - mk x2 b d h w := by
  rw [val_main_v96_apply, val_main_v95_apply, val_main_cst_27_apply]; rfl
theorem v99_at : val_main_v99 (F := Ideal) x0 x2 (ix5 b c d h w)
    = aabs (x0 (ix5 b c d h w)) * (one - mk x2 b d h w) := by
  have e : idx_main_v98 (ix5 b c d h w) = ix5 b (0 : Fin 1) d h w := idx5_ext rfl rfl rfl rfl rfl
  rw [val_main_v99_apply, val_main_v97_apply, val_main_v98_apply, e, v96_at]; rfl

end Full

section Depth

variable (x0 x1 : FVec Ideal S2x3x128x128x128 .f32) (x2 : FVec Ideal S2x1x128x128x128 .f32)
variable (b : Fin 2) (c : Fin 3) (d : Fin 127) (h w : Fin 128)

/-- The two slices of pred·mask, of target·mask and of the mask: the upper and the lower member of each adjacent pair. -/
theorem v13_at : val_main_v13 (F := Ideal) x0 x2 (ix5 b c d h w) = pin x0 x2 b c (up d) h w := by
  have e : idx_main_v13 (ix5 b c d h w) = ix5 b c (up d) h w := idx5_ext rfl rfl (Nat.add_comm _ _) rfl rfl
  rw [val_main_v13_apply, e, v1_at]
theorem v14_at : val_main_v14 (F := Ideal) x0 x2 (ix5 b c d h w) = pin x0 x2 b c (lo d) h w := by
  have e : idx_main_v14 (ix5 b c d h w) = ix5 b c (lo d) h w := idx5_ext rfl rfl rfl rfl rfl
  rw [val_main_v14_apply, e, v1_at]
theorem v15_at : val_main_v15 (F := Ideal) x0 x2 (ix5 b c d h w) = pin x0 x2 b c (up d) h w - pin x0 x2 b c (lo d) h w := by
  rw [val_main_v15_apply, v13_at, v14_at]; rfl
theorem v22_at : val_main_v22 (F := Ideal) x1 x2 (ix5 b c d h w) = tin x1 x2 b c (up d) h w := by
  have e : idx_main_v22 (ix5 b c d h w) = ix5 b c (up d) h w := idx5_ext rfl rfl (Nat.add_comm _ _) rfl rfl
  rw [val_main_v22_apply, e, v3_at]
theorem v23_at : val_main_v23 (F := Ideal) x1 x2 (ix5 b c d h w) = tin x1 x2 b c (lo d) h w := by
  have e : idx_main_v23 (ix5 b c d h w) = ix5 b c (lo d) h w := idx5_ext rfl rfl rfl rfl rfl
  rw [val_main_v23_apply, e, v3_at]
theorem v24_at : val_main_v24 (F := Ideal) x1 x2 (ix5 b c d h w) = tin x1 x2 b c (up d) h w - tin x1 x2 b c (lo d) h w := by
  rw [val_main_v24_apply, v22_at, v23_at]; rfl
theorem v31_at : val_main_v31 (F := Ideal) x2 (ix5 b (0 : Fin 1) d h w) = mk x2 b (up d) h w := by
  rw [val_main_v31_apply]; exact congrArg x2 (idx5_ext rfl rfl (Nat.add_comm _ _) rfl rfl)
theorem v32_at : val_main_v32 (F := Ideal) x2 (ix5 b (0 : Fin 1) d h w) = mk x2 b (lo d) h w := by
  rw [val_main_v32_apply]; exact congrArg x2 (idx5_ext rfl rfl rfl rfl rfl)
/-- The pair's mask. -/
theorem v33_at : val_main_v33 (F := Ideal) x2 (ix5 b (0 : Fin 1) d h w) = min (mk x2 b (up d) h w) (mk x2 b (lo d) h w) := by
  rw [val_main_v33_apply, v31_at, v32_at]; rfl
theorem v42_at : val_main_v42 (F := Ideal) x2 (ix5 b c d h w) = min (mk x2 b (up d) h w) (mk x2 b (lo d) h w) := by
  have e : idx_main_v42 (ix5 b c d h w) = ix5 b (0 : Fin 1) d h w := idx5_ext rfl rfl rfl rfl rfl
  rw [val_main_v42_apply, e, v33_at]
theorem v70_at : val_main_v70 (F := Ideal) x2 (ix5 b c d h w) = min (mk x2 b (up d) h w) (mk x2 b (lo d) h w) := by
  have e : idx_main_v70 (ix5 b c d h w) = ix5 b (0 : Fin 1) d h w := idx5_ext rfl rfl rfl rfl rfl
  rw [val_main_v70_apply, e, v33_at]
/-- The summands of the gradient-difference sum and of the total-variation sum along this axis. -/
theorem v43_at : val_main_v43 (F := Ideal) x0 x1 x2 (ix5 b c d h w)
    = aabs ((pin x0 x2 b c (up d) h w - pin x0 x2 b c (lo d) h w) - (tin x1 x2 b c (up d) h w - tin x1 x2 b c (lo d) h w)) * min (mk x2 b (up d) h w) (mk x2 b (lo d) h w) := by
  rw [val_main_v43_apply, val_main_v41_apply, val_main_v40_apply, v15_at, v24_at, v42_at]; rfl
theorem v71_at : val_main_v71 (F := Ideal) x0 x2 (ix5 b c d h w)
    = aabs (pin x0 x2 b c (up d) h w - pin x0 x2 b c (lo d) h w) * min (mk x2 b (up d) h w) (mk x2 b (lo d) h w) := by
  rw [val_main_v71_apply, val_main_v69_apply, v15_at, v70_at]; rfl

end Depth

section Height

variable (x0 x1 : FVec Ideal S2x3x128x128x128 .f32) (x2 : FVec Ideal S2x1x128x128x128 .f32)
variable (b : Fin 2) (c : Fin 3) (d : Fin 128) (h : Fin 127) (w : Fin 128)

/-- The two slices of pred·mask, of target·mask and of the mask: the upper and the lower member of each adjacent pair. -/
theorem v16_at : val_main_v16 (F := Ideal) x0 x2 (ix5 b c d h w) = pin x0 x2 b c d (up h) w := by
  have e : idx_main_v16 (ix5 b c d h w) = ix5 b c d (up h) w := idx5_ext rfl rfl rfl (Nat.add_comm _ _) rfl
  rw [val_main_v16_apply, e, v1_at]
theorem v17_at : val_main_v17 (F := Ideal) x0 x2 (ix5 b c d h w) = pin x0 x2 b c d (lo h) w := by
  have e : idx_main_v17 (ix5 b c d h w) = ix5 b c d (lo h) w := idx5_ext rfl rfl rfl rfl rfl
  rw [val_main_v17_apply, e, v1_at]
theorem v18_at : val_main_v18 (F := Ideal) x0 x2 (ix5 b c d h w) = pin x0 x2 b c d (up h) w - pin x0 x2 b c d (lo h) w := by
  rw [val_main_v18_apply, v16_at, v17_at]; rfl
theorem v25_at : val_main_v25 (F := Ideal) x1 x2 (ix5 b c d h w) = tin x1 x2 b c d (up h) w := by
  have e : idx_main_v25 (ix5 b c d h w) = ix5 b c d (up h) w := idx5_ext rfl rfl rfl (Nat.add_comm _ _) rfl
  rw [val_main_v25_apply, e, v3_at]
theorem v26_at : val_main_v26 (F := Ideal) x1 x2 (ix5 b c d h w) = tin x1 x2 b c d (lo h) w := by
  have e : idx_main_v26 (ix5 b c d h w) = ix5 b c d (lo h) w := idx5_ext rfl rfl rfl rfl rfl
  rw [val_main_v26_apply, e, v3_at]
theorem v27_at : val_main_v27 (F := Ideal) x1 x2 (ix5 b c d h w) = tin x1 x2 b c d (up h) w - tin x1 x2 b c d (lo h) w := by
  rw [val_main_v27_apply, v25_at, v26_at]; rfl
theorem v34_at : val_main_v34 (F := Ideal) x2 (ix5 b (0 : Fin 1) d h w) = mk x2 b d (up h) w := by
  rw [val_main_v34_apply]; exact congrArg x2 (idx5_ext rfl rfl rfl (Nat.add_comm _ _) rfl)
theorem v35_at : val_main_v35 (F := Ideal) x2 (ix5 b (0 : Fin 1) d h w) = mk x2 b d (lo h) w := by
  rw [val_main_v35_apply]; exact congrArg x2 (idx5_ext rfl rfl rfl rfl rfl)
/-- The pair's mask. -/
theorem v36_at : val_main_v36 (F := Ideal) x2 (ix5 b (0 : Fin 1) d h w) = min (mk x2 b d (up h) w) (mk x2 b d (lo h) w) := by
  rw [val_main_v36_apply, v34_at, v35_at]; rfl
theorem v51_at : val_main_v51 (F := Ideal) x2 (ix5 b c d h w) = min (mk x2 b d (up h) w) (mk x2 b d (lo h) w) := by
  have e : idx_main_v51 (ix5 b c d h w) = ix5 b (0 : Fin 1) d h w := idx5_ext rfl rfl rfl rfl rfl
  rw [val_main_v51_apply, e, v36_at]
theorem v78_at : val_main_v78 (F := Ideal) x2 (ix5 b c d h w) = min (mk x2 b d (up h) w) (mk x2 b d (lo h) w) := by
  have e : idx_main_v78 (ix5 b c d h w) = ix5 b (0 : Fin 1) d h w := idx5_ext rfl rfl rfl rfl rfl
  rw [val_main_v78_apply, e, v36_at]
/-- The summands of the gradient-difference sum and of the total-variation sum along this axis. -/
theorem v52_at : val_main_v52 (F := Ideal) x0 x1 x2 (ix5 b c d h w)
    = aabs ((pin x0 x2 b c d (up h) w - pin x0 x2 b c d (lo h) w) - (tin x1 x2 b c d (up h) w - tin x1 x2 b c d (lo h) w)) * min (mk x2 b d (up h) w) (mk x2 b d (lo h) w) := by
  rw [val_main_v52_apply, val_main_v50_apply, val_main_v49_apply, v18_at, v27_at, v51_at]; rfl
theorem v79_at : val_main_v79 (F := Ideal) x0 x2 (ix5 b c d h w)
    = aabs (pin x0 x2 b c d (up h) w - pin x0 x2 b c d (lo h) w) * min (mk x2 b d (up h) w) (mk x2 b d (lo h) w) := by
  rw [val_main_v79_apply, val_main_v77_apply, v18_at, v78_at]; rfl

end Height

section Width

variable (x0 x1 : FVec Ideal S2x3x128x128x128 .f32) (x2 : FVec Ideal S2x1x128x128x128 .f32)
variable (b : Fin 2) (c : Fin 3) (d h : Fin 128) (w : Fin 127)

/-- The two slices of pred·mask, of target·mask and of the mask: the upper and the lower member of each adjacent pair. -/
theorem v19_at : val_main_v19 (F := Ideal) x0 x2 (ix5 b c d h w) = pin x0 x2 b c d h (up w) := by
  have e : idx_main_v19 (ix5 b c d h w) = ix5 b c d h (up w) := idx5_ext rfl rfl rfl rfl (Nat.add_comm _ _)
  rw [val_main_v19_apply, e, v1_at]
theorem v20_at : val_main_v20 (F := Ideal) x0 x2 (ix5 b c d h w) = pin x0 x2 b c d h (lo w) := by
  have e : idx_main_v20 (ix5 b c d h w) = ix5 b c d h (lo w) := idx5_ext rfl rfl rfl rfl rfl
  rw [val_main_v20_apply, e, v1_at]
theorem v21_at : val_main_v21 (F := Ideal) x0 x2 (ix5 b c d h w) = pin x0 x2 b c d h (up w) - pin x0 x2 b c d h (lo w) := by
  rw [val_main_v21_apply, v19_at, v20_at]; rfl
theorem v28_at : val_main_v28 (F := Ideal) x1 x2 (ix5 b c d h w) = tin x1 x2 b c d h (up w) := by
  have e : idx_main_v28 (ix5 b c d h w) = ix5 b c d h (up w) := idx5_ext rfl rfl rfl rfl (Nat.add_comm _ _)
  rw [val_main_v28_apply, e, v3_at]
theorem v29_at : val_main_v29 (F := Ideal) x1 x2 (ix5 b c d h w) = tin x1 x2 b c d h (lo w) := by
  have e : idx_main_v29 (ix5 b c d h w) = ix5 b c d h (lo w) := idx5_ext rfl rfl rfl rfl rfl
  rw [val_main_v29_apply, e, v3_at]
theorem v30_at : val_main_v30 (F := Ideal) x1 x2 (ix5 b c d h w) = tin x1 x2 b c d h (up w) - tin x1 x2 b c d h (lo w) := by
  rw [val_main_v30_apply, v28_at, v29_at]; rfl
theorem v37_at : val_main_v37 (F := Ideal) x2 (ix5 b (0 : Fin 1) d h w) = mk x2 b d h (up w) := by
  rw [val_main_v37_apply]; exact congrArg x2 (idx5_ext rfl rfl rfl rfl (Nat.add_comm _ _))
theorem v38_at : val_main_v38 (F := Ideal) x2 (ix5 b (0 : Fin 1) d h w) = mk x2 b d h (lo w) := by
  rw [val_main_v38_apply]; exact congrArg x2 (idx5_ext rfl rfl rfl rfl rfl)
/-- The pair's mask. -/
theorem v39_at : val_main_v39 (F := Ideal) x2 (ix5 b (0 : Fin 1) d h w) = min (mk x2 b d h (up w)) (mk x2 b d h (lo w)) := by
  rw [val_main_v39_apply, v37_at, v38_at]; rfl
theorem v61_at : val_main_v61 (F := Ideal) x2 (ix5 b c d h w) = min (mk x2 b d h (up w)) (mk x2 b d h (lo w)) := by
  have e : idx_main_v61 (ix5 b c d h w) = ix5 b (0 : Fin 1) d h w := idx5_ext rfl rfl rfl rfl rfl
  rw [val_main_v61_apply, e, v39_at]
theorem v87_at : val_main_v87 (F := Ideal) x2 (ix5 b c d h w) = min (mk x2 b d h (up w)) (mk x2 b d h (lo w)) := by
  have e : idx_main_v87 (ix5 b c d h w) = ix5 b (0 : Fin 1) d h w := idx5_ext rfl rfl rfl rfl rfl
  rw [val_main_v87_apply, e, v39_at]
/-- The summands of the gradient-difference sum and of the total-variation sum along this axis. -/
theorem v62_at : val_main_v62 (F := Ideal) x0 x1 x2 (ix5 b c d h w)
    = aabs ((pin x0 x2 b c d h (up w) - pin x0 x2 b c d h (lo w)) - (tin x1 x2 b c d h (up w) - tin x1 x2 b c d h (lo w))) * min (mk x2 b d h (up w)) (mk x2 b d h (lo w)) := by
  rw [val_main_v62_apply, val_main_v60_apply, val_main_v59_apply, v21_at, v30_at, v61_at]; rfl
theorem v88_at : val_main_v88 (F := Ideal) x0 x2 (ix5 b c d h w)
    = aabs (pin x0 x2 b c d h (up w) - pin x0 x2 b c d h (lo w)) * min (mk x2 b d h (up w)) (mk x2 b d h (lo w)) := by
  rw [val_main_v88_apply, val_main_v86_apply, v21_at, v87_at]; rfl

end Width

/-! ## The sums, the counts and the masked means -/

section Sums

variable (x0 x1 : FVec Ideal S2x3x128x128x128 .f32) (x2 : FVec Ideal S2x1x128x128x128 .f32)

theorem v8_eq (i : S_.Idx) : val_main_v8 (F := Ideal) x0 x1 x2 i = s1 x0 x1 x2 := by
  rw [val_main_v8_apply, val_main_cst_apply, Ideal.ofBits_def, Ideal.ofBits_zero_f32, zero_add, sum_idx5]
  simp only [v7_at]
  rfl
theorem v10_eq (i : S_.Idx) : val_main_v10 (F := Ideal) x2 i = m0 x2 := by
  rw [val_main_v10_apply, val_main_v9_apply, val_main_cst_0_apply, val_main_cst_1_apply]
  simp only [Ideal.mulf_def, Ideal.ofBits_def]
  rw [count3]
  rfl
theorem v12_eq (i : S_.Idx) : val_main_v12 (F := Ideal) x0 x1 x2 i = q (s1 x0 x1 x2) (m0 x2) := by
  rw [val_main_v12_apply, val_main_v11_apply, v8_eq, v10_eq, val_main_cst_2_apply]; rfl
theorem v108_eq (i : S_.Idx) : val_main_v108 (F := Ideal) x0 x1 x2 i = smse x0 x1 x2 := by
  rw [val_main_v108_apply, val_main_cst_32_apply, Ideal.ofBits_def, Ideal.ofBits_zero_f32, zero_add, sum_idx5]
  simp only [v107_at]
  rfl
theorem v110_eq (i : S_.Idx) : val_main_v110 (F := Ideal) x2 i = m0 x2 := by
  rw [val_main_v110_apply, val_main_v109_apply, val_main_cst_33_apply, val_main_cst_34_apply]
  simp only [Ideal.mulf_def, Ideal.ofBits_def]
  rw [count3]
  rfl
theorem v112_eq (i : S_.Idx) : val_main_v112 (F := Ideal) x0 x1 x2 i = q (smse x0 x1 x2) (m0 x2) := by
  rw [val_main_v112_apply, val_main_v111_apply, v108_eq, v110_eq, val_main_cst_35_apply]; rfl
theorem v100_eq (i : S_.Idx) : val_main_v100 (F := Ideal) x0 x2 i = sbg x0 x2 := by
  rw [val_main_v100_apply, val_main_cst_28_apply, Ideal.ofBits_def, Ideal.ofBits_zero_f32, zero_add, sum_idx5]
  simp only [v99_at]
  rfl
theorem v102_eq (i : S_.Idx) : val_main_v102 (F := Ideal) x2 i = minv x2 := by
  rw [val_main_v102_apply, val_main_v101_apply, val_main_cst_29_apply, val_main_cst_30_apply]
  simp only [Ideal.mulf_def, Ideal.ofBits_def]
  rw [count3]
  simp only [v96_at]
  rfl
theorem v104_eq (i : S_.Idx) : val_main_v104 (F := Ideal) x0 x2 i = q (sbg x0 x2) (minv x2) := by
  rw [val_main_v104_apply, val_main_v103_apply, v100_eq, v102_eq, val_main_cst_31_apply]; rfl

/-- Along depth: the two sums, the pair count (taken twice by the program), and the two masked means. -/
theorem v44_eq (i : S_.Idx) : val_main_v44 (F := Ideal) x0 x1 x2 i = sdx x0 x1 x2 := by
  rw [val_main_v44_apply, val_main_cst_3_apply, Ideal.ofBits_def, Ideal.ofBits_zero_f32, zero_add, sum_idx5]
  simp only [v43_at]
  rfl
theorem v46_eq (i : S_.Idx) : val_main_v46 (F := Ideal) x2 i = mxs x2 := by
  rw [val_main_v46_apply, val_main_v45_apply, val_main_cst_4_apply, val_main_cst_5_apply]
  simp only [Ideal.mulf_def, Ideal.ofBits_def]
  rw [count3]
  simp only [v33_at]
  rfl
theorem v48_eq (i : S_.Idx) : val_main_v48 (F := Ideal) x0 x1 x2 i = q (sdx x0 x1 x2) (mxs x2) := by
  rw [val_main_v48_apply, val_main_v47_apply, v44_eq, v46_eq, val_main_cst_6_apply]; rfl
theorem v72_eq (i : S_.Idx) : val_main_v72 (F := Ideal) x0 x2 i = stvx x0 x2 := by
  rw [val_main_v72_apply, val_main_cst_15_apply, Ideal.ofBits_def, Ideal.ofBits_zero_f32, zero_add, sum_idx5]
  simp only [v71_at]
  rfl
theorem v74_eq (i : S_.Idx) : val_main_v74 (F := Ideal) x2 i = mxs x2 := by
  rw [val_main_v74_apply, val_main_v73_apply, val_main_cst_16_apply, val_main_cst_17_apply]
  simp only [Ideal.mulf_def, Ideal.ofBits_def]
  rw [count3]
  simp only [v33_at]
  rfl
theorem v76_eq (i : S_.Idx) : val_main_v76 (F := Ideal) x0 x2 i = q (stvx x0 x2) (mxs x2) := by
  rw [val_main_v76_apply, val_main_v75_apply, v72_eq, v74_eq, val_main_cst_18_apply]; rfl

/-- Along height: the two sums, the pair count (taken twice by the program), and the two masked means. -/
theorem v53_eq (i : S_.Idx) : val_main_v53 (F := Ideal) x0 x1 x2 i = sdy x0 x1 x2 := by
  rw [val_main_v53_apply, val_main_cst_7_apply, Ideal.ofBits_def, Ideal.ofBits_zero_f32, zero_add, sum_idx5]
  simp only [v52_at]
  rfl
theorem v55_eq (i : S_.Idx) : val_main_v55 (F := Ideal) x2 i = mys x2 := by
  rw [val_main_v55_apply, val_main_v54_apply, val_main_cst_8_apply, val_main_cst_9_apply]
  simp only [Ideal.mulf_def, Ideal.ofBits_def]
  rw [count3]
  simp only [v36_at]
  rfl
theorem v57_eq (i : S_.Idx) : val_main_v57 (F := Ideal) x0 x1 x2 i = q (sdy x0 x1 x2) (mys x2) := by
  rw [val_main_v57_apply, val_main_v56_apply, v53_eq, v55_eq, val_main_cst_10_apply]; rfl
theorem v80_eq (i : S_.Idx) : val_main_v80 (F := Ideal) x0 x2 i = stvy x0 x2 := by
  rw [val_main_v80_apply, val_main_cst_19_apply, Ideal.ofBits_def, Ideal.ofBits_zero_f32, zero_add, sum_idx5]
  simp only [v79_at]
  rfl
theorem v82_eq (i : S_.Idx) : val_main_v82 (F := Ideal) x2 i = mys x2 := by
  rw [val_main_v82_apply, val_main_v81_apply, val_main_cst_20_apply, val_main_cst_21_apply]
  simp only [Ideal.mulf_def, Ideal.ofBits_def]
  rw [count3]
  simp only [v36_at]
  rfl
theorem v84_eq (i : S_.Idx) : val_main_v84 (F := Ideal) x0 x2 i = q (stvy x0 x2) (mys x2) := by
  rw [val_main_v84_apply, val_main_v83_apply, v80_eq, v82_eq, val_main_cst_22_apply]; rfl

/-- Along width: the two sums, the pair count (taken twice by the program), and the two masked means. -/
theorem v63_eq (i : S_.Idx) : val_main_v63 (F := Ideal) x0 x1 x2 i = sdz x0 x1 x2 := by
  rw [val_main_v63_apply, val_main_cst_11_apply, Ideal.ofBits_def, Ideal.ofBits_zero_f32, zero_add, sum_idx5]
  simp only [v62_at]
  rfl
theorem v65_eq (i : S_.Idx) : val_main_v65 (F := Ideal) x2 i = mzs x2 := by
  rw [val_main_v65_apply, val_main_v64_apply, val_main_cst_12_apply, val_main_cst_13_apply]
  simp only [Ideal.mulf_def, Ideal.ofBits_def]
  rw [count3]
  simp only [v39_at]
  rfl
theorem v67_eq (i : S_.Idx) : val_main_v67 (F := Ideal) x0 x1 x2 i = q (sdz x0 x1 x2) (mzs x2) := by
  rw [val_main_v67_apply, val_main_v66_apply, v63_eq, v65_eq, val_main_cst_14_apply]; rfl
theorem v89_eq (i : S_.Idx) : val_main_v89 (F := Ideal) x0 x2 i = stvz x0 x2 := by
  rw [val_main_v89_apply, val_main_cst_23_apply, Ideal.ofBits_def, Ideal.ofBits_zero_f32, zero_add, sum_idx5]
  simp only [v88_at]
  rfl
theorem v91_eq (i : S_.Idx) : val_main_v91 (F := Ideal) x2 i = mzs x2 := by
  rw [val_main_v91_apply, val_main_v90_apply, val_main_cst_24_apply, val_main_cst_25_apply]
  simp only [Ideal.mulf_def, Ideal.ofBits_def]
  rw [count3]
  simp only [v39_at]
  rfl
theorem v93_eq (i : S_.Idx) : val_main_v93 (F := Ideal) x0 x2 i = q (stvz x0 x2) (mzs x2) := by
  rw [val_main_v93_apply, val_main_v92_apply, v89_eq, v91_eq, val_main_cst_26_apply]; rfl

end Sums

/-! ## The result -/

/-- The reference's result is the loss of its three arguments. -/
theorem result_eq (x0 x1 : FVec Ideal S2x3x128x128x128 .f32) (x2 : FVec Ideal S2x1x128x128x128 .f32) :
    val_main_v121 (F := Ideal) x0 x1 x2 = fun _ => loss x0 x1 x2 := by
  funext i
  rw [val_main_v121_apply, val_main_v119_apply, val_main_v117_apply, val_main_v115_apply, val_main_v113_apply,
    val_main_v114_apply, val_main_v68_apply, val_main_v58_apply, val_main_v116_apply, val_main_v94_apply,
    val_main_v85_apply, val_main_v118_apply, val_main_v120_apply, val_main_cst_36_apply, val_main_cst_37_apply,
    val_main_cst_38_apply, val_main_cst_39_apply, val_main_cst_40_apply, v12_eq, v48_eq, v57_eq, v67_eq, v76_eq,
    v84_eq, v93_eq, v104_eq, v112_eq]
  rfl

end Cert.RefLoss

end
-- ==== Proof.lean ====
/-
  The loss kernel against its reference: the kernel accumulates, over a 2 × 3 grid of (batch, channel) points and
  sixteen slabs of eight planes each, fourteen sums — of |pred·mask − target·mask|·mask, of mask, of the squared
  difference times mask, of |pred|·(1 − mask), of 1 − mask, and, along each of the three spatial axes, of the
  absolute difference of the two fields' finite differences times the pairwise minimum of mask, of that minimum, and
  of the absolute finite difference of pred·mask times it — into one row, and the host then forms the five quotients
  sum / (count + ε) and their weighted sum. The reference forms the same fourteen sums over the whole arrays (a
  count as the mask's sum times the three channels) and the same quotients and weights.

  Both programs run to the end, fault nowhere and leave pred, target and mask as launched; the kernel's idealization
  is its own text read over the extended reals (no operation is rewritten); and over the extended reals both results
  are the same function of the three arrays: each lane of the kernel's row is the reference's whole-array sum — the
  sums regrouped by batch, channel and slab, a mask count taken three times being the count times three — and the two
  tails are the same combination of the fourteen numbers. No finiteness of the inputs is used.
-/
import proofs.«161304_j43791486550161_2_alg».proof.Defs
import proofs.«161304_j43791486550161_2_alg».proof.Proof.Gen.Kernel
import proofs.«161304_j43791486550161_2_alg».proof.Proof.Gen.KernelIdeal
import proofs.«161304_j43791486550161_2_alg».proof.Proof.Gen.ReferenceIdeal
import proofs.«161304_j43791486550161_2_alg».proof.Proof.Gen.Pre_finite_inputs
import proofs.«161304_j43791486550161_2_alg».proof.Proof.Gen.ReferenceIdeal.Run
import proofs.«161304_j43791486550161_2_alg».proof.Proof.Gen.ReferenceIdeal.Read
import proofs.«161304_j43791486550161_2_alg».proof.Proof.K.Frame
import proofs.«161304_j43791486550161_2_alg».proof.Proof.KI.Value
import proofs.«161304_j43791486550161_2_alg».proof.Proof.RefLoss
import Idealize.ShloMosaic.Adequacy
import Idealize.ShloMosaic.Init

noncomputable section

namespace Cert.Proof

open Idealize.ShloMosaic Idealize.ShloMosaic.TcCoe Idealize.SL.Sem

/-- The word-level kernel runs to the end and leaves its three arguments unchanged. -/
theorem frame_k [Cert.Kernel.Facts] [Cert.Pre_finite_inputs.Facts] : Cert.frame_Kernel :=
  fun m ρ _ => Cert.Kernel.Frm.frame m ρ

/-- So does the kernel read over the extended reals. -/
theorem frame_ki [Cert.KernelIdeal.Facts] [Cert.Pre_finite_inputs.Facts] : Cert.frame_KernelIdeal :=
  fun m ρ _ => Cert.KernelIdeal.Frm.frame m ρ

/-- The reference is straight-line host code: its run, with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Over the extended reals, from memories agreeing on the three arrays, the kernel's result and the reference's are
    both the loss of those arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => (fun _ => Cert.LossSpec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))),
    Cert.KernelIdeal.Frm.value_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v121_eq, Cert.RefLoss.result_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
